-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16384x512 : Shape := ⟨3, ![1, 16384, 512]⟩
abbrev S1x16384x1024 : Shape := ⟨3, ![1, 16384, 1024]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩
abbrev S16384x1024 : Shape := ⟨2, ![16384, 1024]⟩
abbrev S1024 : Shape := ⟨1, ![1024]⟩

class Facts : Prop where
  bcast_S_S1x16384x512 : S_.BroadcastsInDim S1x16384x512 (![] : Fin 0 → Fin S1x16384x512.rank)
  reducesTo_S1x16384x512_S_d0_1_2 : S1x16384x512.ReducesTo [0, 1, 2] S_
  h_S_ : 0 < S_.numel
  bcast_S_S1x16384x1024 : S_.BroadcastsInDim S1x16384x1024 (![] : Fin 0 → Fin S1x16384x1024.rank)
  reducesTo_S1x16384x1024_S_d0_1_2 : S1x16384x1024.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  shapeCasts_S1x16384x1024_S16384x1024 : S1x16384x1024.ShapeCasts S16384x1024
  reducesTo_S16384x1024_S1024_d0 : S16384x1024.ReducesTo [0] S1024
  bcast_S_S1024 : S_.BroadcastsInDim S1024 (![] : Fin 0 → Fin S1024.rank)
  reducesTo_S1024_S_d0 : S1024.ReducesTo [0] S_

variable [Facts]

def fn_part3 {F : FTy → Type} [FloatOps F] (main_arg4 : FVec F S1x16384x1024 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S16384x1024 .f32 := shapeCast S16384x1024 main_arg4 shapeCasts_S1x16384x1024_S16384x1024
  let main_cst_20 : FVec F S_ .f32 := constant S_ .f32 0x00000000#32
  let main_v55 : FVec F S1024 .f32 := (fun x v => Host.reduceAdd x v reducesTo_S16384x1024_S1024_d0 h_S_) main_v54 main_cst_20
  let main_cst_21 : FVec F S_ .f32 := constant S_ .f32 0x00000000#32
  let main_v56 : FVec F S1024 .f32 := broadcastInDim S1024 ![] bcast_S_S1024 main_cst_21
  let main_v57 : IVec S1024 1 := cmpf .une main_v55 main_v56
  let main_c_22 : IVec S_ 1 := constantI S_ 1 1#1
  let main_v58 : IVec S_ 1 := (fun x v => Host.reduce IntOp.andi x v reducesTo_S1024_S_d0 h_S_) main_v57 main_c_22
  let main_v59 : IVec S_ 1 := andi main_v53 main_v58
  main_v59

def fn_part2 {F : FTy → Type} [FloatOps F] (main_arg4 : FVec F S1x16384x1024 .f32) (main_arg7 : FVec F S512x512 .f32) (main_arg8 : FVec F S512 .f32) (main_arg9 : FVec F S512x1 .f32) (main_arg10 : FVec F S1 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1 .f32 := Host.absf main_arg9
  let main_cst_16 : FVec F S_ .f32 := constant S_ .f32 0x7F800000#32
  let main_v45 : FVec F S512x1 .f32 := broadcastInDim S512x1 ![] bcast_S_S512x1 main_cst_16
  let main_v46 : IVec S512x1 1 := cmpf .olt main_v44 main_v45
  let main_c_17 : IVec S_ 1 := constantI S_ 1 1#1
  let main_v47 : IVec S_ 1 := (fun x v => Host.reduce IntOp.andi x v reducesTo_S512x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg4 main_v48 main_v49 main_v50

def fn_part1 {F : FTy → Type} [FloatOps F] (main_arg4 : FVec F S1x16384x1024 .f32) (main_arg5 : FVec F S512x512 .f32) (main_arg6 : FVec F S512 .f32) (main_arg7 : FVec F S512x512 .f32) (main_arg8 : FVec F S512 .f32) (main_arg9 : FVec F S512x1 .f32) (main_arg10 : FVec F S1 .f32) (main_v13 : IVec S_ 1) (main_v16 : IVec S1x16384x512 1) : IVec S_ 1 :=
  let main_c_5 : IVec S_ 1 := constantI S_ 1 1#1
  let main_v17 : IVec S_ 1 := (fun x v => Host.reduce IntOp.andi x v reducesTo_S1x16384x512_S_d0_1_2 h_S_) main_v16 main_c_5
  let main_v18 : IVec S_ 1 := andi main_v13 main_v17
  let main_v19 : FVec F S1x16384x1024 .f32 := Host.absf main_arg4
  let main_cst_6 : FVec F S_ .f32 := constant S_ .f32 0x7F800000#32
  let main_v20 : FVec F S1x16384x1024 .f32 := broadcastInDim S1x16384x1024 ![] bcast_S_S1x16384x1024 main_cst_6
  let main_v21 : IVec S1x16384x1024 1 := cmpf .olt main_v19 main_v20
  let main_c_7 : IVec S_ 1 := constantI S_ 1 1#1
  let main_v22 : IVec S_ 1 := (fun x v => Host.reduce IntOp.andi x v reducesTo_S1x16384x1024_S_d0_1_2 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg4 main_arg7 main_arg8 main_arg9 main_arg10 main_v33

def fn {F : FTy → Type} [FloatOps F] (main_arg0 : FVec F S1x16384x512 .f32) (main_arg1 : FVec F S1x16384x512 .f32) (main_arg2 : FVec F S1x16384x512 .f32) (main_arg3 : FVec F S1x16384x512 .f32) (main_arg4 : FVec F S1x16384x1024 .f32) (main_arg5 : FVec F S512x512 .f32) (main_arg6 : FVec F S512 .f32) (main_arg7 : FVec F S512x512 .f32) (main_arg8 : FVec F S512 .f32) (main_arg9 : FVec F S512x1 .f32) (main_arg10 : FVec F S1 .f32) : IVec S_ 1 :=
  let main_v0 : FVec F S1x16384x512 .f32 := Host.absf main_arg0
  let main_cst : FVec F S_ .f32 := constant S_ .f32 0x7F800000#32
  let main_v1 : FVec F S1x16384x512 .f32 := broadcastInDim S1x16384x512 ![] bcast_S_S1x16384x512 main_cst
  let main_v2 : IVec S1x16384x512 1 := cmpf .olt main_v0 main_v1
  let main_c : IVec S_ 1 := constantI S_ 1 1#1
  let main_v3 : IVec S_ 1 := (fun x v => Host.reduce IntOp.andi x v reducesTo_S1x16384x512_S_d0_1_2 h_S_) main_v2 main_c
  let main_v4 : FVec F S1x16384x512 .f32 := Host.absf main_arg1
  let main_cst_0 : FVec F S_ .f32 := constant S_ .f32 0x7F800000#32
  let main_v5 : FVec F S1x16384x512 .f32 := broadcastInDim S1x16384x512 ![] bcast_S_S1x16384x512 main_cst_0
  let main_v6 : IVec S1x16384x512 1 := cmpf .olt main_v4 main_v5
  let main_c_1 : IVec S_ 1 := constantI S_ 1 1#1
  let main_v7 : IVec S_ 1 := (fun x v => Host.reduce IntOp.andi x v reducesTo_S1x16384x512_S_d0_1_2 h_S_) main_v6 main_c_1
  let main_v8 : IVec S_ 1 := andi main_v3 main_v7
  let main_v9 : FVec F S1x16384x512 .f32 := Host.absf main_arg2
  let main_cst_2 : FVec F S_ .f32 := constant S_ .f32 0x7F800000#32
  let main_v10 : FVec F S1x16384x512 .f32 := broadcastInDim S1x16384x512 ![] bcast_S_S1x16384x512 main_cst_2
  let main_v11 : IVec S1x16384x512 1 := cmpf .olt main_v9 main_v10
  let main_c_3 : IVec S_ 1 := constantI S_ 1 1#1
  let main_v12 : IVec S_ 1 := (fun x v => Host.reduce IntOp.andi x v reducesTo_S1x16384x512_S_d0_1_2 h_S_) main_v11 main_c_3
  let main_v13 : IVec S_ 1 := andi main_v8 main_v12
  let main_v14 : FVec F S1x16384x512 .f32 := Host.absf main_arg3
  let main_cst_4 : FVec F S_ .f32 := constant S_ .f32 0x7F800000#32
  let main_v15 : FVec F S1x16384x512 .f32 := broadcastInDim S1x16384x512 ![] bcast_S_S1x16384x512 main_cst_4
  let main_v16 : IVec S1x16384x512 1 := cmpf .olt main_v14 main_v15
  fn_part1 (F := F) main_arg4 main_arg5 main_arg6 main_arg7 main_arg8 main_arg9 main_arg10 main_v13 main_v16
-- ==== Kernel.lean ====
abbrev S1x16384x512 : Shape := ⟨3, ![1, 16384, 512]⟩
abbrev S1x16384x1024 : Shape := ⟨3, ![1, 16384, 1024]⟩
abbrev S512x512 : Shape := ⟨2, ![512, 512]⟩
abbrev S512 : Shape := ⟨1, ![512]⟩
abbrev S512x1 : Shape := ⟨2, ![512, 1]⟩
abbrev S1 : Shape := ⟨1, ![1]⟩
abbrev S16384x512 : Shape := ⟨2, ![16384, 512]⟩
abbrev S16384x1024 : Shape := ⟨2, ![16384, 1024]⟩
abbrev S1x512 : Shape := ⟨2, ![1, 512]⟩
abbrev S1x1 : Shape := ⟨2, ![1, 1]⟩
abbrev S1024x4 : Shape := ⟨2, ![1024, 4]⟩
abbrev S1024x1 : Shape := ⟨2, ![1024, 1]⟩
abbrev S2048x512 : Shape := ⟨2, ![2048, 512]⟩
abbrev S2048x1024 : Shape := ⟨2, ![2048, 1024]⟩
abbrev S2x2048x4 : Shape := ⟨3, ![2, 2048, 4]⟩
abbrev S2048x1 : Shape := ⟨2, ![2048, 1]⟩
abbrev S2048x4 : Shape := ⟨2, ![2048, 4]⟩
abbrev S1x2048x4 : Shape := ⟨3, ![1, 2048, 4]⟩

abbrev nBuf : Space → Nat
  | .hbm => 22
  | .vmem => 18
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S1x16384x1024, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x1024, .f32⟩
  | .hbm, ⟨16, _⟩ => ⟨S1x512, .f32⟩
  | .hbm, ⟨17, _⟩ => ⟨S1x512, .f32⟩
  | .hbm, ⟨18, _⟩ => ⟨S1x1, .f32⟩
  | .hbm, ⟨19, _⟩ => ⟨S1024x4, .f32⟩
  | .hbm, ⟨20, _⟩ => ⟨S1024x1, .f32⟩
  | .hbm, ⟨21, _⟩ => ⟨S1024x1, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x1024, .f32⟩
  | .local _ .vmem, ⟨9, _⟩ => ⟨S2048x1024, .f32⟩
  | .local _ .vmem, ⟨10, _⟩ => ⟨S512x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S512x1, .f32⟩
  | .local _ .vmem, ⟨15, _⟩ => ⟨S1x1, .f32⟩
  | .local _ .vmem, ⟨16, _⟩ => ⟨S1024x4, .f32⟩
  | .local _ .vmem, ⟨17, _⟩ => ⟨S2x2048x4, .f32⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_v0_0 : Ref sig .tc := ⟨.hbm, 20, rfl⟩
abbrev main_v0_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let c2_i32 : BitVec 32 := 2#32
  let c0_i32_30 : BitVec 32 := 0#32
  let v46 : BitVec 1 := Scalar.cmpi .eq c2_i32 c0_i32_30
  let c1_i32_31 : BitVec 32 := 1#32
  let v47 : BitVec 32 := Scalar.select v46 c1_i32_31 c2_i32
  let v48 : BitVec 32 := Scalar.remsi arg0 v47
  let c0_i32_33 : BitVec 32 := 0#32
  let v50 : BitVec 1 := Scalar.cmpi .slt v48 c0_i32_33
  let c0_i32_34 : BitVec 32 := 0#32
  let v51 : BitVec 1 := Scalar.cmpi .slt v47 c0_i32_34
  let v52 : BitVec 1 := Scalar.xori v50 v51
  let c0_i32_32 : BitVec 32 := 0#32
  let v49 : BitVec 1 := Scalar.cmpi .ne v48 c0_i32_32
  let v53 : BitVec 1 := Scalar.andi v52 v49
  let v54 : BitVec 32 := Scalar.addi v48 v47
  let v55 : BitVec 32 := Scalar.select v53 v54 v48
  let v56 : Index := Scalar.indexCast v55
  let c0_35 : Index := 0#32
  let c0_36 : Index := 0#32
  ![v56.toNat, 0, 0]
def k0_cond3 (i : grid0.Coords) : BitVec 1 :=
  let arg0 : BitVec 32 := BitVec.ofNat 32 (i 0).val
  let c1_i32 : BitVec 32 := 1#32
  let v6 : BitVec 1 := Scalar.cmpi .sge arg0 c1_i32
  let v7 : BitVec 32 := Scalar.extui v6
  let c0_i32_2 : BitVec 32 := 0#32
  let v8 : BitVec 1 := Scalar.cmpi .ne v7 c0_i32_2
  v8

def k0_off2 (i : grid0.Coords) : Fin 3 → Nat :=
  let arg0 : BitVec 32 := BitVec.ofNat 32 (i 0).val
  let c1_i32_6 : BitVec 32 := 1#32
  let v14 : BitVec 32 := Scalar.subi arg0 c1_i32_6
  let c2_i32 : BitVec 32 := 2#32
  let c0_i32_7 : BitVec 32 := 0#32
  let v15 : BitVec 1 := Scalar.cmpi .eq c2_i32 c0_i32_7
  let c1_i32_8 : BitVec 32 := 1#32
  let v16 : BitVec 32 := Scalar.select v15 c1_i32_8 c2_i32
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : Index := Scalar.indexCast v24
  let c0_12 : Index := 0#32
  let c0_13 : Index := 0#32
  ![v25.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg0 : BitVec 32 := BitVec.ofNat 32 (i 0).val
  let c8_i32_3 : BitVec 32 := 8#32
  let v9 : BitVec 1 := Scalar.cmpi .eq arg0 c8_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  shapeCasts_S1x16384x512_S16384x512 : S1x16384x512.ShapeCasts S16384x512
  shapeCasts_S1x16384x1024_S16384x1024 : S1x16384x1024.ShapeCasts S16384x1024
  shapeCasts_S512_S1x512 : S512.ShapeCasts S1x512
  shapeCasts_S1_S1x1 : S1.ShapeCasts S1x1
  slices_S1024x4_S1024x1_0_0 : S1024x4.Slices ![0, 0] S1024x1
  slices_S1024x4_S1024x1_0_1 : S1024x4.Slices ![0, 1] S1024x1
  inb_S1024x4_S1024x4_0_0 : ∀ a, (![0, 0] : Fin 2 → Nat) a + S1024x4.size a ≤ S1024x4.size a
  h_S1024x4 : 0 < S1024x4.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x512_S2048x512 : S1x512.Broadcasts S2048x512
  concatenates_S2048x1_S2048x1_S2048x1_S2048x1_S2048x4_d1 : Shape.Concatenates [S2048x1, S2048x1, S2048x1, S2048x1] S2048x4 1
  h_S1x2048x4 : 0 < S1x2048x4.numel
  shapeCasts_S1x2048x4_S2048x4 : S1x2048x4.ShapeCasts S2048x4
  shapeCasts_S2048x4_S1x2048x4 : S2048x4.ShapeCasts S1x2048x4
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S1024x4_S1024x4 : S1024x4.ShapeCasts S1024x4
  slices_S1024x4_o0_2_S1024x1 : S1024x4.Slices ![0, 2] S1024x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S1024x4_o0_0_S1024x1 : S1024x4.Slices ![0, 0] S1024x1
  slices_S1024x4_o0_1_S1024x1 : S1024x4.Slices ![0, 1] S1024x1
  concatenates_S1024x1_S1024x1_S1024x1_S1024x1_S1024x4_d1 : Shape.Concatenates [S1024x1, S1024x1, S1024x1, S1024x1] S1024x4 1
  dot_S2048x512_S512x512_S2048x512_1_0_0_1_n_n_wf : DotDims.WF S2048x512 S512x512 S2048x512 [1] [0] [0] [1] [] []
  dot_S2048x512_S512x1_S2048x1_1_0_0_1_n_n_wf : DotDims.WF S2048x512 S512x1 S2048x1 [1] [0] [0] [1] [] []
  dot_S2048x1024_S2048x4_S1024x4_0_0_1_1_n_n_wf : DotDims.WF S2048x1024 S2048x4 S1024x4 [0] [0] [1] [1] [] []
  hrank0 : 0 < grid0.rank
  k0_off1_inb : ∀ i : grid0.Coords, ∀ (k0_h2 : k0_cond2 i = 1#1), ∀ a, (k0_off1 i) a + S1x2048x4.size a ≤ S2x2048x4.size a
  k0_off2_inb : ∀ i : grid0.Coords, ∀ (k0_h3 : k0_cond3 i = 1#1), ∀ a, (k0_off2 i) a + S1x2048x4.size a ≤ S2x2048x4.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S16384x512.size a
  hwx0_2 : ∀ i : grid0.Coords, EltTy.bits .f32 = 32 ∨ (Rect.block (s := S16384x512) S2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x512.size a
  hwx0_3 : ∀ i : grid0.Coords, EltTy.bits .f32 = 32 ∨ (Rect.block (s := S16384x512) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S16384x1024.size a
  hwx0_4 : ∀ i : grid0.Coords, EltTy.bits .f32 = 32 ∨ (Rect.block (s := S16384x1024) S2048x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S512x1.size a
  hwx0_9 : ∀ i : grid0.Coords, EltTy.bits .f32 = 32 ∨ (Rect.block (s := S512x1) S512x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x4.size a ≤ S1024x4.size a
  hwx0_11 : ∀ i : grid0.Coords, EltTy.bits .f32 = 32 ∨ (Rect.block (s := S1024x4) S1024x4.size (cc0_transform_11 i) (hinb0_11 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf
def dot_S2048x1024_S2048x4_S1024x4_0_0_1_1_n_n : DotDims S2048x1024 S2048x4 S1024x4 where
  lhsContracting := [0]
  rhsContracting := [0]
  lhsNonContracting := [1]
  rhsNonContracting := [1]
  lhsBatch := []
  rhsBatch := []
  wf := dot_S2048x1024_S2048x4_S1024x4_0_0_1_1_n_n_wf

abbrev win0_0 : Pipeline.Window sig grid0 :=
  Pipeline.Window.ofSpec (Memref.whole main_call0_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S2048x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v7) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v8) S1024x4.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond1 i == 1#1) && !(k0_cond3 i == 1#1) && !(k0_cond4 i == 1#1) | ⟨_ + 12, h⟩ => absurd h (Nat.not_lt.2 (Nat.le_add_left _ _))

class Facts : Prop extends Facts₀ where

variable [Facts]
-- ==== ReferenceIdeal.lean ====
abbrev S1x16384x512 : Shape := ⟨3, ![1, 16384, 512]⟩
abbrev S1x16384x1024 : Shape := ⟨3, ![1, 16384, 1024]⟩
abbrev S512x512 : Shape := ⟨2, ![512, 512]⟩
abbrev S512 : Shape := ⟨1, ![512]⟩
abbrev S512x1 : Shape := ⟨2, ![512, 1]⟩
abbrev S1 : Shape := ⟨1, ![1]⟩
abbrev S16384x1024 : Shape := ⟨2, ![16384, 1024]⟩
abbrev S_ : Shape := ⟨0, ![]⟩
abbrev S1024 : Shape := ⟨1, ![1024]⟩
abbrev S1x1024 : Shape := ⟨2, ![1, 1024]⟩
abbrev S16384x512 : Shape := ⟨2, ![16384, 512]⟩
abbrev S1x512 : Shape := ⟨2, ![1, 512]⟩
abbrev S1024x16384 : Shape := ⟨2, ![1024, 16384]⟩
abbrev S1024x512 : Shape := ⟨2, ![1024, 512]⟩
abbrev S1024x1 : Shape := ⟨2, ![1024, 1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S1x16384x1024, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S16384x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S1x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S1x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S1024x16384, .f32⟩
  | .hbm, ⟨32, _⟩ => ⟨S1024x512, .f32⟩
  | .hbm, ⟨33, _⟩ => ⟨S1024x1, .f32⟩
  | .hbm, ⟨34, _⟩ => ⟨S1x1, .f32⟩
  | .hbm, ⟨35, _⟩ => ⟨S1024x1, .f32⟩
  | .hbm, ⟨36, _⟩ => ⟨S1024x1, .f32⟩
  | .hbm, ⟨37, _⟩ => ⟨S1024x1, .f32⟩
  | .hbm, ⟨38, _⟩ => ⟨S1024x1, .f32⟩
  | .hbm, ⟨39, _⟩ => ⟨S_, .f32⟩
  | .hbm, ⟨40, _⟩ => ⟨S1024x1, .f32⟩
  | .hbm, ⟨41, _⟩ => ⟨S1024x1, .f32⟩
  | .hbm, ⟨42, _⟩ => ⟨S_, .f32⟩
  | .hbm, ⟨43, _⟩ => ⟨S1024x1, .f32⟩
  | .hbm, ⟨44, _⟩ => ⟨S1024x1, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S1x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S1x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S_, .f32⟩
  | .hbm, ⟨57, _⟩ => ⟨S16384x512, .f32⟩
  | .hbm, ⟨58, _⟩ => ⟨S16384x512, .f32⟩
  | .hbm, ⟨59, _⟩ => ⟨S1024x16384, .f32⟩
  | .hbm, ⟨60, _⟩ => ⟨S1024x512, .f32⟩
  | .hbm, ⟨61, _⟩ => ⟨S1024x1, .f32⟩
  | .hbm, ⟨62, _⟩ => ⟨S1x1, .f32⟩
  | .hbm, ⟨63, _⟩ => ⟨S1024x1, .f32⟩
  | .hbm, ⟨64, _⟩ => ⟨S1024x1, .f32⟩
  | .hbm, ⟨65, _⟩ => ⟨S1024x1, .f32⟩
  | .hbm, ⟨66, _⟩ => ⟨S1024x1, .f32⟩
  | .hbm, ⟨67, _⟩ => ⟨S_, .f32⟩
  | .hbm, ⟨68, _⟩ => ⟨S1024x1, .f32⟩
  | .hbm, ⟨69, _⟩ => ⟨S1024x1, .f32⟩
  | .hbm, ⟨70, _⟩ => ⟨S_, .f32⟩
  | .hbm, ⟨71, _⟩ => ⟨S1024x1, .f32⟩
  | .hbm, ⟨72, _⟩ => ⟨S1024x1, .f32⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call1_cst : Ref sig .tc := ⟨.hbm, 56, rfl⟩
abbrev main_call1_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_2 : Ref sig .tc := ⟨.hbm, 67, rfl⟩
abbrev main_v49 : Ref sig .tc := ⟨.hbm, 68, rfl⟩
abbrev main_v50 : Ref sig .tc := ⟨.hbm, 69, rfl⟩
abbrev main_cst_3 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  shapeCasts_S1x16384x1024_S16384x1024 : S1x16384x1024.ShapeCasts S16384x1024
  reducesTo_S16384x1024_S1024_d0 : S16384x1024.ReducesTo [0] S1024
  h_S_ : 0 < S_.numel
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S1x16384x512_S16384x512 : S1x16384x512.ShapeCasts S16384x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S16384x1024_S1024x16384_1_0 : S16384x1024.Transposes [1, 0] S1024x16384
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  dot_S16384x512_S512x512_S16384x512_1_0_0_1_n_n_wf : DotDims.WF S16384x512 S512x512 S16384x512 [1] [0] [0] [1] [] []
  dot_S1024x16384_S16384x512_S1024x512_1_0_0_1_n_n_wf : DotDims.WF S1024x16384 S16384x512 S1024x512 [1] [0] [0] [1] [] []
  dot_S1024x512_S512x1_S1024x1_1_0_0_1_n_n_wf : DotDims.WF S1024x512 S512x1 S1024x1 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S1024x16384_S16384x512_S1024x512_1_0_0_1_n_n : DotDims S1024x16384 S16384x512 S1024x512 where
  lhsContracting := [1]
  rhsContracting := [0]
  lhsNonContracting := [0]
  rhsNonContracting := [1]
  lhsBatch := []
  rhsBatch := []
  wf := dot_S1024x16384_S16384x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

class Facts : Prop extends Facts₀ where

variable [Facts]
-- ==== Proof.KbBase.lean ====
/-
  What the per-case runs of the kernel body share: the four branch conditions and the two scratch-slot
  offsets in closed form over the nine grid points, the staging memrefs as the pipeline passes them,
  and the region invariant with the scratch operand owned at some contents.
-/
import proofs.«129476_g5806795784444_cont_9to1c4b_204_10_alg».proof.Proof.Gen.Kernel.Frame
import proofs.«129476_g5806795784444_cont_9to1c4b_204_10_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions and the scratch offsets over the grid -/

/-- The output block is zeroed at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- A block of row scores is computed at every point but the last. -/
theorem hcond2 : ∀ t : Fin cfg0.N, k0_cond2 (grid0.coords t) = 1#1 ↔ t.val < 8 :=
  (by decide +kernel : ∀ t : Fin grid0.N, k0_cond2 (grid0.coords t) = 1#1 ↔ t.val < 8)
/-- The block before is aggregated at every point but the first. -/
theorem hcond3 : ∀ t : Fin cfg0.N, k0_cond3 (grid0.coords t) = 1#1 ↔ 1 ≤ t.val :=
  (by decide +kernel : ∀ t : Fin grid0.N, k0_cond3 (grid0.coords t) = 1#1 ↔ 1 ≤ t.val)
/-- The normalisation runs at the last point only. -/
theorem hcond4 : ∀ t : Fin cfg0.N, k0_cond4 (grid0.coords t) = 1#1 ↔ t.val = 8 :=
  (by decide +kernel : ∀ t : Fin grid0.N, k0_cond4 (grid0.coords t) = 1#1 ↔ t.val = 8)
/-- Point t stores its scores in slot t mod 2 -/
theorem hoff1 : ∀ t : Fin cfg0.N, k0_off1 (grid0.coords t) = ![t.val % 2, 0, 0] :=
  (by decide +kernel : ∀ t : Fin grid0.N, k0_off1 (grid0.coords t) = ![t.val % 2, 0, 0])
/-- and reads the other slot, the one the point before stored. -/
theorem hoff2 : ∀ t : Fin cfg0.N, k0_off2 (grid0.coords t) = ![(t.val + 1) % 2, 0, 0] :=
  (by decide +kernel : ∀ t : Fin grid0.N, k0_off2 (grid0.coords t) = ![(t.val + 1) % 2, 0, 0])

/-- No window is idle at any point. -/
theorem liveAt : ∀ (w : Fin 12) (t : Fin cfg0.N), cfg0.idle w (grid0.coords t) = false := by decide +kernel

/-! ## The memrefs the body is called with -/

abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x1 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1024x4 .f32 := win0_11.stage (cfg0.slots t 11)
abbrev hs11 (t : Fin cfg0.N) : (ms11 t).IsWhole := hstage0_11 ((cfg0.slots t 11).cast nbuf0_11)
/-- The scratch operand: two slots of 2048 rows by 4 lanes, the kernel's own. -/
abbrev scM : Memref sig .tc .vmem S2x2048x4 .f32 := Memref.whole cc0_scratch0
abbrev hscM : (scM).IsWhole := Memref.isWhole_whole _
/-- One staging buffer of the output window, through which its contents are stated. -/
abbrev VO : View sig .tc .vmem S1024x4 .f32 := (Memref.whole cc0_stg11_0 : Memref sig .tc .vmem S1024x4 .f32).view

/-- The region invariant of the launch, with the scratch operand as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KbOff.lean ====
/-
  The scratch-slot offsets in closed form, as the symbolic run of the body reads them: under a stated
  equation the offsets of a slot are the literal vector.
-/
import proofs.«129476_g5806795784444_cont_9to1c4b_204_10_alg».proof.Proof.KbBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

instance closedOff1_0 (i : grid0.Coords) [h : Fact (k0_off1 i = ![0, 0, 0])] : ClosedOff (k0_off1 i) := ⟨![0, 0, 0], h.out⟩
instance closedOff1_1 (i : grid0.Coords) [h : Fact (k0_off1 i = ![1, 0, 0])] : ClosedOff (k0_off1 i) := ⟨![1, 0, 0], h.out⟩
instance closedOff2_0 (i : grid0.Coords) [h : Fact (k0_off2 i = ![0, 0, 0])] : ClosedOff (k0_off2 i) := ⟨![0, 0, 0], h.out⟩
instance closedOff2_1 (i : grid0.Coords) [h : Fact (k0_off2 i = ![1, 0, 0])] : ClosedOff (k0_off2 i) := ⟨![1, 0, 0], h.out⟩

/-- Slot 0 of the scratch: rows 0..2047 of the first plane. -/
abbrev slot0 : Rect S2x2048x4 := Rect.unit (s := S2x2048x4) ![0, 0, 0] S1x2048x4.size (by decide)
/-- Slot 1 of the scratch: the second plane. -/
abbrev slot1 : Rect S2x2048x4 := Rect.unit (s := S2x2048x4) ![1, 0, 0] S1x2048x4.size (by decide)

end Cert.Kernel.Hand

end
-- ==== Proof.KbRunA.lean ====
/-
  The kernel body run once in the case "first point: the output block zeroed, a block of scores stored in slot 0": on whole memrefs holding the inputs' blocks, the output
  block's and the scratch's earlier contents, it runs to the end, leaves the inputs as they were and leaves
  in the output block and in the scratch the stores listed (last first) over what they held.
-/
import proofs.«129476_g5806795784444_cont_9to1c4b_204_10_alg».proof.Proof.KbOff

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes in this case into the output block and into the scratch, with the proof that it runs. -/
noncomputable def kernelRun_A (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : k0_cond1 i = 1#1) (hc2 : k0_cond2 i = 1#1) (hc3 : ¬k0_cond3 i = 1#1) (hc4 : ¬k0_cond4 i = 1#1) (ho1 : k0_off1 i = ![0, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) :
    Σ' (LO : List (View.Piece (Elt F) S1024x4 .f32)), { LS : List (View.Piece (Elt F) S2x2048x4 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ owns (c : Thread nD τ) arg13 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f LO)
                ∗ (arg13.view.loc (c : Thread nD τ) ↦[arg13.view.set]{fullShare} arg13.view.writes (Elt F) (harg13.unread xs) LS)) -∗ K ⟨⟩))
          ⊢ wp frame (wpE (defs₀ (F := F)) Variants.none c none) E (cc0__nhp_block i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__nhp_block_eq_skeleton]; unfold cc0__nhp_block_skel
    simp only [k0_part1_eq_skeleton]; unfold k0_part1_skel
    haveI : Fact (k0_off1 i = ![0, 0, 0]) := ⟨ho1⟩
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fo, %hfo, HO⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    obtain rfl := harg12.eq_unread hfo; obtain rfl := harg13.eq_unread hfs
    sl_exec (disch := first | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HO]
    · iexists _; iexact HO
    iexact HS

end Cert.Kernel.Hand

end
-- ==== Proof.KbRunB.lean ====
/-
  The kernel body run once in the case "a point after the first and before the last: scores stored in slot s, the other slot aggregated": on whole memrefs holding the inputs' blocks, the output
  block's and the scratch's earlier contents, it runs to the end, leaves the inputs as they were and leaves
  in the output block and in the scratch the stores listed (last first) over what they held.
-/
import proofs.«129476_g5806795784444_cont_9to1c4b_204_10_alg».proof.Proof.KbRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes in this case into the output block and into the scratch, with the proof that it runs. -/
noncomputable def kernelRun_B (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : ¬k0_cond1 i = 1#1) (hc2 : k0_cond2 i = 1#1) (hc3 : k0_cond3 i = 1#1) (hc4 : ¬k0_cond4 i = 1#1) (s : ℕ) (hs : s ≤ 1) (ho1 : k0_off1 i = ![s, 0, 0]) (ho2 : k0_off2 i = ![1 - s, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) :
    Σ' (LO : List (View.Piece (Elt F) S1024x4 .f32)), { LS : List (View.Piece (Elt F) S2x2048x4 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ owns (c : Thread nD τ) arg13 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f LO)
                ∗ (arg13.view.loc (c : Thread nD τ) ↦[arg13.view.set]{fullShare} arg13.view.writes (Elt F) (harg13.unread xs) LS)) -∗ K ⟨⟩))
          ⊢ wp frame (wpE (defs₀ (F := F)) Variants.none c none) E (cc0__nhp_block i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__nhp_block_eq_skeleton]; unfold cc0__nhp_block_skel
    simp only [k0_part1_eq_skeleton]; unfold k0_part1_skel
    letI : ClosedOff (k0_off1 i) := ⟨![s, 0, 0], ho1⟩
    letI : ClosedOff (k0_off2 i) := ⟨![1 - s, 0, 0], ho2⟩
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fo, %hfo, HO⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    obtain rfl := harg12.eq_unread hfo; obtain rfl := harg13.eq_unread hfs
    sl_exec (disch := first | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HO]
    · iexists _; iexact HO
    iexact HS

end Cert.Kernel.Hand

end
-- ==== Proof.KbRunC.lean ====
/-
  The kernel body run once in the case "last point: slot 1 aggregated, the sums normalised": on whole memrefs holding the inputs' blocks, the output
  block's and the scratch's earlier contents, it runs to the end, leaves the inputs as they were and leaves
  in the output block and in the scratch the stores listed (last first) over what they held.
-/
import proofs.«129476_g5806795784444_cont_9to1c4b_204_10_alg».proof.Proof.KbRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes in this case into the output block and into the scratch, with the proof that it runs. -/
noncomputable def kernelRun_C (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : ¬k0_cond1 i = 1#1) (hc2 : ¬k0_cond2 i = 1#1) (hc3 : k0_cond3 i = 1#1) (hc4 : k0_cond4 i = 1#1) (s : ℕ) (hs : s ≤ 1) (ho2 : k0_off2 i = ![s, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) :
    Σ' (LO : List (View.Piece (Elt F) S1024x4 .f32)), { LS : List (View.Piece (Elt F) S2x2048x4 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ owns (c : Thread nD τ) arg13 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f LO)
                ∗ (arg13.view.loc (c : Thread nD τ) ↦[arg13.view.set]{fullShare} arg13.view.writes (Elt F) (harg13.unread xs) LS)) -∗ K ⟨⟩))
          ⊢ wp frame (wpE (defs₀ (F := F)) Variants.none c none) E (cc0__nhp_block i arg1 harg1 arg2 harg2 arg3 harg3 arg4 harg4 arg5 harg5 arg6 harg6 arg7 harg7 arg8 harg8 arg9 harg9 arg10 harg10 arg11 harg11 arg12 harg12 arg13 harg13) K } := by
  refine ⟨?_, [], fun E K => ?run⟩
  case run =>
    simp only [cc0__nhp_block_eq_skeleton]; unfold cc0__nhp_block_skel
    simp only [k0_part1_eq_skeleton]; unfold k0_part1_skel
    letI : ClosedOff (k0_off2 i) := ⟨![s, 0, 0], ho2⟩
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fo, %hfo, HO⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    obtain rfl := harg12.eq_unread hfo; obtain rfl := harg13.eq_unread hfs
    sl_exec (disch := first | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HO]
    · iexists _; iexact HO
    iexact HS

end Cert.Kernel.Hand

end
-- ==== Proof.KbData.lean ====
/-
  The frame of the program: what the output block and the scratch hold after each of the nine grid points,
  the region invariant that carries one slot of scores from a point to the next, the body obligation
  case by case, and the run of the whole program to its post.
-/
import proofs.«129476_g5806795784444_cont_9to1c4b_204_10_alg».proof.Proof.KbOff

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves, point by point -/

/-- The block of scores point t computes: per row the positive score, the negative score, one, one. -/
def sv (c : Dev nD) (t : Fin cfg0.N) : Vec F S1x2048x4 .f32 :=
  k0_pay2 (k0_pay6 (iblk m c 6 t) (iblk m c 8 t) (iblk m c 5 t) (iblk m c 7 t) (iblk m c 9 t) (iblk m c 0 t) (iblk m c 1 t))
    (k0_pay7 (iblk m c 6 t) (iblk m c 8 t) (iblk m c 5 t) (iblk m c 7 t) (iblk m c 9 t) (iblk m c 2 t) (iblk m c 3 t)) (k0_pay8 (F := F))

/-- The output block after point n: zero after the first; then what the point before left plus the mask block
    against the scores of the point before; at the last point that, normalised. -/
def outsAt (c : Dev nD) : (n : ℕ) → n < cfg0.N → Vec F S1024x4 .f32
  | 0, _ => k0_pay1 (F := F)
  | n + 1, hn =>
    if n + 1 = 8 then
      k0_pay4 (k0_pay3 (iblk m c 4 ⟨n + 1, hn⟩) (sv m c ⟨n, Nat.lt_of_succ_lt hn⟩) (outsAt c n (Nat.lt_of_succ_lt hn))) (iblk m c 10 ⟨n + 1, hn⟩)
    else
      k0_pay3 (iblk m c 4 ⟨n + 1, hn⟩) (sv m c ⟨n, Nat.lt_of_succ_lt hn⟩) (outsAt c n (Nat.lt_of_succ_lt hn))

theorem outsAt_zero (c : Dev nD) (t : Fin cfg0.N) (h : t.val = 0) : outsAt m c t.val t.isLt = k0_pay1 (F := F) := by
  obtain ⟨n, hn⟩ := t
  cases n with
  | zero => rfl
  | succ n => exact absurd h (Nat.succ_ne_zero n)

theorem outsAt_mid (c : Dev nD) (t : Fin cfg0.N) (h0 : t.val ≠ 0) (h8 : t.val ≠ 8) :
    outsAt m c t.val t.isLt = k0_pay3 (iblk m c 4 t) (sv m c ⟨t.val - 1, Nat.lt_of_le_of_lt (Nat.sub_le _ _) t.isLt⟩)
      (outsAt m c (t.val - 1) (Nat.lt_of_le_of_lt (Nat.sub_le _ _) t.isLt)) := by
  obtain ⟨n, hn⟩ := t
  cases n with
  | zero => exact absurd rfl h0
  | succ n => exact (if_neg h8).trans rfl

theorem outsAt_last (c : Dev nD) (t : Fin cfg0.N) (h8 : t.val = 8) :
    outsAt m c t.val t.isLt = k0_pay4 (k0_pay3 (iblk m c 4 t) (sv m c ⟨t.val - 1, Nat.lt_of_le_of_lt (Nat.sub_le _ _) t.isLt⟩)
      (outsAt m c (t.val - 1) (Nat.lt_of_le_of_lt (Nat.sub_le _ _) t.isLt))) (iblk m c 10 t) := by
  obtain ⟨n, hn⟩ := t
  cases n with
  | zero => exact absurd (show (0 : ℕ) = 8 from h8) (by decide)
  | succ n => exact (if_pos h8).trans rfl

/-- Slot s of the scratch (s = 0 or 1): plane s, 2048 rows by 4 lanes. -/
abbrev slotR (s : ℕ) (hs : s ≤ 1) : Rect S2x2048x4 :=
  Rect.unit (s := S2x2048x4) ![s, 0, 0] S1x2048x4.size (fun a => by
    match a with
    | ⟨0, _⟩ => show s + 1 ≤ 2; omega
    | ⟨1, _⟩ => show 0 + 2048 ≤ 2048; omega
    | ⟨2, _⟩ => show 0 + 4 ≤ 4; omega)

theorem slotR_congr {a b : ℕ} (h : a = b) (ha : a ≤ 1) (hb : b ≤ 1) : slotR a ha = slotR b hb := by subst h; rfl

/-- After point n (n < 8) the slot n mod 2 of the scratch holds the scores of point n. -/
def SlotOK (c : Dev nD) (n : ℕ) (hn : n < cfg0.N) (d : Vec F S2x2048x4 .f32) : Prop :=
  n < 8 → View.ld d (slotR (n % 2) (by omega)) = sv m c ⟨n, hn⟩

/-- The region invariant before position n: the launch's before the first point; afterwards the scratch at
    contents whose slot (n - 1) mod 2 holds the scores of point n - 1, and the generator register at some state. -/
def PhiS (c : Dev nD) : (n : ℕ) → n ≤ cfg0.N → sProp 𝕄
  | 0, _ => Pipeline.ΦA spec0 c
  | n + 1, hn => iprop(iprop(∃ d, iprop(⌜SlotOK m c n hn d⌝ ∗ owns (c : Thread nD τ) scM fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ d, iprop(⌜SlotOK m c n hn d⌝ ∗ owns (c : Thread nD τ) scM fullShare d)) ∗ (∃ r, prngReg c r)) := rfl

theorem PhiS_pos (c : Dev nD) (n : ℕ) (h : n ≤ cfg0.N) (hz : n ≠ 0) :
    PhiS m c n h = iprop(iprop(∃ d, iprop(⌜SlotOK m c (n - 1) (by omega) d⌝ ∗ owns (c : Thread nD τ) scM fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outsAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outsAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- The output window is live at every point: the block is zeroed at the first and added to at every later one. -/
theorem live11 : ∀ i : grid0.Coords, cfg0.idle 11 i = false := by decide +kernel

/-- At a later point the output block holds what the point before left: it is written back at the last point only. -/
theorem before_11 (c : Dev nD) (t : Fin cfg0.N) (h0 : t.val ≠ 0) (d) :
    (dats m 0 c).before 11 t d = outsAt m c (t.val - 1) (Nat.lt_of_le_of_lt (Nat.sub_le _ _) t.isLt) := by
  have hN : t.val < 9 := lt_of_lt_of_eq t.isLt (show cfg0.N = 9 from N_0)
  rw [Dat.before_out_kept _ 11 rfl t h0 (Bool.eq_false_iff.mpr fun h => by have := (flush0_11 _).mp h; dsimp only at this; omega)
    live11 (fun _ _ => rfl)]
  dsimp only [dats]

end Cert.Kernel.Hand

end
-- ==== Proof.KbPieces.lean ====
/-
  What each case of the body leaves, read back as values: the output block as the payload of its covering
  store over the loaded blocks, and the slot of the scratch the case stores as the block of scores.
-/
import proofs.«129476_g5806795784444_cont_9to1c4b_204_10_alg».proof.Proof.KbRunC
import proofs.«129476_g5806795784444_cont_9to1c4b_204_10_alg».proof.Proof.KbData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- One store at the offsets of slot s leaves its payload in slot s, whatever the scratch held. -/
theorem ld_slot_of_store {sg : RefSig} {κ : Kind} {sp : Space} (v : View sg κ sp S2x2048x4 .f32) (f : v.ty.Contents (Elt F))
    (s : ℕ) (hs : s ≤ 1) {off : Fin 3 → Nat} (hoff : off = ![s, 0, 0]) (inb : ∀ a, off a + S1x2048x4.size a ≤ S2x2048x4.size a)
    (w : Vec F S1x2048x4 .f32) :
    View.ld (v.read (Elt F) (v.writes (Elt F) f [⟨Rect.unit (s := S2x2048x4) off S1x2048x4.size inb, w⟩])) (slotR s hs) = w := by
  subst hoff
  funext y
  exact View.read_writes_cons_emb v f (slotR s hs) w [] y

/-- and leaves the other slot as it was: the two slots are disjoint. -/
theorem ld_other_slot {sg : RefSig} {κ : Kind} {sp : Space} (v : View sg κ sp S2x2048x4 .f32) (f : v.ty.Contents (Elt F))
    (s : ℕ) (hs : s ≤ 1) {off1 off2 : Fin 3 → Nat} (h1 : off1 = ![s, 0, 0]) (h2 : off2 = ![1 - s, 0, 0])
    (inb1 : ∀ a, off1 a + S1x2048x4.size a ≤ S2x2048x4.size a) (inb2 : ∀ a, off2 a + S1x2048x4.size a ≤ S2x2048x4.size a)
    (w : Vec F S1x2048x4 .f32) :
    View.ld (v.read (Elt F) (v.writes (Elt F) f [⟨Rect.unit (s := S2x2048x4) off1 S1x2048x4.size inb1, w⟩]))
        (Rect.unit (s := S2x2048x4) off2 S1x2048x4.size inb2)
      = View.ld (v.read (Elt F) f) (slotR (1 - s) (by omega)) := by
  subst h1; subst h2
  funext y
  refine View.read_writes_apply_of_forall_not_mem v f ((slotR (1 - s) (by omega)).emb y) _ (fun p hp hy => ?_)
  rw [List.mem_singleton] at hp; subst hp
  have hd : Disjoint (Rect.unit (s := S2x2048x4) ![s, 0, 0] S1x2048x4.size inb1).set (slotR (1 - s) (by omega)).set :=
    Rect.unit_disjoint (0 : Fin 3) (by show s + 1 ≤ 1 - s ∨ (1 - s) + 1 ≤ s; omega)
  have hm : (slotR (1 - s) (by omega)).emb y ∈ (slotR (1 - s) (by omega)).set := by
    rw [← Rect.map_emb_univ]; exact Finset.mem_map_of_mem _ (Finset.mem_univ y)
  exact Finset.disjoint_left.mp hd hy hm

/-! ## The first point -/

theorem coverA_O (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : k0_cond1 i = 1#1) (hc2 : k0_cond2 i = 1#1) (hc3 : ¬k0_cond3 i = 1#1) (hc4 : ¬k0_cond4 i = 1#1) (ho1 : k0_off1 i = ![0, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) (y : S1024x4.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 hc1 hc2 hc3 hc4 ho1 x0 x1 x2 x3 x4 x5 x6 x7 x8 x9 x10 xo xs).1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 hc1 hc2 hc3 hc4 ho1 x0 x1 x2 x3 x4 x5 x6 x7 x8 x9 x10 xo xs).1 S1024x4.size (by sl_kernel_rfl) y

/-- The first point leaves the zero block in the output block. -/
theorem pieceA_O (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : k0_cond1 i = 1#1) (hc2 : k0_cond2 i = 1#1) (hc3 : ¬k0_cond3 i = 1#1) (hc4 : ¬k0_cond4 i = 1#1) (ho1 : k0_off1 i = ![0, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) (f : arg12.view.ty.Contents (Elt F)) :
    arg12.view.read (Elt F) (arg12.view.writes (Elt F) f (kernelRun_A c i arg1 harg1 arg2 harg2 arg3 harg3 arg4 harg4 arg5 harg5 arg6 harg6 arg7 harg7 arg8 harg8 arg9 harg9 arg10 harg10 arg11 harg11 arg12 harg12 arg13 harg13 hc1 hc2 hc3 hc4 ho1 x0 x1 x2 x3 x4 x5 x6 x7 x8 x9 x10 xo xs).1) = k0_pay1 (F := F) := by
  rw [View.read_writes_eq_canon _ _ _ (coverA_O c i arg1 harg1 arg2 harg2 arg3 harg3 arg4 harg4 arg5 harg5 arg6 harg6 arg7 harg7 arg8 harg8 arg9 harg9 arg10 harg10 arg11 harg11 arg12 harg12 arg13 harg13 hc1 hc2 hc3 hc4 ho1 x0 x1 x2 x3 x4 x5 x6 x7 x8 x9 x10 xo xs)]
  unfold kernelRun_A; dsimp only
  rw [View.canon_unit_zero hz2]

/-- and the scores of block 0 in slot 0 of the scratch. -/
theorem pieceA_S (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : k0_cond1 i = 1#1) (hc2 : k0_cond2 i = 1#1) (hc3 : ¬k0_cond3 i = 1#1) (hc4 : ¬k0_cond4 i = 1#1) (ho1 : k0_off1 i = ![0, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) :
    View.ld (arg13.view.read (Elt F) (arg13.view.writes (Elt F) (harg13.unread xs) (kernelRun_A c i arg1 harg1 arg2 harg2 arg3 harg3 arg4 harg4 arg5 harg5 arg6 harg6 arg7 harg7 arg8 harg8 arg9 harg9 arg10 harg10 arg11 harg11 arg12 harg12 arg13 harg13 hc1 hc2 hc3 hc4 ho1 x0 x1 x2 x3 x4 x5 x6 x7 x8 x9 x10 xo xs).2.1)) (slotR 0 (by omega))
      = k0_pay2 (k0_pay6 x6 x8 x5 x7 x9 x0 x1) (k0_pay7 x6 x8 x5 x7 x9 x2 x3) (k0_pay8 (F := F)) := by
  unfold kernelRun_A; dsimp only
  refine (ld_slot_of_store arg13.view _ 0 (by omega) ho1 _ _).trans ?_
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2048x512) hz2, View.ld_unit_zero (S := S2048x1024) hz2, View.ld_unit_zero (S := S512x512) hz2, View.ld_unit_zero (S := S1x512) hz2, View.ld_unit_zero (S := S512x1) hz2, View.ld_unit_zero (S := S1x1) hz2, View.ld_unit_zero (S := S1024x4) hz2]

/-! ## A point in the middle -/

theorem coverB_O (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : ¬k0_cond1 i = 1#1) (hc2 : k0_cond2 i = 1#1) (hc3 : k0_cond3 i = 1#1) (hc4 : ¬k0_cond4 i = 1#1) (s : ℕ) (hs : s ≤ 1) (ho1 : k0_off1 i = ![s, 0, 0]) (ho2 : k0_off2 i = ![1 - s, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) (y : S1024x4.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho1 ho2 x0 x1 x2 x3 x4 x5 x6 x7 x8 x9 x10 xo xs).1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho1 ho2 x0 x1 x2 x3 x4 x5 x6 x7 x8 x9 x10 xo xs).1 S1024x4.size (by sl_kernel_rfl) y

/-- A middle point leaves in the output block what it held plus the mask block against the other slot. -/
theorem pieceB_O (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : ¬k0_cond1 i = 1#1) (hc2 : k0_cond2 i = 1#1) (hc3 : k0_cond3 i = 1#1) (hc4 : ¬k0_cond4 i = 1#1) (s : ℕ) (hs : s ≤ 1) (ho1 : k0_off1 i = ![s, 0, 0]) (ho2 : k0_off2 i = ![1 - s, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) (f : arg12.view.ty.Contents (Elt F)) :
    arg12.view.read (Elt F) (arg12.view.writes (Elt F) f (kernelRun_B c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho1 ho2 x0 x1 x2 x3 x4 x5 x6 x7 x8 x9 x10 xo xs).1)
      = k0_pay3 x4 (View.ld xs (slotR (1 - s) (by omega))) xo := by
  rw [View.read_writes_eq_canon _ _ _ (coverB_O c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho1 ho2 x0 x1 x2 x3 x4 x5 x6 x7 x8 x9 x10 xo xs)]
  unfold kernelRun_B; dsimp only
  rw [View.canon_unit_zero hz2]
  unfold kernelRun_B.sl.v26 kernelRun_B.sl.HS_1
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2048x512) hz2, View.ld_unit_zero (S := S2048x1024) hz2, View.ld_unit_zero (S := S512x512) hz2, View.ld_unit_zero (S := S1x512) hz2, View.ld_unit_zero (S := S512x1) hz2, View.ld_unit_zero (S := S1x1) hz2, View.ld_unit_zero (S := S1024x4) hz2]
  refine congrArg (fun v => k0_pay3 x4 v xo) ?_
  refine (ld_other_slot arg13.view _ s hs ho1 ho2 _ _ _).trans ?_
  rw [harg13.read_unread]

/-- and the scores of its block in slot s of the scratch. -/
theorem pieceB_S (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : ¬k0_cond1 i = 1#1) (hc2 : k0_cond2 i = 1#1) (hc3 : k0_cond3 i = 1#1) (hc4 : ¬k0_cond4 i = 1#1) (s : ℕ) (hs : s ≤ 1) (ho1 : k0_off1 i = ![s, 0, 0]) (ho2 : k0_off2 i = ![1 - s, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) :
    View.ld (arg13.view.read (Elt F) (arg13.view.writes (Elt F) (harg13.unread xs) (kernelRun_B c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho1 ho2 x0 x1 x2 x3 x4 x5 x6 x7 x8 x9 x10 xo xs).2.1)) (slotR s hs)
      = k0_pay2 (k0_pay6 x6 x8 x5 x7 x9 x0 x1) (k0_pay7 x6 x8 x5 x7 x9 x2 x3) (k0_pay8 (F := F)) := by
  unfold kernelRun_B; dsimp only
  unfold kernelRun_B.sl.HS_1
  refine (ld_slot_of_store arg13.view _ s hs ho1 _ _).trans ?_
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2048x512) hz2, View.ld_unit_zero (S := S2048x1024) hz2, View.ld_unit_zero (S := S512x512) hz2, View.ld_unit_zero (S := S1x512) hz2, View.ld_unit_zero (S := S512x1) hz2, View.ld_unit_zero (S := S1x1) hz2, View.ld_unit_zero (S := S1024x4) hz2]

/-! ## The last point -/

theorem ld_off_slot (X : Vec F S2x2048x4 .f32) (s : ℕ) (hs : s ≤ 1) {off : Fin 3 → Nat} (h : off = ![s, 0, 0])
    (inb : ∀ a, off a + S1x2048x4.size a ≤ S2x2048x4.size a) :
    View.ld X (Rect.unit (s := S2x2048x4) off S1x2048x4.size inb) = View.ld X (slotR s hs) := by
  subst h; rfl

theorem coverC_O (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : ¬k0_cond1 i = 1#1) (hc2 : ¬k0_cond2 i = 1#1) (hc3 : k0_cond3 i = 1#1) (hc4 : k0_cond4 i = 1#1) (s : ℕ) (hs : s ≤ 1) (ho2 : k0_off2 i = ![s, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) (y : S1024x4.Idx) :
    ∃ pc ∈ (kernelRun_C c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho2 x0 x1 x2 x3 x4 x5 x6 x7 x8 x9 x10 xo xs).1, y ∈ pc.1.set :=
  View.cover_of_tiledL (kernelRun_C c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho2 x0 x1 x2 x3 x4 x5 x6 x7 x8 x9 x10 xo xs).1 S1024x4.size (by sl_kernel_rfl) y

/-- The last point leaves the normalised sums: what the block held plus the mask block against slot s, through the finish. -/
theorem pieceC_O (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : ¬k0_cond1 i = 1#1) (hc2 : ¬k0_cond2 i = 1#1) (hc3 : k0_cond3 i = 1#1) (hc4 : k0_cond4 i = 1#1) (s : ℕ) (hs : s ≤ 1) (ho2 : k0_off2 i = ![s, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) (f : arg12.view.ty.Contents (Elt F)) :
    arg12.view.read (Elt F) (arg12.view.writes (Elt F) f (kernelRun_C c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho2 x0 x1 x2 x3 x4 x5 x6 x7 x8 x9 x10 xo xs).1)
      = k0_pay4 (k0_pay3 x4 (View.ld xs (slotR s hs)) xo) x10 := by
  rw [View.read_writes_eq_canon _ _ _ (coverC_O c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho2 x0 x1 x2 x3 x4 x5 x6 x7 x8 x9 x10 xo xs)]
  unfold kernelRun_C; dsimp only
  rw [View.canon_cons_unit_zero hz2]
  unfold kernelRun_C.sl.v12 kernelRun_C.sl.HO_1
  rw [View.readCov_unit_zero _ hz2]
  unfold kernelRun_C.sl.v26
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2048x512) hz2, View.ld_unit_zero (S := S2048x1024) hz2, View.ld_unit_zero (S := S512x512) hz2, View.ld_unit_zero (S := S1x512) hz2, View.ld_unit_zero (S := S512x1) hz2, View.ld_unit_zero (S := S1x1) hz2, View.ld_unit_zero (S := S1024x4) hz2]
  refine congrArg (fun v => k0_pay4 (k0_pay3 x4 v xo) x10) ?_
  exact ld_off_slot xs s hs ho2 _

end Cert.Kernel.Hand

end
-- ==== Proof.KbBody.lean ====
/-
  The body obligation of the region, case by case over the nine grid points, and the run of the whole
  program to its post: every array of the region at what the proof data computes.
-/
import proofs.«129476_g5806795784444_cont_9to1c4b_204_10_alg».proof.Proof.KbPieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem ld_slotR_congr (X : Vec F S2x2048x4 .f32) {a b : ℕ} (h : a = b) (ha : a ≤ 1) (hb : b ≤ 1) :
    View.ld X (slotR a ha) = View.ld X (slotR b hb) := by subst h; rfl

/-! ## The body obligation -/

theorem leaves_0 (c : Dev nD) (t : Fin cfg0.N) : (dats m 0 c).leavesExact 0 t = owns (c : Thread nD τ) (ms0 t) fullShare (iblk m c 0 t) := by
  unfold Dat.leavesExact; rw [liveAt 0 t, after_0]
theorem leaves_1 (c : Dev nD) (t : Fin cfg0.N) : (dats m 0 c).leavesExact 1 t = owns (c : Thread nD τ) (ms1 t) fullShare (iblk m c 1 t) := by
  unfold Dat.leavesExact; rw [liveAt 1 t, after_1]
theorem leaves_2 (c : Dev nD) (t : Fin cfg0.N) : (dats m 0 c).leavesExact 2 t = owns (c : Thread nD τ) (ms2 t) fullShare (iblk m c 2 t) := by
  unfold Dat.leavesExact; rw [liveAt 2 t, after_2]
theorem leaves_3 (c : Dev nD) (t : Fin cfg0.N) : (dats m 0 c).leavesExact 3 t = owns (c : Thread nD τ) (ms3 t) fullShare (iblk m c 3 t) := by
  unfold Dat.leavesExact; rw [liveAt 3 t, after_3]
theorem leaves_4 (c : Dev nD) (t : Fin cfg0.N) : (dats m 0 c).leavesExact 4 t = owns (c : Thread nD τ) (ms4 t) fullShare (iblk m c 4 t) := by
  unfold Dat.leavesExact; rw [liveAt 4 t, after_4]
theorem leaves_5 (c : Dev nD) (t : Fin cfg0.N) : (dats m 0 c).leavesExact 5 t = owns (c : Thread nD τ) (ms5 t) fullShare (iblk m c 5 t) := by
  unfold Dat.leavesExact; rw [liveAt 5 t, after_5]
theorem leaves_6 (c : Dev nD) (t : Fin cfg0.N) : (dats m 0 c).leavesExact 6 t = owns (c : Thread nD τ) (ms6 t) fullShare (iblk m c 6 t) := by
  unfold Dat.leavesExact; rw [liveAt 6 t, after_6]
theorem leaves_7 (c : Dev nD) (t : Fin cfg0.N) : (dats m 0 c).leavesExact 7 t = owns (c : Thread nD τ) (ms7 t) fullShare (iblk m c 7 t) := by
  unfold Dat.leavesExact; rw [liveAt 7 t, after_7]
theorem leaves_8 (c : Dev nD) (t : Fin cfg0.N) : (dats m 0 c).leavesExact 8 t = owns (c : Thread nD τ) (ms8 t) fullShare (iblk m c 8 t) := by
  unfold Dat.leavesExact; rw [liveAt 8 t, after_8]
theorem leaves_9 (c : Dev nD) (t : Fin cfg0.N) : (dats m 0 c).leavesExact 9 t = owns (c : Thread nD τ) (ms9 t) fullShare (iblk m c 9 t) := by
  unfold Dat.leavesExact; rw [liveAt 9 t, after_9]
theorem leaves_10 (c : Dev nD) (t : Fin cfg0.N) : (dats m 0 c).leavesExact 10 t = owns (c : Thread nD τ) (ms10 t) fullShare (iblk m c 10 t) := by
  unfold Dat.leavesExact; rw [liveAt 10 t, after_10]
theorem leaves_11 (c : Dev nD) (t : Fin cfg0.N) : (dats m 0 c).leavesExact 11 t = owns (c : Thread nD τ) (ms11 t) fullShare (outsAt m c t.val t.isLt) := by
  unfold Dat.leavesExact; rw [liveAt 11 t, after_11]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 8000000 in
/-- The body at any point: which case the point is in is read off its number; the inputs' buffers hold their blocks;
    the output block holds what the point before left; the invariant hands over the scratch with the slot the point
    before stored, and takes it back with the slot this point stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11]
  have hN : t.val < 9 := lt_of_lt_of_eq t.isLt (show cfg0.N = 9 from N_0)
  by_cases hz : t.val = 0
  · -- the first point
    have hc1 := (hcond1 t).mpr hz
    have hc2 := (hcond2 t).mpr (by omega)
    have hc3 : ¬k0_cond3 (grid0.coords t) = 1#1 := fun h => by have := (hcond3 t).mp h; omega
    have hc4 : ¬k0_cond4 (grid0.coords t) = 1#1 := fun h => by have := (hcond4 t).mp h; omega
    have ho1 : k0_off1 (grid0.coords t) = ![0, 0, 0] := by rw [hoff1 t, hz]
    rw [PhiS_castSucc m c t, PhiS_zero m c _ _ hz, PhiA_eq, outsAt_zero m c t hz]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 ho1 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    iintro ⟨H0, H1, H2, H3, H4, H5, H6, H7, H8, H9, H10, ⟨%e11, H11⟩, HS⟩
    isplitl [HS Hg]
    · isplitl [HS]
      · iexists _; isplitr
        swap
        · unfold owns; iexists _; isplitr; swap; · iexact HS
          ipureintro; rfl
        ipureintro
        exact fun _ => (ld_slotR_congr _ (show t.val % 2 = 0 by omega) (by omega) (by omega)).trans (pieceA_S c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 ho1 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold owns; iexists _; isplitr; swap; · iexact H11
    ipureintro
    exact pieceA_O c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 ho1 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds _
  · by_cases h8 : t.val = 8
    · -- the last point
      have hc1 : ¬k0_cond1 (grid0.coords t) = 1#1 := fun h => hz ((hcond1 t).mp h)
      have hc2 : ¬k0_cond2 (grid0.coords t) = 1#1 := fun h => by have := (hcond2 t).mp h; omega
      have hc3 := (hcond3 t).mpr (by omega)
      have hc4 := (hcond4 t).mpr h8
      have ho2 : k0_off2 (grid0.coords t) = ![1, 0, 0] := by rw [hoff2 t, h8]
      rw [PhiS_castSucc m c t, PhiS_pos m c _ _ hz, outsAt_last m c t h8]
      simp only [before_11 m c t hz]
      iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 1 (le_refl 1) ho2 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      iintro ⟨H0, H1, H2, H3, H4, H5, H6, H7, H8, H9, H10, ⟨%e11, H11⟩, HS⟩
      isplitl [HS Hg]
      · isplitl [HS]
        · iexists _; isplitr
          swap
          · unfold owns; iexists _; isplitr; swap; · iexact HS
            ipureintro; rfl
          ipureintro
          exact fun h => absurd h (by omega)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr; swap; · iexact H11
      ipureintro
      refine (pieceC_O c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 1 (le_refl 1) ho2 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds _).trans ?_
      rw [show View.ld ds (slotR 1 (le_refl 1)) = sv m c ⟨t.val - 1, Nat.lt_of_le_of_lt (Nat.sub_le _ _) t.isLt⟩ from
        (ld_slotR_congr ds (show 1 = (t.val - 1) % 2 by omega) _ (by omega)).trans (hds (by omega))]
    · -- a point in the middle: slot t mod 2 stored, the other slot read
      have hc1 : ¬k0_cond1 (grid0.coords t) = 1#1 := fun h => hz ((hcond1 t).mp h)
      have hc2 := (hcond2 t).mpr (by omega)
      have hc3 := (hcond3 t).mpr (by omega)
      have hc4 : ¬k0_cond4 (grid0.coords t) = 1#1 := fun h => h8 ((hcond4 t).mp h)
      have hs : t.val % 2 ≤ 1 := by omega
      have ho1 : k0_off1 (grid0.coords t) = ![t.val % 2, 0, 0] := hoff1 t
      have ho2 : k0_off2 (grid0.coords t) = ![1 - t.val % 2, 0, 0] := by rw [hoff2 t, show (t.val + 1) % 2 = 1 - t.val % 2 by omega]
      rw [PhiS_castSucc m c t, PhiS_pos m c _ _ hz, outsAt_mid m c t hz h8]
      simp only [before_11 m c t hz]
      iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 (t.val % 2) hs ho1 ho2 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      iintro ⟨H0, H1, H2, H3, H4, H5, H6, H7, H8, H9, H10, ⟨%e11, H11⟩, HS⟩
      isplitl [HS Hg]
      · isplitl [HS]
        · iexists _; isplitr
          swap
          · unfold owns; iexists _; isplitr; swap; · iexact HS
            ipureintro; rfl
          ipureintro
          exact fun _ => pieceB_S c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 (t.val % 2) hs ho1 ho2 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr; swap; · iexact H11
      ipureintro
      refine (pieceB_O c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 (t.val % 2) hs ho1 ho2 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds _).trans ?_
      rw [show View.ld ds (slotR (1 - t.val % 2) (by omega)) = sv m c ⟨t.val - 1, Nat.lt_of_le_of_lt (Nat.sub_le _ _) t.isLt⟩ from
        (ld_slotR_congr ds (show 1 - t.val % 2 = (t.val - 1) % 2 by omega) _ (by omega)).trans (hds (by omega))]

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 9 := N_0; omega), PhiA_eq]
  iintro ⟨⟨%d, %hd, HS⟩, Hg⟩
  isplitl [HS]
  · iexists _; iexact HS
  iexact Hg

/-! ## The run -/

set_option backward.isDefEq.respectTransparency.types false in
/-- Every weakly fair execution of the program terminates, and every final state has each array of the region at what
    the proof data computes and every other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and its argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The same run with its two results named: each result buffer at what the host operations after the region
    leave in it, the argument arrays as they started. -/
theorem run_value : θ_run defs (onTc (τ := τ) (main (F := F))) ⟨m, fun _ => 0, ρ⟩ (fun r => ∀ c : Dev nD,
      r.2.mem ((c.tc : Thread nD τ).loc main_v0_0) = Pipeline.afterTail₀ cfgs (dats m) 0 (V0 m) [hostOps1] c main_v0_0
      ∧ r.2.mem ((c.tc : Thread nD τ).loc main_v0_1) = Pipeline.afterTail₀ cfgs (dats m) 0 (V0 m) [hostOps1] c main_v0_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).2 main_v0_0 (Pipeline.mem_restRefs_of main_v0_0 (by decide) (by decide)),
      (h c).2 main_v0_1 (Pipeline.mem_restRefs_of main_v0_1 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c))⟩) (run_main m ρ)

end Cert.Kernel.Hand

end
-- ==== Proof.KiBase.lean ====
/-
  What the per-case runs of the kernel body share: the four branch conditions and the two scratch-slot
  offsets in closed form over the nine grid points, the staging memrefs as the pipeline passes them,
  and the region invariant with the scratch operand owned at some contents.
-/
import proofs.«129476_g5806795784444_cont_9to1c4b_204_10_alg».proof.Proof.Gen.KernelIdeal.Frame
import proofs.«129476_g5806795784444_cont_9to1c4b_204_10_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions and the scratch offsets over the grid -/

/-- The output block is zeroed at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- A block of row scores is computed at every point but the last. -/
theorem hcond2 : ∀ t : Fin cfg0.N, k0_cond2 (grid0.coords t) = 1#1 ↔ t.val < 8 :=
  (by decide +kernel : ∀ t : Fin grid0.N, k0_cond2 (grid0.coords t) = 1#1 ↔ t.val < 8)
/-- The block before is aggregated at every point but the first. -/
theorem hcond3 : ∀ t : Fin cfg0.N, k0_cond3 (grid0.coords t) = 1#1 ↔ 1 ≤ t.val :=
  (by decide +kernel : ∀ t : Fin grid0.N, k0_cond3 (grid0.coords t) = 1#1 ↔ 1 ≤ t.val)
/-- The normalisation runs at the last point only. -/
theorem hcond4 : ∀ t : Fin cfg0.N, k0_cond4 (grid0.coords t) = 1#1 ↔ t.val = 8 :=
  (by decide +kernel : ∀ t : Fin grid0.N, k0_cond4 (grid0.coords t) = 1#1 ↔ t.val = 8)
/-- Point t stores its scores in slot t mod 2 -/
theorem hoff1 : ∀ t : Fin cfg0.N, k0_off1 (grid0.coords t) = ![t.val % 2, 0, 0] :=
  (by decide +kernel : ∀ t : Fin grid0.N, k0_off1 (grid0.coords t) = ![t.val % 2, 0, 0])
/-- and reads the other slot, the one the point before stored. -/
theorem hoff2 : ∀ t : Fin cfg0.N, k0_off2 (grid0.coords t) = ![(t.val + 1) % 2, 0, 0] :=
  (by decide +kernel : ∀ t : Fin grid0.N, k0_off2 (grid0.coords t) = ![(t.val + 1) % 2, 0, 0])

/-- No window is idle at any point. -/
theorem liveAt : ∀ (w : Fin 12) (t : Fin cfg0.N), cfg0.idle w (grid0.coords t) = false := by decide +kernel

/-! ## The memrefs the body is called with -/

abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x1 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1024x4 .f32 := win0_11.stage (cfg0.slots t 11)
abbrev hs11 (t : Fin cfg0.N) : (ms11 t).IsWhole := hstage0_11 ((cfg0.slots t 11).cast nbuf0_11)
/-- The scratch operand: two slots of 2048 rows by 4 lanes, the kernel's own. -/
abbrev scM : Memref sig .tc .vmem S2x2048x4 .f32 := Memref.whole cc0_scratch0
abbrev hscM : (scM).IsWhole := Memref.isWhole_whole _
/-- One staging buffer of the output window, through which its contents are stated. -/
abbrev VO : View sig .tc .vmem S1024x4 .f32 := (Memref.whole cc0_stg11_0 : Memref sig .tc .vmem S1024x4 .f32).view

/-- The region invariant of the launch, with the scratch operand as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KiOff.lean ====
/-
  The scratch-slot offsets in closed form, as the symbolic run of the body reads them: under a stated
  equation the offsets of a slot are the literal vector.
-/
import proofs.«129476_g5806795784444_cont_9to1c4b_204_10_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

instance closedOff1_0 (i : grid0.Coords) [h : Fact (k0_off1 i = ![0, 0, 0])] : ClosedOff (k0_off1 i) := ⟨![0, 0, 0], h.out⟩
instance closedOff1_1 (i : grid0.Coords) [h : Fact (k0_off1 i = ![1, 0, 0])] : ClosedOff (k0_off1 i) := ⟨![1, 0, 0], h.out⟩
instance closedOff2_0 (i : grid0.Coords) [h : Fact (k0_off2 i = ![0, 0, 0])] : ClosedOff (k0_off2 i) := ⟨![0, 0, 0], h.out⟩
instance closedOff2_1 (i : grid0.Coords) [h : Fact (k0_off2 i = ![1, 0, 0])] : ClosedOff (k0_off2 i) := ⟨![1, 0, 0], h.out⟩

/-- Slot 0 of the scratch: rows 0..2047 of the first plane. -/
abbrev slot0 : Rect S2x2048x4 := Rect.unit (s := S2x2048x4) ![0, 0, 0] S1x2048x4.size (by decide)
/-- Slot 1 of the scratch: the second plane. -/
abbrev slot1 : Rect S2x2048x4 := Rect.unit (s := S2x2048x4) ![1, 0, 0] S1x2048x4.size (by decide)

end Cert.KernelIdeal.Hand

end
-- ==== Proof.KiRunA.lean ====
/-
  The kernel body run once in the case "first point: the output block zeroed, a block of scores stored in slot 0": on whole memrefs holding the inputs' blocks, the output
  block's and the scratch's earlier contents, it runs to the end, leaves the inputs as they were and leaves
  in the output block and in the scratch the stores listed (last first) over what they held.
-/
import proofs.«129476_g5806795784444_cont_9to1c4b_204_10_alg».proof.Proof.KiOff

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes in this case into the output block and into the scratch, with the proof that it runs. -/
noncomputable def kernelRun_A (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : k0_cond1 i = 1#1) (hc2 : k0_cond2 i = 1#1) (hc3 : ¬k0_cond3 i = 1#1) (hc4 : ¬k0_cond4 i = 1#1) (ho1 : k0_off1 i = ![0, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) :
    Σ' (LO : List (View.Piece (Elt F) S1024x4 .f32)), { LS : List (View.Piece (Elt F) S2x2048x4 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ owns (c : Thread nD τ) arg13 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f LO)
                ∗ (arg13.view.loc (c : Thread nD τ) ↦[arg13.view.set]{fullShare} arg13.view.writes (Elt F) (harg13.unread xs) LS)) -∗ K ⟨⟩))
          ⊢ wp frame (wpE (defs₀ (F := F)) Variants.none c none) E (cc0__nhp_block i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__nhp_block_eq_skeleton]; unfold cc0__nhp_block_skel
    simp only [k0_part1_eq_skeleton]; unfold k0_part1_skel
    haveI : Fact (k0_off1 i = ![0, 0, 0]) := ⟨ho1⟩
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fo, %hfo, HO⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    obtain rfl := harg12.eq_unread hfo; obtain rfl := harg13.eq_unread hfs
    sl_exec (disch := first | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HO]
    · iexists _; iexact HO
    iexact HS

end Cert.KernelIdeal.Hand

end
-- ==== Proof.KiRunB.lean ====
/-
  The kernel body run once in the case "a point after the first and before the last: scores stored in slot s, the other slot aggregated": on whole memrefs holding the inputs' blocks, the output
  block's and the scratch's earlier contents, it runs to the end, leaves the inputs as they were and leaves
  in the output block and in the scratch the stores listed (last first) over what they held.
-/
import proofs.«129476_g5806795784444_cont_9to1c4b_204_10_alg».proof.Proof.KiRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes in this case into the output block and into the scratch, with the proof that it runs. -/
noncomputable def kernelRun_B (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : ¬k0_cond1 i = 1#1) (hc2 : k0_cond2 i = 1#1) (hc3 : k0_cond3 i = 1#1) (hc4 : ¬k0_cond4 i = 1#1) (s : ℕ) (hs : s ≤ 1) (ho1 : k0_off1 i = ![s, 0, 0]) (ho2 : k0_off2 i = ![1 - s, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) :
    Σ' (LO : List (View.Piece (Elt F) S1024x4 .f32)), { LS : List (View.Piece (Elt F) S2x2048x4 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ owns (c : Thread nD τ) arg13 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f LO)
                ∗ (arg13.view.loc (c : Thread nD τ) ↦[arg13.view.set]{fullShare} arg13.view.writes (Elt F) (harg13.unread xs) LS)) -∗ K ⟨⟩))
          ⊢ wp frame (wpE (defs₀ (F := F)) Variants.none c none) E (cc0__nhp_block i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__nhp_block_eq_skeleton]; unfold cc0__nhp_block_skel
    simp only [k0_part1_eq_skeleton]; unfold k0_part1_skel
    letI : ClosedOff (k0_off1 i) := ⟨![s, 0, 0], ho1⟩
    letI : ClosedOff (k0_off2 i) := ⟨![1 - s, 0, 0], ho2⟩
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fo, %hfo, HO⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    obtain rfl := harg12.eq_unread hfo; obtain rfl := harg13.eq_unread hfs
    sl_exec (disch := first | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HO]
    · iexists _; iexact HO
    iexact HS

end Cert.KernelIdeal.Hand

end
-- ==== Proof.KiRunC.lean ====
/-
  The kernel body run once in the case "last point: slot 1 aggregated, the sums normalised": on whole memrefs holding the inputs' blocks, the output
  block's and the scratch's earlier contents, it runs to the end, leaves the inputs as they were and leaves
  in the output block and in the scratch the stores listed (last first) over what they held.
-/
import proofs.«129476_g5806795784444_cont_9to1c4b_204_10_alg».proof.Proof.KiRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes in this case into the output block and into the scratch, with the proof that it runs. -/
noncomputable def kernelRun_C (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : ¬k0_cond1 i = 1#1) (hc2 : ¬k0_cond2 i = 1#1) (hc3 : k0_cond3 i = 1#1) (hc4 : k0_cond4 i = 1#1) (s : ℕ) (hs : s ≤ 1) (ho2 : k0_off2 i = ![s, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) :
    Σ' (LO : List (View.Piece (Elt F) S1024x4 .f32)), { LS : List (View.Piece (Elt F) S2x2048x4 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ owns (c : Thread nD τ) arg13 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f LO)
                ∗ (arg13.view.loc (c : Thread nD τ) ↦[arg13.view.set]{fullShare} arg13.view.writes (Elt F) (harg13.unread xs) LS)) -∗ K ⟨⟩))
          ⊢ wp frame (wpE (defs₀ (F := F)) Variants.none c none) E (cc0__nhp_block i arg1 harg1 arg2 harg2 arg3 harg3 arg4 harg4 arg5 harg5 arg6 harg6 arg7 harg7 arg8 harg8 arg9 harg9 arg10 harg10 arg11 harg11 arg12 harg12 arg13 harg13) K } := by
  refine ⟨?_, [], fun E K => ?run⟩
  case run =>
    simp only [cc0__nhp_block_eq_skeleton]; unfold cc0__nhp_block_skel
    simp only [k0_part1_eq_skeleton]; unfold k0_part1_skel
    letI : ClosedOff (k0_off2 i) := ⟨![s, 0, 0], ho2⟩
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fo, %hfo, HO⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    obtain rfl := harg12.eq_unread hfo; obtain rfl := harg13.eq_unread hfs
    sl_exec (disch := first | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HO]
    · iexists _; iexact HO
    iexact HS

end Cert.KernelIdeal.Hand

end
-- ==== Proof.KiData.lean ====
/-
  The frame of the program: what the output block and the scratch hold after each of the nine grid points,
  the region invariant that carries one slot of scores from a point to the next, the body obligation
  case by case, and the run of the whole program to its post.
-/
import proofs.«129476_g5806795784444_cont_9to1c4b_204_10_alg».proof.Proof.KiOff

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves, point by point -/

/-- The block of scores point t computes: per row the positive score, the negative score, one, one. -/
def sv (c : Dev nD) (t : Fin cfg0.N) : Vec F S1x2048x4 .f32 :=
  k0_pay2 (k0_pay6 (iblk m c 6 t) (iblk m c 8 t) (iblk m c 5 t) (iblk m c 7 t) (iblk m c 9 t) (iblk m c 0 t) (iblk m c 1 t))
    (k0_pay7 (iblk m c 6 t) (iblk m c 8 t) (iblk m c 5 t) (iblk m c 7 t) (iblk m c 9 t) (iblk m c 2 t) (iblk m c 3 t)) (k0_pay8 (F := F))

/-- The output block after point n: zero after the first; then what the point before left plus the mask block
    against the scores of the point before; at the last point that, normalised. -/
def outsAt (c : Dev nD) : (n : ℕ) → n < cfg0.N → Vec F S1024x4 .f32
  | 0, _ => k0_pay1 (F := F)
  | n + 1, hn =>
    if n + 1 = 8 then
      k0_pay4 (k0_pay3 (iblk m c 4 ⟨n + 1, hn⟩) (sv m c ⟨n, Nat.lt_of_succ_lt hn⟩) (outsAt c n (Nat.lt_of_succ_lt hn))) (iblk m c 10 ⟨n + 1, hn⟩)
    else
      k0_pay3 (iblk m c 4 ⟨n + 1, hn⟩) (sv m c ⟨n, Nat.lt_of_succ_lt hn⟩) (outsAt c n (Nat.lt_of_succ_lt hn))

theorem outsAt_zero (c : Dev nD) (t : Fin cfg0.N) (h : t.val = 0) : outsAt m c t.val t.isLt = k0_pay1 (F := F) := by
  obtain ⟨n, hn⟩ := t
  cases n with
  | zero => rfl
  | succ n => exact absurd h (Nat.succ_ne_zero n)

theorem outsAt_mid (c : Dev nD) (t : Fin cfg0.N) (h0 : t.val ≠ 0) (h8 : t.val ≠ 8) :
    outsAt m c t.val t.isLt = k0_pay3 (iblk m c 4 t) (sv m c ⟨t.val - 1, Nat.lt_of_le_of_lt (Nat.sub_le _ _) t.isLt⟩)
      (outsAt m c (t.val - 1) (Nat.lt_of_le_of_lt (Nat.sub_le _ _) t.isLt)) := by
  obtain ⟨n, hn⟩ := t
  cases n with
  | zero => exact absurd rfl h0
  | succ n => exact (if_neg h8).trans rfl

theorem outsAt_last (c : Dev nD) (t : Fin cfg0.N) (h8 : t.val = 8) :
    outsAt m c t.val t.isLt = k0_pay4 (k0_pay3 (iblk m c 4 t) (sv m c ⟨t.val - 1, Nat.lt_of_le_of_lt (Nat.sub_le _ _) t.isLt⟩)
      (outsAt m c (t.val - 1) (Nat.lt_of_le_of_lt (Nat.sub_le _ _) t.isLt))) (iblk m c 10 t) := by
  obtain ⟨n, hn⟩ := t
  cases n with
  | zero => exact absurd (show (0 : ℕ) = 8 from h8) (by decide)
  | succ n => exact (if_pos h8).trans rfl

/-- Slot s of the scratch (s = 0 or 1): plane s, 2048 rows by 4 lanes. -/
abbrev slotR (s : ℕ) (hs : s ≤ 1) : Rect S2x2048x4 :=
  Rect.unit (s := S2x2048x4) ![s, 0, 0] S1x2048x4.size (fun a => by
    match a with
    | ⟨0, _⟩ => show s + 1 ≤ 2; omega
    | ⟨1, _⟩ => show 0 + 2048 ≤ 2048; omega
    | ⟨2, _⟩ => show 0 + 4 ≤ 4; omega)

theorem slotR_congr {a b : ℕ} (h : a = b) (ha : a ≤ 1) (hb : b ≤ 1) : slotR a ha = slotR b hb := by subst h; rfl

/-- After point n (n < 8) the slot n mod 2 of the scratch holds the scores of point n. -/
def SlotOK (c : Dev nD) (n : ℕ) (hn : n < cfg0.N) (d : Vec F S2x2048x4 .f32) : Prop :=
  n < 8 → View.ld d (slotR (n % 2) (by omega)) = sv m c ⟨n, hn⟩

/-- The region invariant before position n: the launch's before the first point; afterwards the scratch at
    contents whose slot (n - 1) mod 2 holds the scores of point n - 1, and the generator register at some state. -/
def PhiS (c : Dev nD) : (n : ℕ) → n ≤ cfg0.N → sProp 𝕄
  | 0, _ => Pipeline.ΦA spec0 c
  | n + 1, hn => iprop(iprop(∃ d, iprop(⌜SlotOK m c n hn d⌝ ∗ owns (c : Thread nD τ) scM fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ d, iprop(⌜SlotOK m c n hn d⌝ ∗ owns (c : Thread nD τ) scM fullShare d)) ∗ (∃ r, prngReg c r)) := rfl

theorem PhiS_pos (c : Dev nD) (n : ℕ) (h : n ≤ cfg0.N) (hz : n ≠ 0) :
    PhiS m c n h = iprop(iprop(∃ d, iprop(⌜SlotOK m c (n - 1) (by omega) d⌝ ∗ owns (c : Thread nD τ) scM fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outsAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outsAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- The output window is live at every point: the block is zeroed at the first and added to at every later one. -/
theorem live11 : ∀ i : grid0.Coords, cfg0.idle 11 i = false := by decide +kernel

/-- At a later point the output block holds what the point before left: it is written back at the last point only. -/
theorem before_11 (c : Dev nD) (t : Fin cfg0.N) (h0 : t.val ≠ 0) (d) :
    (dats m 0 c).before 11 t d = outsAt m c (t.val - 1) (Nat.lt_of_le_of_lt (Nat.sub_le _ _) t.isLt) := by
  have hN : t.val < 9 := lt_of_lt_of_eq t.isLt (show cfg0.N = 9 from N_0)
  rw [Dat.before_out_kept _ 11 rfl t h0 (Bool.eq_false_iff.mpr fun h => by have := (flush0_11 _).mp h; dsimp only at this; omega)
    live11 (fun _ _ => rfl)]
  dsimp only [dats]

end Cert.KernelIdeal.Hand

end
-- ==== Proof.KiPieces.lean ====
/-
  What each case of the body leaves, read back as values: the output block as the payload of its covering
  store over the loaded blocks, and the slot of the scratch the case stores as the block of scores.
-/
import proofs.«129476_g5806795784444_cont_9to1c4b_204_10_alg».proof.Proof.KiRunC
import proofs.«129476_g5806795784444_cont_9to1c4b_204_10_alg».proof.Proof.KiData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- One store at the offsets of slot s leaves its payload in slot s, whatever the scratch held. -/
theorem ld_slot_of_store {sg : RefSig} {κ : Kind} {sp : Space} (v : View sg κ sp S2x2048x4 .f32) (f : v.ty.Contents (Elt F))
    (s : ℕ) (hs : s ≤ 1) {off : Fin 3 → Nat} (hoff : off = ![s, 0, 0]) (inb : ∀ a, off a + S1x2048x4.size a ≤ S2x2048x4.size a)
    (w : Vec F S1x2048x4 .f32) :
    View.ld (v.read (Elt F) (v.writes (Elt F) f [⟨Rect.unit (s := S2x2048x4) off S1x2048x4.size inb, w⟩])) (slotR s hs) = w := by
  subst hoff
  funext y
  exact View.read_writes_cons_emb v f (slotR s hs) w [] y

/-- and leaves the other slot as it was: the two slots are disjoint. -/
theorem ld_other_slot {sg : RefSig} {κ : Kind} {sp : Space} (v : View sg κ sp S2x2048x4 .f32) (f : v.ty.Contents (Elt F))
    (s : ℕ) (hs : s ≤ 1) {off1 off2 : Fin 3 → Nat} (h1 : off1 = ![s, 0, 0]) (h2 : off2 = ![1 - s, 0, 0])
    (inb1 : ∀ a, off1 a + S1x2048x4.size a ≤ S2x2048x4.size a) (inb2 : ∀ a, off2 a + S1x2048x4.size a ≤ S2x2048x4.size a)
    (w : Vec F S1x2048x4 .f32) :
    View.ld (v.read (Elt F) (v.writes (Elt F) f [⟨Rect.unit (s := S2x2048x4) off1 S1x2048x4.size inb1, w⟩]))
        (Rect.unit (s := S2x2048x4) off2 S1x2048x4.size inb2)
      = View.ld (v.read (Elt F) f) (slotR (1 - s) (by omega)) := by
  subst h1; subst h2
  funext y
  refine View.read_writes_apply_of_forall_not_mem v f ((slotR (1 - s) (by omega)).emb y) _ (fun p hp hy => ?_)
  rw [List.mem_singleton] at hp; subst hp
  have hd : Disjoint (Rect.unit (s := S2x2048x4) ![s, 0, 0] S1x2048x4.size inb1).set (slotR (1 - s) (by omega)).set :=
    Rect.unit_disjoint (0 : Fin 3) (by show s + 1 ≤ 1 - s ∨ (1 - s) + 1 ≤ s; omega)
  have hm : (slotR (1 - s) (by omega)).emb y ∈ (slotR (1 - s) (by omega)).set := by
    rw [← Rect.map_emb_univ]; exact Finset.mem_map_of_mem _ (Finset.mem_univ y)
  exact Finset.disjoint_left.mp hd hy hm

/-! ## The first point -/

theorem coverA_O (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : k0_cond1 i = 1#1) (hc2 : k0_cond2 i = 1#1) (hc3 : ¬k0_cond3 i = 1#1) (hc4 : ¬k0_cond4 i = 1#1) (ho1 : k0_off1 i = ![0, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) (y : S1024x4.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 hc1 hc2 hc3 hc4 ho1 x0 x1 x2 x3 x4 x5 x6 x7 x8 x9 x10 xo xs).1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 hc1 hc2 hc3 hc4 ho1 x0 x1 x2 x3 x4 x5 x6 x7 x8 x9 x10 xo xs).1 S1024x4.size (by sl_kernel_rfl) y

/-- The first point leaves the zero block in the output block. -/
theorem pieceA_O (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : k0_cond1 i = 1#1) (hc2 : k0_cond2 i = 1#1) (hc3 : ¬k0_cond3 i = 1#1) (hc4 : ¬k0_cond4 i = 1#1) (ho1 : k0_off1 i = ![0, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) (f : arg12.view.ty.Contents (Elt F)) :
    arg12.view.read (Elt F) (arg12.view.writes (Elt F) f (kernelRun_A c i arg1 harg1 arg2 harg2 arg3 harg3 arg4 harg4 arg5 harg5 arg6 harg6 arg7 harg7 arg8 harg8 arg9 harg9 arg10 harg10 arg11 harg11 arg12 harg12 arg13 harg13 hc1 hc2 hc3 hc4 ho1 x0 x1 x2 x3 x4 x5 x6 x7 x8 x9 x10 xo xs).1) = k0_pay1 (F := F) := by
  rw [View.read_writes_eq_canon _ _ _ (coverA_O c i arg1 harg1 arg2 harg2 arg3 harg3 arg4 harg4 arg5 harg5 arg6 harg6 arg7 harg7 arg8 harg8 arg9 harg9 arg10 harg10 arg11 harg11 arg12 harg12 arg13 harg13 hc1 hc2 hc3 hc4 ho1 x0 x1 x2 x3 x4 x5 x6 x7 x8 x9 x10 xo xs)]
  unfold kernelRun_A; dsimp only
  rw [View.canon_unit_zero hz2]

/-- and the scores of block 0 in slot 0 of the scratch. -/
theorem pieceA_S (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : k0_cond1 i = 1#1) (hc2 : k0_cond2 i = 1#1) (hc3 : ¬k0_cond3 i = 1#1) (hc4 : ¬k0_cond4 i = 1#1) (ho1 : k0_off1 i = ![0, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) :
    View.ld (arg13.view.read (Elt F) (arg13.view.writes (Elt F) (harg13.unread xs) (kernelRun_A c i arg1 harg1 arg2 harg2 arg3 harg3 arg4 harg4 arg5 harg5 arg6 harg6 arg7 harg7 arg8 harg8 arg9 harg9 arg10 harg10 arg11 harg11 arg12 harg12 arg13 harg13 hc1 hc2 hc3 hc4 ho1 x0 x1 x2 x3 x4 x5 x6 x7 x8 x9 x10 xo xs).2.1)) (slotR 0 (by omega))
      = k0_pay2 (k0_pay6 x6 x8 x5 x7 x9 x0 x1) (k0_pay7 x6 x8 x5 x7 x9 x2 x3) (k0_pay8 (F := F)) := by
  unfold kernelRun_A; dsimp only
  refine (ld_slot_of_store arg13.view _ 0 (by omega) ho1 _ _).trans ?_
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2048x512) hz2, View.ld_unit_zero (S := S2048x1024) hz2, View.ld_unit_zero (S := S512x512) hz2, View.ld_unit_zero (S := S1x512) hz2, View.ld_unit_zero (S := S512x1) hz2, View.ld_unit_zero (S := S1x1) hz2, View.ld_unit_zero (S := S1024x4) hz2]

/-! ## A point in the middle -/

theorem coverB_O (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : ¬k0_cond1 i = 1#1) (hc2 : k0_cond2 i = 1#1) (hc3 : k0_cond3 i = 1#1) (hc4 : ¬k0_cond4 i = 1#1) (s : ℕ) (hs : s ≤ 1) (ho1 : k0_off1 i = ![s, 0, 0]) (ho2 : k0_off2 i = ![1 - s, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) (y : S1024x4.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho1 ho2 x0 x1 x2 x3 x4 x5 x6 x7 x8 x9 x10 xo xs).1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho1 ho2 x0 x1 x2 x3 x4 x5 x6 x7 x8 x9 x10 xo xs).1 S1024x4.size (by sl_kernel_rfl) y

/-- A middle point leaves in the output block what it held plus the mask block against the other slot. -/
theorem pieceB_O (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : ¬k0_cond1 i = 1#1) (hc2 : k0_cond2 i = 1#1) (hc3 : k0_cond3 i = 1#1) (hc4 : ¬k0_cond4 i = 1#1) (s : ℕ) (hs : s ≤ 1) (ho1 : k0_off1 i = ![s, 0, 0]) (ho2 : k0_off2 i = ![1 - s, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) (f : arg12.view.ty.Contents (Elt F)) :
    arg12.view.read (Elt F) (arg12.view.writes (Elt F) f (kernelRun_B c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho1 ho2 x0 x1 x2 x3 x4 x5 x6 x7 x8 x9 x10 xo xs).1)
      = k0_pay3 x4 (View.ld xs (slotR (1 - s) (by omega))) xo := by
  rw [View.read_writes_eq_canon _ _ _ (coverB_O c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho1 ho2 x0 x1 x2 x3 x4 x5 x6 x7 x8 x9 x10 xo xs)]
  unfold kernelRun_B; dsimp only
  rw [View.canon_unit_zero hz2]
  unfold kernelRun_B.sl.v26 kernelRun_B.sl.HS_1
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2048x512) hz2, View.ld_unit_zero (S := S2048x1024) hz2, View.ld_unit_zero (S := S512x512) hz2, View.ld_unit_zero (S := S1x512) hz2, View.ld_unit_zero (S := S512x1) hz2, View.ld_unit_zero (S := S1x1) hz2, View.ld_unit_zero (S := S1024x4) hz2]
  refine congrArg (fun v => k0_pay3 x4 v xo) ?_
  refine (ld_other_slot arg13.view _ s hs ho1 ho2 _ _ _).trans ?_
  rw [harg13.read_unread]

/-- and the scores of its block in slot s of the scratch. -/
theorem pieceB_S (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : ¬k0_cond1 i = 1#1) (hc2 : k0_cond2 i = 1#1) (hc3 : k0_cond3 i = 1#1) (hc4 : ¬k0_cond4 i = 1#1) (s : ℕ) (hs : s ≤ 1) (ho1 : k0_off1 i = ![s, 0, 0]) (ho2 : k0_off2 i = ![1 - s, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) :
    View.ld (arg13.view.read (Elt F) (arg13.view.writes (Elt F) (harg13.unread xs) (kernelRun_B c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho1 ho2 x0 x1 x2 x3 x4 x5 x6 x7 x8 x9 x10 xo xs).2.1)) (slotR s hs)
      = k0_pay2 (k0_pay6 x6 x8 x5 x7 x9 x0 x1) (k0_pay7 x6 x8 x5 x7 x9 x2 x3) (k0_pay8 (F := F)) := by
  unfold kernelRun_B; dsimp only
  unfold kernelRun_B.sl.HS_1
  refine (ld_slot_of_store arg13.view _ s hs ho1 _ _).trans ?_
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2048x512) hz2, View.ld_unit_zero (S := S2048x1024) hz2, View.ld_unit_zero (S := S512x512) hz2, View.ld_unit_zero (S := S1x512) hz2, View.ld_unit_zero (S := S512x1) hz2, View.ld_unit_zero (S := S1x1) hz2, View.ld_unit_zero (S := S1024x4) hz2]

/-! ## The last point -/

theorem ld_off_slot (X : Vec F S2x2048x4 .f32) (s : ℕ) (hs : s ≤ 1) {off : Fin 3 → Nat} (h : off = ![s, 0, 0])
    (inb : ∀ a, off a + S1x2048x4.size a ≤ S2x2048x4.size a) :
    View.ld X (Rect.unit (s := S2x2048x4) off S1x2048x4.size inb) = View.ld X (slotR s hs) := by
  subst h; rfl

theorem coverC_O (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : ¬k0_cond1 i = 1#1) (hc2 : ¬k0_cond2 i = 1#1) (hc3 : k0_cond3 i = 1#1) (hc4 : k0_cond4 i = 1#1) (s : ℕ) (hs : s ≤ 1) (ho2 : k0_off2 i = ![s, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) (y : S1024x4.Idx) :
    ∃ pc ∈ (kernelRun_C c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho2 x0 x1 x2 x3 x4 x5 x6 x7 x8 x9 x10 xo xs).1, y ∈ pc.1.set :=
  View.cover_of_tiledL (kernelRun_C c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho2 x0 x1 x2 x3 x4 x5 x6 x7 x8 x9 x10 xo xs).1 S1024x4.size (by sl_kernel_rfl) y

/-- The last point leaves the normalised sums: what the block held plus the mask block against slot s, through the finish. -/
theorem pieceC_O (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S1024x4 .f32) (harg12 : arg12.IsWhole) (arg13 : Memref sig .tc .vmem S2x2048x4 .f32) (harg13 : arg13.IsWhole)
    (hc1 : ¬k0_cond1 i = 1#1) (hc2 : ¬k0_cond2 i = 1#1) (hc3 : k0_cond3 i = 1#1) (hc4 : k0_cond4 i = 1#1) (s : ℕ) (hs : s ≤ 1) (ho2 : k0_off2 i = ![s, 0, 0])
    (x0 : Vec F S2048x512 .f32) (x1 : Vec F S2048x512 .f32) (x2 : Vec F S2048x512 .f32) (x3 : Vec F S2048x512 .f32) (x4 : Vec F S2048x1024 .f32) (x5 : Vec F S512x512 .f32) (x6 : Vec F S1x512 .f32) (x7 : Vec F S512x512 .f32) (x8 : Vec F S1x512 .f32) (x9 : Vec F S512x1 .f32) (x10 : Vec F S1x1 .f32) (xo : Vec F S1024x4 .f32) (xs : Vec F S2x2048x4 .f32) (f : arg12.view.ty.Contents (Elt F)) :
    arg12.view.read (Elt F) (arg12.view.writes (Elt F) f (kernelRun_C c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho2 x0 x1 x2 x3 x4 x5 x6 x7 x8 x9 x10 xo xs).1)
      = k0_pay4 (k0_pay3 x4 (View.ld xs (slotR s hs)) xo) x10 := by
  rw [View.read_writes_eq_canon _ _ _ (coverC_O c i arg1 harg1 arg2 harg2 arg3 harg3 arg4 harg4 arg5 harg5 arg6 harg6 arg7 harg7 arg8 harg8 arg9 harg9 arg10 harg10 arg11 harg11 arg12 harg12 arg13 harg13 hc1 hc2 hc3 hc4 s hs ho2 x0 x1 x2 x3 x4 x5 x6 x7 x8 x9 x10 xo xs)]
  unfold kernelRun_C; dsimp only
  rw [View.canon_cons_unit_zero hz2]
  unfold kernelRun_C.sl.v12 kernelRun_C.sl.HO_1
  rw [View.readCov_unit_zero _ hz2]
  unfold kernelRun_C.sl.v26
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S2048x512) hz2, View.ld_unit_zero (S := S2048x1024) hz2, View.ld_unit_zero (S := S512x512) hz2, View.ld_unit_zero (S := S1x512) hz2, View.ld_unit_zero (S := S512x1) hz2, View.ld_unit_zero (S := S1x1) hz2, View.ld_unit_zero (S := S1024x4) hz2]
  refine congrArg (fun v => k0_pay4 (k0_pay3 x4 v xo) x10) ?_
  exact ld_off_slot xs s hs ho2 _

end Cert.KernelIdeal.Hand

end
-- ==== Proof.KiBody.lean ====
/-
  The body obligation of the region, case by case over the nine grid points, and the run of the whole
  program to its post: every array of the region at what the proof data computes.
-/
import proofs.«129476_g5806795784444_cont_9to1c4b_204_10_alg».proof.Proof.KiPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem ld_slotR_congr (X : Vec F S2x2048x4 .f32) {a b : ℕ} (h : a = b) (ha : a ≤ 1) (hb : b ≤ 1) :
    View.ld X (slotR a ha) = View.ld X (slotR b hb) := by subst h; rfl

/-! ## The body obligation -/

theorem leaves_0 (c : Dev nD) (t : Fin cfg0.N) : (dats m 0 c).leavesExact 0 t = owns (c : Thread nD τ) (ms0 t) fullShare (iblk m c 0 t) := by
  unfold Dat.leavesExact; rw [liveAt 0 t, after_0]
theorem leaves_1 (c : Dev nD) (t : Fin cfg0.N) : (dats m 0 c).leavesExact 1 t = owns (c : Thread nD τ) (ms1 t) fullShare (iblk m c 1 t) := by
  unfold Dat.leavesExact; rw [liveAt 1 t, after_1]
theorem leaves_2 (c : Dev nD) (t : Fin cfg0.N) : (dats m 0 c).leavesExact 2 t = owns (c : Thread nD τ) (ms2 t) fullShare (iblk m c 2 t) := by
  unfold Dat.leavesExact; rw [liveAt 2 t, after_2]
theorem leaves_3 (c : Dev nD) (t : Fin cfg0.N) : (dats m 0 c).leavesExact 3 t = owns (c : Thread nD τ) (ms3 t) fullShare (iblk m c 3 t) := by
  unfold Dat.leavesExact; rw [liveAt 3 t, after_3]
theorem leaves_4 (c : Dev nD) (t : Fin cfg0.N) : (dats m 0 c).leavesExact 4 t = owns (c : Thread nD τ) (ms4 t) fullShare (iblk m c 4 t) := by
  unfold Dat.leavesExact; rw [liveAt 4 t, after_4]
theorem leaves_5 (c : Dev nD) (t : Fin cfg0.N) : (dats m 0 c).leavesExact 5 t = owns (c : Thread nD τ) (ms5 t) fullShare (iblk m c 5 t) := by
  unfold Dat.leavesExact; rw [liveAt 5 t, after_5]
theorem leaves_6 (c : Dev nD) (t : Fin cfg0.N) : (dats m 0 c).leavesExact 6 t = owns (c : Thread nD τ) (ms6 t) fullShare (iblk m c 6 t) := by
  unfold Dat.leavesExact; rw [liveAt 6 t, after_6]
theorem leaves_7 (c : Dev nD) (t : Fin cfg0.N) : (dats m 0 c).leavesExact 7 t = owns (c : Thread nD τ) (ms7 t) fullShare (iblk m c 7 t) := by
  unfold Dat.leavesExact; rw [liveAt 7 t, after_7]
theorem leaves_8 (c : Dev nD) (t : Fin cfg0.N) : (dats m 0 c).leavesExact 8 t = owns (c : Thread nD τ) (ms8 t) fullShare (iblk m c 8 t) := by
  unfold Dat.leavesExact; rw [liveAt 8 t, after_8]
theorem leaves_9 (c : Dev nD) (t : Fin cfg0.N) : (dats m 0 c).leavesExact 9 t = owns (c : Thread nD τ) (ms9 t) fullShare (iblk m c 9 t) := by
  unfold Dat.leavesExact; rw [liveAt 9 t, after_9]
theorem leaves_10 (c : Dev nD) (t : Fin cfg0.N) : (dats m 0 c).leavesExact 10 t = owns (c : Thread nD τ) (ms10 t) fullShare (iblk m c 10 t) := by
  unfold Dat.leavesExact; rw [liveAt 10 t, after_10]
theorem leaves_11 (c : Dev nD) (t : Fin cfg0.N) : (dats m 0 c).leavesExact 11 t = owns (c : Thread nD τ) (ms11 t) fullShare (outsAt m c t.val t.isLt) := by
  unfold Dat.leavesExact; rw [liveAt 11 t, after_11]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 8000000 in
/-- The body at any point: which case the point is in is read off its number; the inputs' buffers hold their blocks;
    the output block holds what the point before left; the invariant hands over the scratch with the slot the point
    before stored, and takes it back with the slot this point stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11]
  have hN : t.val < 9 := lt_of_lt_of_eq t.isLt (show cfg0.N = 9 from N_0)
  by_cases hz : t.val = 0
  · -- the first point
    have hc1 := (hcond1 t).mpr hz
    have hc2 := (hcond2 t).mpr (by omega)
    have hc3 : ¬k0_cond3 (grid0.coords t) = 1#1 := fun h => by have := (hcond3 t).mp h; omega
    have hc4 : ¬k0_cond4 (grid0.coords t) = 1#1 := fun h => by have := (hcond4 t).mp h; omega
    have ho1 : k0_off1 (grid0.coords t) = ![0, 0, 0] := by rw [hoff1 t, hz]
    rw [PhiS_castSucc m c t, PhiS_zero m c _ _ hz, PhiA_eq, outsAt_zero m c t hz]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 ho1 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    iintro ⟨H0, H1, H2, H3, H4, H5, H6, H7, H8, H9, H10, ⟨%e11, H11⟩, HS⟩
    isplitl [HS Hg]
    · isplitl [HS]
      · iexists _; isplitr
        swap
        · unfold owns; iexists _; isplitr; swap; · iexact HS
          ipureintro; rfl
        ipureintro
        exact fun _ => (ld_slotR_congr _ (show t.val % 2 = 0 by omega) (by omega) (by omega)).trans (pieceA_S c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 ho1 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold owns; iexists _; isplitr; swap; · iexact H11
    ipureintro
    exact pieceA_O c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 ho1 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds _
  · by_cases h8 : t.val = 8
    · -- the last point
      have hc1 : ¬k0_cond1 (grid0.coords t) = 1#1 := fun h => hz ((hcond1 t).mp h)
      have hc2 : ¬k0_cond2 (grid0.coords t) = 1#1 := fun h => by have := (hcond2 t).mp h; omega
      have hc3 := (hcond3 t).mpr (by omega)
      have hc4 := (hcond4 t).mpr h8
      have ho2 : k0_off2 (grid0.coords t) = ![1, 0, 0] := by rw [hoff2 t, h8]
      rw [PhiS_castSucc m c t, PhiS_pos m c _ _ hz, outsAt_last m c t h8]
      simp only [before_11 m c t hz]
      iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 1 (le_refl 1) ho2 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      iintro ⟨H0, H1, H2, H3, H4, H5, H6, H7, H8, H9, H10, ⟨%e11, H11⟩, HS⟩
      isplitl [HS Hg]
      · isplitl [HS]
        · iexists _; isplitr
          swap
          · unfold owns; iexists _; isplitr; swap; · iexact HS
            ipureintro; rfl
          ipureintro
          exact fun h => absurd h (by omega)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr; swap; · iexact H11
      ipureintro
      refine (pieceC_O c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 1 (le_refl 1) ho2 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds _).trans ?_
      rw [show View.ld ds (slotR 1 (le_refl 1)) = sv m c ⟨t.val - 1, Nat.lt_of_le_of_lt (Nat.sub_le _ _) t.isLt⟩ from
        (ld_slotR_congr ds (show 1 = (t.val - 1) % 2 by omega) _ (by omega)).trans (hds (by omega))]
    · -- a point in the middle: slot t mod 2 stored, the other slot read
      have hc1 : ¬k0_cond1 (grid0.coords t) = 1#1 := fun h => hz ((hcond1 t).mp h)
      have hc2 := (hcond2 t).mpr (by omega)
      have hc3 := (hcond3 t).mpr (by omega)
      have hc4 : ¬k0_cond4 (grid0.coords t) = 1#1 := fun h => h8 ((hcond4 t).mp h)
      have hs : t.val % 2 ≤ 1 := by omega
      have ho1 : k0_off1 (grid0.coords t) = ![t.val % 2, 0, 0] := hoff1 t
      have ho2 : k0_off2 (grid0.coords t) = ![1 - t.val % 2, 0, 0] := by rw [hoff2 t, show (t.val + 1) % 2 = 1 - t.val % 2 by omega]
      rw [PhiS_castSucc m c t, PhiS_pos m c _ _ hz, outsAt_mid m c t hz h8]
      simp only [before_11 m c t hz]
      iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 (t.val % 2) hs ho1 ho2 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      iintro ⟨H0, H1, H2, H3, H4, H5, H6, H7, H8, H9, H10, ⟨%e11, H11⟩, HS⟩
      isplitl [HS Hg]
      · isplitl [HS]
        · iexists _; isplitr
          swap
          · unfold owns; iexists _; isplitr; swap; · iexact HS
            ipureintro; rfl
          ipureintro
          exact fun _ => pieceB_S c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 (t.val % 2) hs ho1 ho2 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr; swap; · iexact H11
      ipureintro
      refine (pieceB_O c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM hscM hc1 hc2 hc3 hc4 (t.val % 2) hs ho1 ho2 (iblk m c 0 t) (iblk m c 1 t) (iblk m c 2 t) (iblk m c 3 t) (iblk m c 4 t) (iblk m c 5 t) (iblk m c 6 t) (iblk m c 7 t) (iblk m c 8 t) (iblk m c 9 t) (iblk m c 10 t) _ ds _).trans ?_
      rw [show View.ld ds (slotR (1 - t.val % 2) (by omega)) = sv m c ⟨t.val - 1, Nat.lt_of_le_of_lt (Nat.sub_le _ _) t.isLt⟩ from
        (ld_slotR_congr ds (show 1 - t.val % 2 = (t.val - 1) % 2 by omega) _ (by omega)).trans (hds (by omega))]

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 9 := N_0; omega), PhiA_eq]
  iintro ⟨⟨%d, %hd, HS⟩, Hg⟩
  isplitl [HS]
  · iexists _; iexact HS
  iexact Hg

/-! ## The run -/

set_option backward.isDefEq.respectTransparency.types false in
/-- Every weakly fair execution of the program terminates, and every final state has each array of the region at what
    the proof data computes and every other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and its argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The same run with its two results named: each result buffer at what the host operations after the region
    leave in it, the argument arrays as they started. -/
theorem run_value : θ_run defs (onTc (τ := τ) (main (F := F))) ⟨m, fun _ => 0, ρ⟩ (fun r => ∀ c : Dev nD,
      r.2.mem ((c.tc : Thread nD τ).loc main_v0_0) = Pipeline.afterTail₀ cfgs (dats m) 0 (V0 m) [hostOps1] c main_v0_0
      ∧ r.2.mem ((c.tc : Thread nD τ).loc main_v0_1) = Pipeline.afterTail₀ cfgs (dats m) 0 (V0 m) [hostOps1] c main_v0_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).2 main_v0_0 (Pipeline.mem_restRefs_of main_v0_0 (by decide) (by decide)),
      (h c).2 main_v0_1 (Pipeline.mem_restRefs_of main_v0_1 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c))⟩) (run_main m ρ)

end Cert.KernelIdeal.Hand

end
-- ==== Proof.KBlocks.lean ====
/-
  The kernel's input blocks as entries of the launch arguments: at each grid point, each window's block read at
  explicit coordinates is the corresponding argument array read at explicit coordinates.
-/
import proofs.«129476_g5806795784444_cont_9to1c4b_204_10_alg».proof.Proof.Gen.KernelIdeal.Frame
import Idealize.ShloMosaic.Lib.ValueIdx
import Idealize.ShloMosaic.Lib.Pipeline.Value

set_option maxRecDepth 16384

noncomputable section

namespace Cert.KernelIdeal.KBlocks

open Cert.KernelIdeal Cert.KernelIdeal.Gen Idealize.ShloMosaic Idealize.ShloMosaic.TcCoe Idealize.ShloMosaic.Tactic
open Idealize.ShloMosaic.ValueIdx Idealize.SL.Sem
open Idealize.ShloMosaic.Pipeline (Dat Cfg Window)

variable (m : (ℓ : Loc nD τ sig) → Buf (Elt Ideal) ℓ)

/-- The block index maps of the five row-blocked windows, decided over the nine grid points. -/
theorem index_rows : ∀ t : Fin cfg0.N,
    win0_0.index t (0 : Fin 2) = min t.val 7 ∧ win0_0.index t (1 : Fin 2) = 0
    ∧ win0_1.index t (0 : Fin 2) = min t.val 7 ∧ win0_1.index t (1 : Fin 2) = 0
    ∧ win0_2.index t (0 : Fin 2) = min t.val 7 ∧ win0_2.index t (1 : Fin 2) = 0
    ∧ win0_3.index t (0 : Fin 2) = min t.val 7 ∧ win0_3.index t (1 : Fin 2) = 0
    ∧ win0_4.index t (0 : Fin 2) = t.val - 1 ∧ win0_4.index t (1 : Fin 2) = 0 ∧ True :=
  (by decide +kernel : ∀ t : Fin grid0.N, _)

/-- The reshaped array of window 0 is argument 0, reshaped. -/
theorem V_v0 (c : Dev nD) : (V m c main_call0_v0 : S16384x512.Idx → EReal)
    = shapeCast S16384x512 (m ((c : Thread nD τ).loc main_arg0) : S1x16384x512.Idx → EReal) shapeCasts_S1x16384x512_S16384x512 := by
  show StableHlo.after hostOps0 (fun b => m (c, b)) (Proc.devRef .tc main_call0_v0) = _
  after_results
  rfl

/-- Window 0's block at point t, entry (r, f): row min(t, 7) * 2048 + r of argument 0. -/
theorem iblk0 (c : Dev nD) (t : Fin cfg0.N) (r : Fin 2048) (f : Fin 512) :
    (iblk m c 0 t : S2048x512.Idx → EReal) (ix2 r f)
      = (m ((c : Thread nD τ).loc main_arg0) : S1x16384x512.Idx → EReal)
          (ix3 0 ⟨min t.val 7 * 2048 + r.val, by have := r.isLt; omega⟩ f) := by
  obtain ⟨e0, e1, -⟩ := index_rows t
  unfold iblk
  rw [View.read_apply]
  show V m c main_call0_v0 (((cfg0.win 0).blk t).view.emb (ix2 r f)) = _
  rw [V_v0]
  refine shapeCast_apply _ _ _ _ ?_
  change (S1x16384x512.rowMajor _).val = (S16384x512.rowMajor _).val
  rw [Shape.rowMajor_val_three, Shape.rowMajor_val_two]
  show (0 * 16384 + (min t.val 7 * 2048 + r.val)) * 512 + f.val
    = (win0_0.index t (0 : Fin 2) * 2048 + 1 * r.val) * 512 + (win0_0.index t (1 : Fin 2) * 512 + 1 * f.val)
  rw [e0, e1]
  omega

/-- The reshaped array of window 1 is argument 1, reshaped. -/
theorem V_v1 (c : Dev nD) : (V m c main_call0_v1 : S16384x512.Idx → EReal)
    = shapeCast S16384x512 (m ((c : Thread nD τ).loc main_arg1) : S1x16384x512.Idx → EReal) shapeCasts_S1x16384x512_S16384x512 := by
  show StableHlo.after hostOps0 (fun b => m (c, b)) (Proc.devRef .tc main_call0_v1) = _
  after_results
  rfl

/-- Window 1's block at point t, entry (r, f): row min(t, 7) * 2048 + r of argument 1. -/
theorem iblk1 (c : Dev nD) (t : Fin cfg0.N) (r : Fin 2048) (f : Fin 512) :
    (iblk m c 1 t : S2048x512.Idx → EReal) (ix2 r f)
      = (m ((c : Thread nD τ).loc main_arg1) : S1x16384x512.Idx → EReal)
          (ix3 0 ⟨min t.val 7 * 2048 + r.val, by have := r.isLt; omega⟩ f) := by
  obtain ⟨-, -, e0, e1, -⟩ := index_rows t
  unfold iblk
  rw [View.read_apply]
  show V m c main_call0_v1 (((cfg0.win 1).blk t).view.emb (ix2 r f)) = _
  rw [V_v1]
  refine shapeCast_apply _ _ _ _ ?_
  change (S1x16384x512.rowMajor _).val = (S16384x512.rowMajor _).val
  rw [Shape.rowMajor_val_three, Shape.rowMajor_val_two]
  show (0 * 16384 + (min t.val 7 * 2048 + r.val)) * 512 + f.val
    = (win0_1.index t (0 : Fin 2) * 2048 + 1 * r.val) * 512 + (win0_1.index t (1 : Fin 2) * 512 + 1 * f.val)
  rw [e0, e1]
  omega

/-- The reshaped array of window 2 is argument 2, reshaped. -/
theorem V_v2 (c : Dev nD) : (V m c main_call0_v2 : S16384x512.Idx → EReal)
    = shapeCast S16384x512 (m ((c : Thread nD τ).loc main_arg2) : S1x16384x512.Idx → EReal) shapeCasts_S1x16384x512_S16384x512 := by
  show StableHlo.after hostOps0 (fun b => m (c, b)) (Proc.devRef .tc main_call0_v2) = _
  after_results
  rfl

/-- Window 2's block at point t, entry (r, f): row min(t, 7) * 2048 + r of argument 2. -/
theorem iblk2 (c : Dev nD) (t : Fin cfg0.N) (r : Fin 2048) (f : Fin 512) :
    (iblk m c 2 t : S2048x512.Idx → EReal) (ix2 r f)
      = (m ((c : Thread nD τ).loc main_arg2) : S1x16384x512.Idx → EReal)
          (ix3 0 ⟨min t.val 7 * 2048 + r.val, by have := r.isLt; omega⟩ f) := by
  obtain ⟨-, -, -, -, e0, e1, -⟩ := index_rows t
  unfold iblk
  rw [View.read_apply]
  show V m c main_call0_v2 (((cfg0.win 2).blk t).view.emb (ix2 r f)) = _
  rw [V_v2]
  refine shapeCast_apply _ _ _ _ ?_
  change (S1x16384x512.rowMajor _).val = (S16384x512.rowMajor _).val
  rw [Shape.rowMajor_val_three, Shape.rowMajor_val_two]
  show (0 * 16384 + (min t.val 7 * 2048 + r.val)) * 512 + f.val
    = (win0_2.index t (0 : Fin 2) * 2048 + 1 * r.val) * 512 + (win0_2.index t (1 : Fin 2) * 512 + 1 * f.val)
  rw [e0, e1]
  omega

/-- The reshaped array of window 3 is argument 3, reshaped. -/
theorem V_v3 (c : Dev nD) : (V m c main_call0_v3 : S16384x512.Idx → EReal)
    = shapeCast S16384x512 (m ((c : Thread nD τ).loc main_arg3) : S1x16384x512.Idx → EReal) shapeCasts_S1x16384x512_S16384x512 := by
  show StableHlo.after hostOps0 (fun b => m (c, b)) (Proc.devRef .tc main_call0_v3) = _
  after_results
  rfl

/-- Window 3's block at point t, entry (r, f): row min(t, 7) * 2048 + r of argument 3. -/
theorem iblk3 (c : Dev nD) (t : Fin cfg0.N) (r : Fin 2048) (f : Fin 512) :
    (iblk m c 3 t : S2048x512.Idx → EReal) (ix2 r f)
      = (m ((c : Thread nD τ).loc main_arg3) : S1x16384x512.Idx → EReal)
          (ix3 0 ⟨min t.val 7 * 2048 + r.val, by have := r.isLt; omega⟩ f) := by
  obtain ⟨-, -, -, -, -, -, e0, e1, -⟩ := index_rows t
  unfold iblk
  rw [View.read_apply]
  show V m c main_call0_v3 (((cfg0.win 3).blk t).view.emb (ix2 r f)) = _
  rw [V_v3]
  refine shapeCast_apply _ _ _ _ ?_
  change (S1x16384x512.rowMajor _).val = (S16384x512.rowMajor _).val
  rw [Shape.rowMajor_val_three, Shape.rowMajor_val_two]
  show (0 * 16384 + (min t.val 7 * 2048 + r.val)) * 512 + f.val
    = (win0_3.index t (0 : Fin 2) * 2048 + 1 * r.val) * 512 + (win0_3.index t (1 : Fin 2) * 512 + 1 * f.val)
  rw [e0, e1]
  omega

/-- The reshaped array of window 4 is argument 4, reshaped. -/
theorem V_v4 (c : Dev nD) : (V m c main_call0_v4 : S16384x1024.Idx → EReal)
    = shapeCast S16384x1024 (m ((c : Thread nD τ).loc main_arg4) : S1x16384x1024.Idx → EReal) shapeCasts_S1x16384x1024_S16384x1024 := by
  show StableHlo.after hostOps0 (fun b => m (c, b)) (Proc.devRef .tc main_call0_v4) = _
  after_results
  rfl

/-- Window 4's block at point t, entry (r, h): row (t - 1) * 2048 + r of argument 4 (block 0 at points 0 and 1). -/
theorem iblk4 (c : Dev nD) (t : Fin cfg0.N) (r : Fin 2048) (h : Fin 1024) :
    (iblk m c 4 t : S2048x1024.Idx → EReal) (ix2 r h)
      = (m ((c : Thread nD τ).loc main_arg4) : S1x16384x1024.Idx → EReal)
          (ix3 0 ⟨(t.val - 1) * 2048 + r.val, by
            have := r.isLt; have ht : t.val < 9 := lt_of_lt_of_eq t.isLt N_0; omega⟩ h) := by
  obtain ⟨-, -, -, -, -, -, -, -, e0, e1, -⟩ := index_rows t
  unfold iblk
  rw [View.read_apply]
  show V m c main_call0_v4 (((cfg0.win 4).blk t).view.emb (ix2 r h)) = _
  rw [V_v4]
  refine shapeCast_apply _ _ _ _ ?_
  change (S1x16384x1024.rowMajor _).val = (S16384x1024.rowMajor _).val
  rw [Shape.rowMajor_val_three, Shape.rowMajor_val_two]
  show (0 * 16384 + ((t.val - 1) * 2048 + r.val)) * 1024 + h.val
    = (win0_4.index t (0 : Fin 2) * 2048 + 1 * r.val) * 1024 + (win0_4.index t (1 : Fin 2) * 1024 + 1 * h.val)
  rw [e0, e1]
  omega

/-- The block index maps of the six whole-array windows: block (0, 0) at every grid point. -/
theorem index_whole : ∀ t : Fin cfg0.N,
    win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 ∧ True :=
  (by decide +kernel : ∀ t : Fin grid0.N, _)

/-- Window 5's block at every point is argument 5, entry for entry. -/
theorem iblk5 (c : Dev nD) (t : Fin cfg0.N) (f : Fin 512) (d : Fin 512) :
    (iblk m c 5 t : S512x512.Idx → EReal) (ix2 f d)
      = (m ((c : Thread nD τ).loc main_arg5) : S512x512.Idx → EReal) (ix2 f d) := by
  obtain ⟨e0, e1, -⟩ := index_whole t
  unfold iblk
  rw [View.read_apply]
  show V m c main_arg5 (((cfg0.win 5).blk t).view.emb (ix2 f d)) = _
  refine (congrFun (V_main_arg5 m c) _).trans ?_
  refine congrArg (m ((c : Thread nD τ).loc main_arg5) : S512x512.Idx → EReal) (funext fun x => Fin.ext ?_)
  match x with
  | ⟨0, _⟩ =>
    show win0_5.index t (0 : Fin 2) * 512 + 1 * f.val = f.val
    rw [e0]; omega
  | ⟨1, _⟩ =>
    show win0_5.index t (1 : Fin 2) * 512 + 1 * d.val = d.val
    rw [e1]; omega

/-- The reshaped array of window 6 is argument 6, reshaped. -/
theorem V_v5 (c : Dev nD) : (V m c main_call0_v5 : S1x512.Idx → EReal)
    = shapeCast S1x512 (m ((c : Thread nD τ).loc main_arg6) : S512.Idx → EReal) shapeCasts_S512_S1x512 := by
  show StableHlo.after hostOps0 (fun b => m (c, b)) (Proc.devRef .tc main_call0_v5) = _
  after_results
  rfl

/-- Window 6's one-row block at every point is argument 6, entry for entry. -/
theorem iblk6 (c : Dev nD) (t : Fin cfg0.N) (d : Fin 512) :
    (iblk m c 6 t : S1x512.Idx → EReal) (ix2 0 d)
      = (m ((c : Thread nD τ).loc main_arg6) : S512.Idx → EReal) (ix1 d) := by
  obtain ⟨-, -, e0, e1, -⟩ := index_whole t
  unfold iblk
  rw [View.read_apply]
  show V m c main_call0_v5 (((cfg0.win 6).blk t).view.emb (ix2 0 d)) = _
  rw [V_v5]
  refine shapeCast_apply _ _ _ _ ?_
  change (S512.rowMajor _).val = (S1x512.rowMajor _).val
  rw [Shape.rowMajor_val_one, Shape.rowMajor_val_two]
  show d.val = (win0_6.index t (0 : Fin 2) * 1 + 1 * (0 : Fin 1).val) * 512 + (win0_6.index t (1 : Fin 2) * 512 + 1 * d.val)
  rw [e0, e1]
  omega

/-- Window 7's block at every point is argument 7, entry for entry. -/
theorem iblk7 (c : Dev nD) (t : Fin cfg0.N) (f : Fin 512) (d : Fin 512) :
    (iblk m c 7 t : S512x512.Idx → EReal) (ix2 f d)
      = (m ((c : Thread nD τ).loc main_arg7) : S512x512.Idx → EReal) (ix2 f d) := by
  obtain ⟨-, -, -, -, e0, e1, -⟩ := index_whole t
  unfold iblk
  rw [View.read_apply]
  show V m c main_arg7 (((cfg0.win 7).blk t).view.emb (ix2 f d)) = _
  refine (congrFun (V_main_arg7 m c) _).trans ?_
  refine congrArg (m ((c : Thread nD τ).loc main_arg7) : S512x512.Idx → EReal) (funext fun x => Fin.ext ?_)
  match x with
  | ⟨0, _⟩ =>
    show win0_7.index t (0 : Fin 2) * 512 + 1 * f.val = f.val
    rw [e0]; omega
  | ⟨1, _⟩ =>
    show win0_7.index t (1 : Fin 2) * 512 + 1 * d.val = d.val
    rw [e1]; omega

/-- The reshaped array of window 8 is argument 8, reshaped. -/
theorem V_v6 (c : Dev nD) : (V m c main_call0_v6 : S1x512.Idx → EReal)
    = shapeCast S1x512 (m ((c : Thread nD τ).loc main_arg8) : S512.Idx → EReal) shapeCasts_S512_S1x512 := by
  show StableHlo.after hostOps0 (fun b => m (c, b)) (Proc.devRef .tc main_call0_v6) = _
  after_results
  rfl

/-- Window 8's one-row block at every point is argument 8, entry for entry. -/
theorem iblk8 (c : Dev nD) (t : Fin cfg0.N) (d : Fin 512) :
    (iblk m c 8 t : S1x512.Idx → EReal) (ix2 0 d)
      = (m ((c : Thread nD τ).loc main_arg8) : S512.Idx → EReal) (ix1 d) := by
  obtain ⟨-, -, -, -, -, -, e0, e1, -⟩ := index_whole t
  unfold iblk
  rw [View.read_apply]
  show V m c main_call0_v6 (((cfg0.win 8).blk t).view.emb (ix2 0 d)) = _
  rw [V_v6]
  refine shapeCast_apply _ _ _ _ ?_
  change (S512.rowMajor _).val = (S1x512.rowMajor _).val
  rw [Shape.rowMajor_val_one, Shape.rowMajor_val_two]
  show d.val = (win0_8.index t (0 : Fin 2) * 1 + 1 * (0 : Fin 1).val) * 512 + (win0_8.index t (1 : Fin 2) * 512 + 1 * d.val)
  rw [e0, e1]
  omega

/-- Window 9's block at every point is argument 9, entry for entry. -/
theorem iblk9 (c : Dev nD) (t : Fin cfg0.N) (d : Fin 512) (z : Fin 1) :
    (iblk m c 9 t : S512x1.Idx → EReal) (ix2 d z)
      = (m ((c : Thread nD τ).loc main_arg9) : S512x1.Idx → EReal) (ix2 d z) := by
  obtain ⟨-, -, -, -, -, -, -, -, e0, e1, -⟩ := index_whole t
  unfold iblk
  rw [View.read_apply]
  show V m c main_arg9 (((cfg0.win 9).blk t).view.emb (ix2 d z)) = _
  refine (congrFun (V_main_arg9 m c) _).trans ?_
  refine congrArg (m ((c : Thread nD τ).loc main_arg9) : S512x1.Idx → EReal) (funext fun x => Fin.ext ?_)
  match x with
  | ⟨0, _⟩ =>
    show win0_9.index t (0 : Fin 2) * 512 + 1 * d.val = d.val
    rw [e0]; omega
  | ⟨1, _⟩ =>
    show win0_9.index t (1 : Fin 2) * 1 + 1 * z.val = z.val
    rw [e1]; omega

/-- The reshaped array of window 10 is argument 10, reshaped. -/
theorem V_v7 (c : Dev nD) : (V m c main_call0_v7 : S1x1.Idx → EReal)
    = shapeCast S1x1 (m ((c : Thread nD τ).loc main_arg10) : S1.Idx → EReal) shapeCasts_S1_S1x1 := by
  show StableHlo.after hostOps0 (fun b => m (c, b)) (Proc.devRef .tc main_call0_v7) = _
  after_results
  rfl

/-- Window 10's one-row block at every point is argument 10, entry for entry. -/
theorem iblk10 (c : Dev nD) (t : Fin cfg0.N) :
    (iblk m c 10 t : S1x1.Idx → EReal) (ix2 0 0)
      = (m ((c : Thread nD τ).loc main_arg10) : S1.Idx → EReal) (ix1 0) := by
  obtain ⟨-, -, -, -, -, -, -, -, -, -, e0, e1, -⟩ := index_whole t
  unfold iblk
  rw [View.read_apply]
  show V m c main_call0_v7 (((cfg0.win 10).blk t).view.emb (ix2 0 0)) = _
  rw [V_v7]
  refine shapeCast_apply _ _ _ _ ?_
  change (S1.rowMajor _).val = (S1x1.rowMajor _).val
  rw [Shape.rowMajor_val_one, Shape.rowMajor_val_two]
  show (0 : Fin 1).val = (win0_10.index t (0 : Fin 2) * 1 + 1 * (0 : Fin 1).val) * 1 + (win0_10.index t (1 : Fin 2) * 1 + 1 * (0 : Fin 1).val)
  rw [e0, e1]
  omega

end Cert.KernelIdeal.KBlocks

end
-- ==== Proof.KPay.lean ====
/-
  The kernel body's stored values at the exact-real instance, each read at one index: the score of a row of a
  block (two products, the two bias rows added, rectified, against the scoring column), the columns kept of a
  block, one step of the accumulation over the incidence block's rows, and the final normalisation through the
  logistic function. Every statement is over variables of the literal vector types and explicit coordinates.
-/
import proofs.«129476_g5806795784444_cont_9to1c4b_204_10_alg».proof.Proof.Gen.KernelIdeal.Skeleton
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.KPay

open Idealize.ShloMosaic Idealize.ShloMosaic.ValueIdx Cert.KernelIdeal Cert.KernelIdeal.Gen
open scoped BigOperators

/-! ## The three products, each into a zero accumulator, read at an output index -/

/-- Rows times a square weight: the left operand's row is the output's, its column the contraction's. -/
theorem dotA_lhs0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem dotA_rhs1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- A [2048,512] by [512,512] product into zero, at (r, d): the sum over the shared axis. -/
theorem mmA_apply (l : FVec Ideal S2048x512 .f32) (w : FVec Ideal S512x512 .f32) (r : Fin 2048) (d : Fin 512) :
    matmul dot_S2048x512_S512x512_S2048x512_1_0_0_1_n_n none l w (constant (F := Ideal) S2048x512 .f32 0x00000000#32) (ix2 r d)
      = ∑ f : Fin 512, l (ix2 r f) * w (ix2 f d) := by
  simp only [matmul]
  rw [Ideal.matmul_constant_zero_apply,
    ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r d)
      ((contrEquiv1 dot_S2048x512_S512x512_S2048x512_1_0_0_1_n_n 512 rfl rfl).symm k) = ix2 r k :=
    funext fun a => Fin.ext (by
      match a with
      | ⟨0, _⟩ => exact dotA_lhs0 _ _
      | ⟨1, _⟩ => exact (dot_S2048x512_S512x512_S2048x512_1_0_0_1_n_n.lhsIdx_val_of_single rfl _ _).trans hk)
  have er : dot_S2048x512_S512x512_S2048x512_1_0_0_1_n_n.rhsIdx (ix2 r d)
      ((contrEquiv1 dot_S2048x512_S512x512_S2048x512_1_0_0_1_n_n 512 rfl rfl).symm k) = ix2 k d :=
    funext fun a => Fin.ext (by
      match a with
      | ⟨0, _⟩ => exact (dot_S2048x512_S512x512_S2048x512_1_0_0_1_n_n.rhsIdx_val_of_single rfl _ _).trans hk
      | ⟨1, _⟩ => exact dotA_rhs1 _ _)
  rw [el, er]

theorem dotB_lhs0 (i : S2048x1.Idx) (q : dot_S2048x512_S512x1_S2048x1_1_0_0_1_n_n.contr.Idx) :
    (dot_S2048x512_S512x1_S2048x1_1_0_0_1_n_n.lhsIdx i q 0).val = (i 0).val := by
  unfold DotDims.lhsIdx
  rw [dif_neg (show ¬(0 : Fin S2048x512.rank) ∈ dot_S2048x512_S512x1_S2048x1_1_0_0_1_n_n.lhsBatch by decide),
    dif_pos (show (0 : Fin S2048x512.rank) ∈ dot_S2048x512_S512x1_S2048x1_1_0_0_1_n_n.lhsNonContracting by decide)]
  rfl
theorem dotB_rhs1 (i : S2048x1.Idx) (q : dot_S2048x512_S512x1_S2048x1_1_0_0_1_n_n.contr.Idx) :
    (dot_S2048x512_S512x1_S2048x1_1_0_0_1_n_n.rhsIdx i q 1).val = (i 1).val := by
  unfold DotDims.rhsIdx
  rw [dif_neg (show ¬(1 : Fin S512x1.rank) ∈ dot_S2048x512_S512x1_S2048x1_1_0_0_1_n_n.rhsBatch by decide),
    dif_pos (show (1 : Fin S512x1.rank) ∈ dot_S2048x512_S512x1_S2048x1_1_0_0_1_n_n.rhsNonContracting by decide)]
  rfl

/-- A [2048,512] by [512,1] product into zero, at (r, c): the row against the one column. -/
theorem mmB_apply (l : FVec Ideal S2048x512 .f32) (w : FVec Ideal S512x1 .f32) (r : Fin 2048) (c : Fin 1) :
    matmul dot_S2048x512_S512x1_S2048x1_1_0_0_1_n_n none l w (constant (F := Ideal) S2048x1 .f32 0x00000000#32) (ix2 r c)
      = ∑ d : Fin 512, l (ix2 r d) * w (ix2 d c) := by
  simp only [matmul]
  rw [Ideal.matmul_constant_zero_apply,
    ← Equiv.sum_comp (contrEquiv1 dot_S2048x512_S512x1_S2048x1_1_0_0_1_n_n 512 rfl rfl).symm]
  refine Finset.sum_congr rfl fun k _ => ?_
  have hk := contrEquiv1_symm_val dot_S2048x512_S512x1_S2048x1_1_0_0_1_n_n 512 rfl rfl k
  have el : dot_S2048x512_S512x1_S2048x1_1_0_0_1_n_n.lhsIdx (ix2 r c)
      ((contrEquiv1 dot_S2048x512_S512x1_S2048x1_1_0_0_1_n_n 512 rfl rfl).symm k) = ix2 r k :=
    funext fun a => Fin.ext (by
      match a with
      | ⟨0, _⟩ => exact dotB_lhs0 _ _
      | ⟨1, _⟩ => exact (dot_S2048x512_S512x1_S2048x1_1_0_0_1_n_n.lhsIdx_val_of_single rfl _ _).trans hk)
  have er : dot_S2048x512_S512x1_S2048x1_1_0_0_1_n_n.rhsIdx (ix2 r c)
      ((contrEquiv1 dot_S2048x512_S512x1_S2048x1_1_0_0_1_n_n 512 rfl rfl).symm k) = ix2 k c :=
    funext fun a => Fin.ext (by
      match a with
      | ⟨0, _⟩ => exact (dot_S2048x512_S512x1_S2048x1_1_0_0_1_n_n.rhsIdx_val_of_single rfl _ _).trans hk
      | ⟨1, _⟩ => exact dotB_rhs1 _ _)
  rw [el, er]

theorem dotC_lhs1 (i : S1024x4.Idx) (q : dot_S2048x1024_S2048x4_S1024x4_0_0_1_1_n_n.contr.Idx) :
    (dot_S2048x1024_S2048x4_S1024x4_0_0_1_1_n_n.lhsIdx i q 1).val = (i 0).val := by
  unfold DotDims.lhsIdx
  rw [dif_neg (show ¬(1 : Fin S2048x1024.rank) ∈ dot_S2048x1024_S2048x4_S1024x4_0_0_1_1_n_n.lhsBatch by decide),
    dif_pos (show (1 : Fin S2048x1024.rank) ∈ dot_S2048x1024_S2048x4_S1024x4_0_0_1_1_n_n.lhsNonContracting by decide)]
  rfl
theorem dotC_rhs1 (i : S1024x4.Idx) (q : dot_S2048x1024_S2048x4_S1024x4_0_0_1_1_n_n.contr.Idx) :
    (dot_S2048x1024_S2048x4_S1024x4_0_0_1_1_n_n.rhsIdx i q 1).val = (i 1).val := by
  unfold DotDims.rhsIdx
  rw [dif_neg (show ¬(1 : Fin S2048x4.rank) ∈ dot_S2048x1024_S2048x4_S1024x4_0_0_1_1_n_n.rhsBatch by decide),
    dif_pos (show (1 : Fin S2048x4.rank) ∈ dot_S2048x1024_S2048x4_S1024x4_0_0_1_1_n_n.rhsNonContracting by decide)]
  rfl

/-- A product contracting the FIRST axis of both operands, [2048,1024] and [2048,4], into zero, at (h, j):
    the sum over the shared rows of column h of the one against column j of the other. -/
theorem mmC_apply (l : FVec Ideal S2048x1024 .f32) (w : FVec Ideal S2048x4 .f32) (h : Fin 1024) (j : Fin 4) :
    matmul dot_S2048x1024_S2048x4_S1024x4_0_0_1_1_n_n none l w (constant (F := Ideal) S1024x4 .f32 0x00000000#32) (ix2 h j)
      = ∑ r : Fin 2048, l (ix2 r h) * w (ix2 r j) := by
  simp only [matmul]
  rw [Ideal.matmul_constant_zero_apply,
    ← Equiv.sum_comp (contrEquiv1 dot_S2048x1024_S2048x4_S1024x4_0_0_1_1_n_n 2048 rfl rfl).symm]
  refine Finset.sum_congr rfl fun k _ => ?_
  have hk := contrEquiv1_symm_val dot_S2048x1024_S2048x4_S1024x4_0_0_1_1_n_n 2048 rfl rfl k
  have el : dot_S2048x1024_S2048x4_S1024x4_0_0_1_1_n_n.lhsIdx (ix2 h j)
      ((contrEquiv1 dot_S2048x1024_S2048x4_S1024x4_0_0_1_1_n_n 2048 rfl rfl).symm k) = ix2 k h :=
    funext fun a => Fin.ext (by
      match a with
      | ⟨0, _⟩ => exact (dot_S2048x1024_S2048x4_S1024x4_0_0_1_1_n_n.lhsIdx_val_of_single rfl _ _).trans hk
      | ⟨1, _⟩ => exact dotC_lhs1 _ _)
  have er : dot_S2048x1024_S2048x4_S1024x4_0_0_1_1_n_n.rhsIdx (ix2 h j)
      ((contrEquiv1 dot_S2048x1024_S2048x4_S1024x4_0_0_1_1_n_n 2048 rfl rfl).symm k) = ix2 k j :=
    funext fun a => Fin.ext (by
      match a with
      | ⟨0, _⟩ => exact (dot_S2048x1024_S2048x4_S1024x4_0_0_1_1_n_n.rhsIdx_val_of_single rfl _ _).trans hk
      | ⟨1, _⟩ => exact dotC_rhs1 _ _)
  rw [el, er]

/-! ## The constant payloads -/

/-- The accumulator's initial value: zero everywhere. -/
theorem pay1_apply (i : S1024x4.Idx) : k0_pay1 (F := Ideal) i = 0 := by
  show Ideal.ofBits .f32 0x00000000#32 = 0
  exact Ideal.ofBits_zero_f32

/-- The column of ones. -/
theorem pay8_apply (r : Fin 2048) : k0_pay8 (F := Ideal) (ix2 r 0) = 1 := by
  show Ideal.ofBits .f32 0x3F800000#32 = 1
  exact Ideal.ofBits_one_f32

/-- The second branch's score is the first branch's term at its own two inputs. -/
theorem pay7_eq {F : FTy → Type} [FloatOps F] (v12 v14 : Vec F S1x512 .f32) (v17 v18 : Vec F S512x512 .f32)
    (v19 : Vec F S512x1 .f32) (x y : Vec F S2048x512 .f32) :
    k0_pay7 v12 v14 v17 v18 v19 x y = k0_pay6 v12 v14 v17 v18 v19 x y := rfl

/-! ## A row's score -/

/-- The zero word as a scalar of the exact-real instance. -/
theorem scalar_zero : (Scalar.ofBits .f32 0x00000000#32 : Ideal .f32) = 0 := Ideal.ofBits_zero_f32

/-- The score of row r of a block: the two products added, then the sum of the two bias rows, rectified,
    against the scoring column. -/
theorem pay6_apply (v12 v14 : Vec Ideal S1x512 .f32) (v17 v18 : Vec Ideal S512x512 .f32) (v19 : Vec Ideal S512x1 .f32)
    (v20 v23 : Vec Ideal S2048x512 .f32) (r : Fin 2048) :
    k0_pay6 (F := Ideal) v12 v14 v17 v18 v19 v20 v23 (ix2 r 0)
      = ∑ d : Fin 512, max (((∑ f : Fin 512, v20 (ix2 r f) * v17 (ix2 f d)) + (∑ f : Fin 512, v23 (ix2 r f) * v18 (ix2 f d)))
          + (v12 (ix2 0 d) + v14 (ix2 0 d))) 0 * v19 (ix2 d 0) := by
  unfold k0_pay6 k0_pay5
  dsimp only
  refine (mmB_apply _ v19 r 0).trans ?_
  refine Finset.sum_congr rfl fun d _ => ?_
  refine congrArg (· * v19 (ix2 d 0)) ?_
  rw [maximumf_apply, addf_apply, addf_apply, shapeCast_self, shapeCast_self, mmA_apply, mmA_apply, broadcast_apply,
    broadcastTo_1b_ab_apply, addf_apply, shapeCast_self, shapeCast_self, scalar_zero]

/-! ## The accumulation step -/

/-- One step of the accumulation: the old entry plus the block's column h against the stored column j. -/
theorem pay3_apply (v12 : Vec Ideal S2048x1024 .f32) (v26 : Vec Ideal S1x2048x4 .f32) (v29 : Vec Ideal S1024x4 .f32)
    (h : Fin 1024) (j : Fin 4) :
    k0_pay3 (F := Ideal) v12 v26 v29 (ix2 h j) = v29 (ix2 h j) + ∑ r : Fin 2048, v12 (ix2 r h) * v26 (ix3 0 r j) := by
  unfold k0_pay3
  rw [addf_apply, shapeCast_self, shapeCast_self, mmC_apply]
  refine congrArg (v29 (ix2 h j) + ·) (Finset.sum_congr rfl fun r _ => ?_)
  rw [shapeCast_1ab_ab_apply]

/-! ## Four one-column pieces laid side by side, read at (r, j) -/

/-- Four [n,1] columns concatenated along axis 1: entry (r, j) is column j at row r. -/
theorem concat4_cols_apply {α : Type} {n : Nat} (a b c d : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1)
    (r : Fin n) (j : Fin 4) :
    concatenate ⟨2, ![n, 4]⟩ 1 [⟨⟨2, ![n, 1]⟩, a⟩, ⟨⟨2, ![n, 1]⟩, b⟩, ⟨⟨2, ![n, 1]⟩, c⟩, ⟨⟨2, ![n, 1]⟩, d⟩] h (ix2 r j)
      = if j.val = 0 then a (ix2 r 0) else if j.val = 1 then b (ix2 r 0) else if j.val = 2 then c (ix2 r 0) else d (ix2 r 0) := by
  have hi : ∀ (j : Fin 4) (q : Fin (⟨2, ![n, 1]⟩ : Shape).rank), q.cast rfl ≠ (1 : Fin 2) →
      ((ix2 r (0 : Fin 1) : (⟨2, ![n, 1]⟩ : Shape).Idx) q).val = ((ix2 r j : (⟨2, ![n, 4]⟩ : Shape).Idx) (q.cast rfl)).val := by
    intro j q hq
    match q with
    | ⟨0, _⟩ => rfl
    | ⟨1, _⟩ => exact absurd rfl hq
  match j with
  | ⟨0, _⟩ =>
    exact concatenate_apply_piece (t := ⟨2, ![n, 4]⟩) (1 : Fin 2) [⟨⟨2, ![n, 1]⟩, a⟩, ⟨⟨2, ![n, 1]⟩, b⟩, ⟨⟨2, ![n, 1]⟩, c⟩, ⟨⟨2, ![n, 1]⟩, d⟩] h _ 0 (by show 0 < 4; omega) ⟨2, ![n, 1]⟩ a rfl rfl 0 rfl (ix2 r 0) (hi _) rfl
  | ⟨1, _⟩ =>
    exact concatenate_apply_piece (t := ⟨2, ![n, 4]⟩) (1 : Fin 2) [⟨⟨2, ![n, 1]⟩, a⟩, ⟨⟨2, ![n, 1]⟩, b⟩, ⟨⟨2, ![n, 1]⟩, c⟩, ⟨⟨2, ![n, 1]⟩, d⟩] h _ 1 (by show 1 < 4; omega) ⟨2, ![n, 1]⟩ b rfl rfl 1 rfl (ix2 r 0) (hi _) rfl
  | ⟨2, _⟩ =>
    exact concatenate_apply_piece (t := ⟨2, ![n, 4]⟩) (1 : Fin 2) [⟨⟨2, ![n, 1]⟩, a⟩, ⟨⟨2, ![n, 1]⟩, b⟩, ⟨⟨2, ![n, 1]⟩, c⟩, ⟨⟨2, ![n, 1]⟩, d⟩] h _ 2 (by show 2 < 4; omega) ⟨2, ![n, 1]⟩ c rfl rfl 2 rfl (ix2 r 0) (hi _) rfl
  | ⟨3, _⟩ =>
    exact concatenate_apply_piece (t := ⟨2, ![n, 4]⟩) (1 : Fin 2) [⟨⟨2, ![n, 1]⟩, a⟩, ⟨⟨2, ![n, 1]⟩, b⟩, ⟨⟨2, ![n, 1]⟩, c⟩, ⟨⟨2, ![n, 1]⟩, d⟩] h _ 3 (by show 3 < 4; omega) ⟨2, ![n, 1]⟩ d rfl rfl 3 rfl (ix2 r 0) (hi _) rfl

/-- Column by column. -/
theorem concat4_col0 {α : Type} {n : Nat} (a b c d : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1)
    (r : Fin n) : concatenate ⟨2, ![n, 4]⟩ 1 [⟨⟨2, ![n, 1]⟩, a⟩, ⟨⟨2, ![n, 1]⟩, b⟩, ⟨⟨2, ![n, 1]⟩, c⟩, ⟨⟨2, ![n, 1]⟩, d⟩] h (ix2 r 0) = a (ix2 r 0) :=
  (concat4_cols_apply a b c d h r 0).trans (if_pos rfl)
theorem concat4_col1 {α : Type} {n : Nat} (a b c d : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1)
    (r : Fin n) : concatenate ⟨2, ![n, 4]⟩ 1 [⟨⟨2, ![n, 1]⟩, a⟩, ⟨⟨2, ![n, 1]⟩, b⟩, ⟨⟨2, ![n, 1]⟩, c⟩, ⟨⟨2, ![n, 1]⟩, d⟩] h (ix2 r 1) = b (ix2 r 0) :=
  (concat4_cols_apply a b c d h r 1).trans ((if_neg (by decide)).trans (if_pos rfl))
theorem concat4_col2 {α : Type} {n : Nat} (a b c d : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1)
    (r : Fin n) : concatenate ⟨2, ![n, 4]⟩ 1 [⟨⟨2, ![n, 1]⟩, a⟩, ⟨⟨2, ![n, 1]⟩, b⟩, ⟨⟨2, ![n, 1]⟩, c⟩, ⟨⟨2, ![n, 1]⟩, d⟩] h (ix2 r 2) = c (ix2 r 0) :=
  (concat4_cols_apply a b c d h r 2).trans ((if_neg (by decide)).trans ((if_neg (by decide)).trans (if_pos rfl)))
theorem concat4_col3 {α : Type} {n : Nat} (a b c d : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1)
    (r : Fin n) : concatenate ⟨2, ![n, 4]⟩ 1 [⟨⟨2, ![n, 1]⟩, a⟩, ⟨⟨2, ![n, 1]⟩, b⟩, ⟨⟨2, ![n, 1]⟩, c⟩, ⟨⟨2, ![n, 1]⟩, d⟩] h (ix2 r 3) = d (ix2 r 0) :=
  (concat4_cols_apply a b c d h r 3).trans ((if_neg (by decide)).trans ((if_neg (by decide)).trans (if_neg (by decide))))

/-! ## The stored columns -/

/-- What is kept of a block for the next step: the two score columns and the ones (twice). -/
theorem pay2_apply (v31 v43 v44 : FVec Ideal S2048x1 .f32) (r : Fin 2048) (j : Fin 4) :
    k0_pay2 (F := Ideal) v31 v43 v44 (ix3 0 r j)
      = (if j.val = 0 then v31 (ix2 r 0) else if j.val = 1 then v43 (ix2 r 0) else v44 (ix2 r 0)) := by
  unfold k0_pay2
  rw [shapeCast_ab_1ab_apply, concat4_cols_apply]
  by_cases h0 : j.val = 0
  · rw [if_pos h0, if_pos h0]
  · rw [if_neg h0, if_neg h0]
    by_cases h1 : j.val = 1
    · rw [if_pos h1, if_pos h1]
    · rw [if_neg h1, if_neg h1, ite_self]

/-! ## The final normalisation -/

/-- The one entry of a [1,1] vector taken out. -/
theorem extractAt_1x1 {α : Type} (x : S1x1.Idx → α) (hp : ∀ a, (![0, 0] : Fin 2 → Nat) a < S1x1.size a) :
    extractAt ![0, 0] x hp = x (ix2 0 0) := by
  unfold extractAt
  refine congrArg x (funext fun a => Fin.ext ?_)
  match a with
  | ⟨0, _⟩ => rfl
  | ⟨1, _⟩ => rfl

/-- Column c of a [1024,4] array as a [1024,1] slice. -/
theorem col_apply {α : Type} (o : Nat) (X : S1024x4.Idx → α) (hs : S1024x4.Slices ![0, o] S1024x1) (h : Fin 1024) (c : Fin 4)
    (hc : c.val = o) : extractStridedSlice S1024x1 ![0, o] X hs (ix2 h 0) = X (ix2 h c) :=
  slice2_axis1_apply o X hs h 0 c (by rw [hc]; rfl)

/-- Columns 0 and 1 of the result: the accumulated sum over the accumulated count, plus the bias, through the
    logistic function; columns 2 and 3 carry the count. -/
theorem pay4_apply0 (v12 : Vec Ideal S1024x4 .f32) (v15 : Vec Ideal S1x1 .f32) (h : Fin 1024) :
    k0_pay4 (F := Ideal) v12 v15 (ix2 h 0)
      = Ideal.logistic (Ideal.div (v12 (ix2 h 0)) (v12 (ix2 h 2)) + v15 (ix2 0 0)) := by
  unfold k0_pay4
  rw [concat4_col0, shapeCast_self]
  show Ideal.logistic (Ideal.div _ _ + _) = _
  rw [col_apply 0 v12 _ h 0 rfl, col_apply 2 v12 _ h 2 rfl, extractAt_1x1, broadcast_apply]

theorem pay4_apply1 (v12 : Vec Ideal S1024x4 .f32) (v15 : Vec Ideal S1x1 .f32) (h : Fin 1024) :
    k0_pay4 (F := Ideal) v12 v15 (ix2 h 1)
      = Ideal.logistic (Ideal.div (v12 (ix2 h 1)) (v12 (ix2 h 2)) + v15 (ix2 0 0)) := by
  unfold k0_pay4
  rw [concat4_col1, shapeCast_self]
  show Ideal.logistic (Ideal.div _ _ + _) = _
  rw [col_apply 1 v12 _ h 1 rfl, col_apply 2 v12 _ h 2 rfl, extractAt_1x1, broadcast_apply]

theorem pay4_apply2 (v12 : Vec Ideal S1024x4 .f32) (v15 : Vec Ideal S1x1 .f32) (h : Fin 1024) :
    k0_pay4 (F := Ideal) v12 v15 (ix2 h 2) = v12 (ix2 h 2) := by
  unfold k0_pay4
  rw [concat4_col2, shapeCast_self, col_apply 2 v12 _ h 2 rfl]

theorem pay4_apply3 (v12 : Vec Ideal S1024x4 .f32) (v15 : Vec Ideal S1x1 .f32) (h : Fin 1024) :
    k0_pay4 (F := Ideal) v12 v15 (ix2 h 3) = v12 (ix2 h 2) := by
  unfold k0_pay4
  rw [concat4_col3, shapeCast_self, col_apply 2 v12 _ h 2 rfl]

end Cert.KernelIdeal.KPay

end
-- ==== Proof.Spec.lean ====
/-
  The mathematics of the claim, free of any program: a two-branch scoring layer over 16384 rows,
  aggregated by the columns of a 16384 x 1024 incidence array and normalised by its column sums.
  Arrays are plain functions of their coordinates into the extended reals.
-/
import Idealize.ShloMosaic.PureOps.Ideal

noncomputable section

namespace Cert.Spec

open Idealize.ShloMosaic

/-- A row's pre-activation as the kernel adds it: the two products first, then the sum of the two biases. -/
def preK (x y : Fin 16384 → Fin 512 → EReal) (ws wh : Fin 512 → Fin 512 → EReal) (bs bh : Fin 512 → EReal)
    (n : Fin 16384) (d : Fin 512) : EReal :=
  ((∑ f : Fin 512, x n f * ws f d) + (∑ f : Fin 512, y n f * wh f d)) + (bs d + bh d)

/-- The same pre-activation as the reference adds it: each product with its own bias, then the two together. -/
def preR (x y : Fin 16384 → Fin 512 → EReal) (ws wh : Fin 512 → Fin 512 → EReal) (bs bh : Fin 512 → EReal)
    (n : Fin 16384) (d : Fin 512) : EReal :=
  ((∑ f : Fin 512, x n f * ws f d) + bs d) + ((∑ f : Fin 512, y n f * wh f d) + bh d)

/-- The kernel's score of row n: the rectified pre-activation against the scoring column. -/
def rowScore (x y : Fin 16384 → Fin 512 → EReal) (ws wh : Fin 512 → Fin 512 → EReal) (bs bh : Fin 512 → EReal)
    (wsc : Fin 512 → EReal) (n : Fin 16384) : EReal :=
  ∑ d : Fin 512, max (preK x y ws wh bs bh n d) 0 * wsc d

/-- The kernel's result for column h: the mask-weighted sum of the row scores over the mask's column sum,
    plus the scoring bias, through the logistic function. -/
def outK (x y : Fin 16384 → Fin 512 → EReal) (bm : Fin 16384 → Fin 1024 → EReal)
    (ws wh : Fin 512 → Fin 512 → EReal) (bs bh : Fin 512 → EReal) (wsc : Fin 512 → EReal) (bsc : EReal)
    (h : Fin 1024) : EReal :=
  Ideal.logistic (Ideal.div (∑ n : Fin 16384, bm n h * rowScore x y ws wh bs bh wsc n)
      (∑ n : Fin 16384, bm n h * 1) + bsc)

/-- The reference's result for column h: the column-normalised mask against the rectified rows, that
    against the scoring column, plus the bias, through 1 / (1 + exp (-z)). -/
def outR (x y : Fin 16384 → Fin 512 → EReal) (bm : Fin 16384 → Fin 1024 → EReal)
    (ws wh : Fin 512 → Fin 512 → EReal) (bs bh : Fin 512 → EReal) (wsc : Fin 512 → EReal) (bsc : EReal)
    (h : Fin 1024) : EReal :=
  Ideal.div 1 (1 + Ideal.exp (-((∑ d : Fin 512,
      (∑ n : Fin 16384, Ideal.div (bm n h) (∑ k : Fin 16384, bm k h) * max (preR x y ws wh bs bh n d) 0) * wsc d)
      + bsc)))

end Cert.Spec

end
-- ==== Proof.BlockAcc.lean ====
/-
  A sum accumulated over eight consecutive blocks of 2048 terms is the one sum over all 16384 terms.
-/
import Mathlib.Algebra.BigOperators.Fin

namespace Cert.Spec

/-- If an accumulator starts at zero and each of eight steps adds the sum of the next block of 2048
    consecutive terms, the accumulator ends as the sum of all 16384 terms. -/
theorem acc_eight {M : Type*} [AddCommMonoid M] (g : Fin 16384 → M) (acc : ℕ → M) (h0 : acc 0 = 0)
    (hs : ∀ n (hn : n < 8), acc (n + 1) = acc n + ∑ r : Fin 2048, g ⟨n * 2048 + r.val, by omega⟩) :
    acc 8 = ∑ N : Fin 16384, g N := by
  classical
  -- the terms as a sequence over all natural numbers, zero beyond the last one
  let g' : ℕ → M := fun i => if h : i < 16384 then g ⟨i, h⟩ else 0
  have hg' : ∀ (i : ℕ) (h : i < 16384), g' i = g ⟨i, h⟩ := fun i h => dif_pos h
  -- after k steps the accumulator is the sum of the first k * 2048 terms
  have step : ∀ k, k ≤ 8 → acc k = ∑ i ∈ Finset.range (k * 2048), g' i := by
    intro k
    induction k with
    | zero => intro _; simp [h0]
    | succ k ih =>
      intro hk
      have hk' : k < 8 := hk
      rw [hs k hk', ih (by omega), Nat.succ_mul, Finset.sum_range_add,
        ← Fin.sum_univ_eq_sum_range (fun r => g' (k * 2048 + r)) 2048]
      congr 1
      refine Finset.sum_congr rfl fun r _ => ?_
      exact (hg' _ _).symm
  rw [step 8 le_rfl, show 8 * 2048 = 16384 from rfl, ← Fin.sum_univ_eq_sum_range g' 16384]
  exact Finset.sum_congr rfl fun N _ => hg' N.val N.isLt

end Cert.Spec
-- ==== Proof.KValue.lean ====
/-
  The kernel's result as one function of its argument arrays. Over nine steps the body keeps, of each block of
  2048 rows, the two score columns and a column of ones, and one step later adds the incidence block's columns
  against them into a [1024,4] accumulator that starts at zero; the last step divides the two accumulated score
  sums by the accumulated count, adds the bias and applies the logistic function. Read index by index this is
  the specification's column result for each of the two branches.
-/
import proofs.«129476_g5806795784444_cont_9to1c4b_204_10_alg».proof.Proof.KPay
import proofs.«129476_g5806795784444_cont_9to1c4b_204_10_alg».proof.Proof.Spec
import proofs.«129476_g5806795784444_cont_9to1c4b_204_10_alg».proof.Proof.BlockAcc

noncomputable section

namespace Cert.KernelIdeal.KValue

open Idealize.ShloMosaic Idealize.ShloMosaic.ValueIdx Cert.KernelIdeal Cert.KernelIdeal.Gen Cert.KernelIdeal.KPay
open scoped BigOperators

/-- What a step keeps of its block of rows: the two branches' score columns and the ones. -/
def SV (X0 X1 X2 X3 : Fin 9 → Vec Ideal S2048x512 .f32) (X5 X7 : Fin 9 → Vec Ideal S512x512 .f32)
    (X6 X8 : Fin 9 → Vec Ideal S1x512 .f32) (X9 : Fin 9 → Vec Ideal S512x1 .f32) (t : Fin 9) :
    FVec Ideal S1x2048x4 .f32 :=
  k0_pay2 (F := Ideal) (k0_pay6 (X6 t) (X8 t) (X5 t) (X7 t) (X9 t) (X0 t) (X1 t))
    (k0_pay7 (X6 t) (X8 t) (X5 t) (X7 t) (X9 t) (X2 t) (X3 t)) (k0_pay8 (F := Ideal))

/-- A block row's score is the specification's score of the row of the whole array it is. -/
theorem score_row (x y : Fin 16384 → Fin 512 → EReal) (ws wh : Fin 512 → Fin 512 → EReal) (bs bh wsc : Fin 512 → EReal)
    (v12 v14 : Vec Ideal S1x512 .f32) (v17 v18 : Vec Ideal S512x512 .f32) (v19 : Vec Ideal S512x1 .f32)
    (v20 v23 : Vec Ideal S2048x512 .f32) (N : Fin 2048 → Fin 16384)
    (h20 : ∀ r f, v20 (ix2 r f) = x (N r) f) (h23 : ∀ r f, v23 (ix2 r f) = y (N r) f)
    (h17 : ∀ f d, v17 (ix2 f d) = ws f d) (h18 : ∀ f d, v18 (ix2 f d) = wh f d)
    (h12 : ∀ d, v12 (ix2 0 d) = bs d) (h14 : ∀ d, v14 (ix2 0 d) = bh d) (h19 : ∀ d, v19 (ix2 d 0) = wsc d)
    (r : Fin 2048) :
    k0_pay6 (F := Ideal) v12 v14 v17 v18 v19 v20 v23 (ix2 r 0) = Cert.Spec.rowScore x y ws wh bs bh wsc (N r) := by
  rw [pay6_apply]
  unfold Cert.Spec.rowScore Cert.Spec.preK
  simp only [h20, h23, h17, h18, h12, h14, h19]

/-- Eight accumulation steps from zero: entry (h, j) ends as the one sum over all 16384 rows, whatever the
    terms are, once each step's products are named as the terms of its block of rows. -/
theorem acc_sum (X4 : Fin 9 → Vec Ideal S2048x1024 .f32) (S : Fin 9 → FVec Ideal S1x2048x4 .f32)
    (B : Fin 9 → Vec Ideal S1024x4 .f32) (hB0 : B 0 = k0_pay1 (F := Ideal))
    (hB : ∀ (n : ℕ) (hn : n < 8), B ⟨n + 1, by omega⟩ = k0_pay3 (X4 ⟨n + 1, by omega⟩) (S ⟨n, by omega⟩) (B ⟨n, by omega⟩))
    (h : Fin 1024) (j : Fin 4) (g : Fin 16384 → EReal)
    (hg : ∀ (n : ℕ) (hn : n < 8) (r : Fin 2048),
      X4 ⟨n + 1, by omega⟩ (ix2 r h) * S ⟨n, by omega⟩ (ix3 0 r j) = g ⟨n * 2048 + r.val, by omega⟩) :
    B 8 (ix2 h j) = ∑ N : Fin 16384, g N := by
  have key := Cert.Spec.acc_eight g (fun n => if hn : n < 9 then B ⟨n, hn⟩ (ix2 h j) else 0)
    (by
      show (if hn : 0 < 9 then B ⟨0, hn⟩ (ix2 h j) else 0) = 0
      rw [dif_pos (by omega)]
      show B 0 (ix2 h j) = 0
      rw [hB0]; exact pay1_apply _)
    (fun n hn => by
      show (if hn : n + 1 < 9 then B ⟨n + 1, hn⟩ (ix2 h j) else 0)
        = (if hn : n < 9 then B ⟨n, hn⟩ (ix2 h j) else 0) + ∑ r : Fin 2048, g ⟨n * 2048 + r.val, by omega⟩
      rw [dif_pos (by omega), dif_pos (by omega), hB n hn, pay3_apply]
      exact congrArg (B ⟨n, by omega⟩ (ix2 h j) + ·) (Finset.sum_congr rfl fun r _ => hg n hn r))
  have e8 : (fun n => if hn : n < 9 then B ⟨n, hn⟩ (ix2 h j) else 0) 8 = B 8 (ix2 h j) := dif_pos (by omega)
  rw [← e8]; exact key

/-- The kept block, column by column. -/
theorem SV_col0 (X0 X1 X2 X3 : Fin 9 → Vec Ideal S2048x512 .f32) (X5 X7 : Fin 9 → Vec Ideal S512x512 .f32)
    (X6 X8 : Fin 9 → Vec Ideal S1x512 .f32) (X9 : Fin 9 → Vec Ideal S512x1 .f32) (t : Fin 9) (r : Fin 2048) :
    SV X0 X1 X2 X3 X5 X7 X6 X8 X9 t (ix3 0 r 0) = k0_pay6 (F := Ideal) (X6 t) (X8 t) (X5 t) (X7 t) (X9 t) (X0 t) (X1 t) (ix2 r 0) := by
  unfold SV
  rw [pay2_apply]
  exact if_pos rfl
theorem SV_col1 (X0 X1 X2 X3 : Fin 9 → Vec Ideal S2048x512 .f32) (X5 X7 : Fin 9 → Vec Ideal S512x512 .f32)
    (X6 X8 : Fin 9 → Vec Ideal S1x512 .f32) (X9 : Fin 9 → Vec Ideal S512x1 .f32) (t : Fin 9) (r : Fin 2048) :
    SV X0 X1 X2 X3 X5 X7 X6 X8 X9 t (ix3 0 r 1) = k0_pay6 (F := Ideal) (X6 t) (X8 t) (X5 t) (X7 t) (X9 t) (X2 t) (X3 t) (ix2 r 0) := by
  unfold SV
  rw [pay2_apply, pay7_eq]
  exact (if_neg (by decide)).trans (if_pos rfl)
theorem SV_col2 (X0 X1 X2 X3 : Fin 9 → Vec Ideal S2048x512 .f32) (X5 X7 : Fin 9 → Vec Ideal S512x512 .f32)
    (X6 X8 : Fin 9 → Vec Ideal S1x512 .f32) (X9 : Fin 9 → Vec Ideal S512x1 .f32) (t : Fin 9) (r : Fin 2048) :
    SV X0 X1 X2 X3 X5 X7 X6 X8 X9 t (ix3 0 r 2) = 1 := by
  unfold SV
  rw [pay2_apply]
  exact ((if_neg (by decide)).trans (if_neg (by decide))).trans (pay8_apply r)

/-- One branch's score of row r of block n is the specification's score of row n * 2048 + r of the whole arrays,
    when the step's blocks are those rows of the arrays and its weights are the whole weights. -/
theorem branch_score (aA aB : FVec Ideal S1x16384x512 .f32) (a5 a7 : FVec Ideal S512x512 .f32) (a6 a8 : FVec Ideal S512 .f32)
    (a9 : FVec Ideal S512x1 .f32)
    (XA XB : Fin 9 → Vec Ideal S2048x512 .f32) (X5 X7 : Fin 9 → Vec Ideal S512x512 .f32)
    (X6 X8 : Fin 9 → Vec Ideal S1x512 .f32) (X9 : Fin 9 → Vec Ideal S512x1 .f32)
    (hXA : ∀ (t : Fin 9) (r : Fin 2048) (f : Fin 512), XA t (ix2 r f) = aA (ix3 0 ⟨min t.val 7 * 2048 + r.val, by omega⟩ f))
    (hXB : ∀ (t : Fin 9) (r : Fin 2048) (f : Fin 512), XB t (ix2 r f) = aB (ix3 0 ⟨min t.val 7 * 2048 + r.val, by omega⟩ f))
    (hX5 : ∀ (t : Fin 9) (f d : Fin 512), X5 t (ix2 f d) = a5 (ix2 f d))
    (hX7 : ∀ (t : Fin 9) (f d : Fin 512), X7 t (ix2 f d) = a7 (ix2 f d))
    (hX6 : ∀ (t : Fin 9) (d : Fin 512), X6 t (ix2 0 d) = a6 (ix1 d))
    (hX8 : ∀ (t : Fin 9) (d : Fin 512), X8 t (ix2 0 d) = a8 (ix1 d))
    (hX9 : ∀ (t : Fin 9) (d : Fin 512), X9 t (ix2 d 0) = a9 (ix2 d 0))
    (n : ℕ) (hn : n < 8) (r : Fin 2048) :
    k0_pay6 (F := Ideal) (X6 ⟨n, by omega⟩) (X8 ⟨n, by omega⟩) (X5 ⟨n, by omega⟩) (X7 ⟨n, by omega⟩) (X9 ⟨n, by omega⟩)
        (XA ⟨n, by omega⟩) (XB ⟨n, by omega⟩) (ix2 r 0)
      = Cert.Spec.rowScore (fun n f => aA (ix3 0 n f)) (fun n f => aB (ix3 0 n f))
        (fun f d => a5 (ix2 f d)) (fun f d => a7 (ix2 f d)) (fun d => a6 (ix1 d)) (fun d => a8 (ix1 d)) (fun d => a9 (ix2 d 0))
        ⟨n * 2048 + r.val, by omega⟩ := by
  have hmin : ∀ q : Fin 2048, (⟨min n 7 * 2048 + q.val, by omega⟩ : Fin 16384) = ⟨n * 2048 + q.val, by omega⟩ :=
    fun q => Fin.ext (by show min n 7 * 2048 + q.val = n * 2048 + q.val; rw [Nat.min_eq_left (by omega)])
  exact score_row (fun n f => aA (ix3 0 n f)) (fun n f => aB (ix3 0 n f))
    (fun f d => a5 (ix2 f d)) (fun f d => a7 (ix2 f d)) (fun d => a6 (ix1 d)) (fun d => a8 (ix1 d)) (fun d => a9 (ix2 d 0))
    _ _ _ _ _ _ _ (fun q => ⟨n * 2048 + q.val, by omega⟩)
    (fun q f => (hXA ⟨n, by omega⟩ q f).trans (congrArg (fun N => aA (ix3 0 N f)) (hmin q)))
    (fun q f => (hXB ⟨n, by omega⟩ q f).trans (congrArg (fun N => aB (ix3 0 N f)) (hmin q)))
    (hX5 _) (hX7 _) (hX6 _) (hX8 _) (hX9 _) r

/-- THE KERNEL'S RESULT: with each step's blocks the rows of the argument arrays the schedule gives it, and the
    output block after each step what the body stores there, columns 0 and 1 of the final block are the
    specification's results of the two branches. -/
theorem kernel_value
    (a0 a1 a2 a3 : FVec Ideal S1x16384x512 .f32) (a4 : FVec Ideal S1x16384x1024 .f32) (a5 a7 : FVec Ideal S512x512 .f32)
    (a6 a8 : FVec Ideal S512 .f32) (a9 : FVec Ideal S512x1 .f32) (a10 : FVec Ideal S1 .f32)
    (X0 X1 X2 X3 : Fin 9 → Vec Ideal S2048x512 .f32) (X4 : Fin 9 → Vec Ideal S2048x1024 .f32)
    (X5 X7 : Fin 9 → Vec Ideal S512x512 .f32) (X6 X8 : Fin 9 → Vec Ideal S1x512 .f32)
    (X9 : Fin 9 → Vec Ideal S512x1 .f32) (X10 : Fin 9 → Vec Ideal S1x1 .f32)
    (hX0 : ∀ (t : Fin 9) (r : Fin 2048) (f : Fin 512), X0 t (ix2 r f) = a0 (ix3 0 ⟨min t.val 7 * 2048 + r.val, by omega⟩ f))
    (hX1 : ∀ (t : Fin 9) (r : Fin 2048) (f : Fin 512), X1 t (ix2 r f) = a1 (ix3 0 ⟨min t.val 7 * 2048 + r.val, by omega⟩ f))
    (hX2 : ∀ (t : Fin 9) (r : Fin 2048) (f : Fin 512), X2 t (ix2 r f) = a2 (ix3 0 ⟨min t.val 7 * 2048 + r.val, by omega⟩ f))
    (hX3 : ∀ (t : Fin 9) (r : Fin 2048) (f : Fin 512), X3 t (ix2 r f) = a3 (ix3 0 ⟨min t.val 7 * 2048 + r.val, by omega⟩ f))
    (hX4 : ∀ (t : Fin 9) (r : Fin 2048) (h : Fin 1024), X4 t (ix2 r h) = a4 (ix3 0 ⟨(t.val - 1) * 2048 + r.val, by omega⟩ h))
    (hX5 : ∀ (t : Fin 9) (f d : Fin 512), X5 t (ix2 f d) = a5 (ix2 f d))
    (hX7 : ∀ (t : Fin 9) (f d : Fin 512), X7 t (ix2 f d) = a7 (ix2 f d))
    (hX6 : ∀ (t : Fin 9) (d : Fin 512), X6 t (ix2 0 d) = a6 (ix1 d))
    (hX8 : ∀ (t : Fin 9) (d : Fin 512), X8 t (ix2 0 d) = a8 (ix1 d))
    (hX9 : ∀ (t : Fin 9) (d : Fin 512), X9 t (ix2 d 0) = a9 (ix2 d 0))
    (hX10 : ∀ t : Fin 9, X10 t (ix2 0 0) = a10 (ix1 0))
    (O : Fin 9 → Vec Ideal S1024x4 .f32)
    (hO0 : O 0 = k0_pay1 (F := Ideal))
    (hOmid : ∀ t : Fin 9, t.val ≠ 0 → t.val ≠ 8 →
      O t = k0_pay3 (F := Ideal) (X4 t) (SV X0 X1 X2 X3 X5 X7 X6 X8 X9 ⟨t.val - 1, by omega⟩) (O ⟨t.val - 1, by omega⟩))
    (hOlast : O 8 = k0_pay4 (F := Ideal) (k0_pay3 (F := Ideal) (X4 8) (SV X0 X1 X2 X3 X5 X7 X6 X8 X9 7) (O 7)) (X10 8))
    (h : Fin 1024) :
    O 8 (ix2 h 0) = Cert.Spec.outK (fun n f => a0 (ix3 0 n f)) (fun n f => a1 (ix3 0 n f)) (fun n k => a4 (ix3 0 n k))
        (fun f d => a5 (ix2 f d)) (fun f d => a7 (ix2 f d)) (fun d => a6 (ix1 d)) (fun d => a8 (ix1 d))
        (fun d => a9 (ix2 d 0)) (a10 (ix1 0)) h
    ∧ O 8 (ix2 h 1) = Cert.Spec.outK (fun n f => a2 (ix3 0 n f)) (fun n f => a3 (ix3 0 n f)) (fun n k => a4 (ix3 0 n k))
        (fun f d => a5 (ix2 f d)) (fun f d => a7 (ix2 f d)) (fun d => a6 (ix1 d)) (fun d => a8 (ix1 d))
        (fun d => a9 (ix2 d 0)) (a10 (ix1 0)) h := by
  -- the accumulator as the last step leaves it before normalising, and the nine accumulator states
  have hB0 : (fun t : Fin 9 => if t.val = 8 then k0_pay3 (F := Ideal) (X4 8) (SV X0 X1 X2 X3 X5 X7 X6 X8 X9 7) (O 7) else O t) 0
      = k0_pay1 (F := Ideal) := by
    show (if (0 : Fin 9).val = 8 then _ else O 0) = _
    rw [if_neg (by decide), hO0]
  have hB : ∀ (n : ℕ) (hn : n < 8),
      (fun t : Fin 9 => if t.val = 8 then k0_pay3 (F := Ideal) (X4 8) (SV X0 X1 X2 X3 X5 X7 X6 X8 X9 7) (O 7) else O t) ⟨n + 1, by omega⟩
        = k0_pay3 (F := Ideal) (X4 ⟨n + 1, by omega⟩) (SV X0 X1 X2 X3 X5 X7 X6 X8 X9 ⟨n, by omega⟩)
          ((fun t : Fin 9 => if t.val = 8 then k0_pay3 (F := Ideal) (X4 8) (SV X0 X1 X2 X3 X5 X7 X6 X8 X9 7) (O 7) else O t) ⟨n, by omega⟩) := by
    intro n hn
    show (if n + 1 = 8 then _ else O ⟨n + 1, _⟩) = k0_pay3 (F := Ideal) _ _ (if n = 8 then _ else O ⟨n, _⟩)
    rw [if_neg (show ¬ n = 8 by omega)]
    by_cases h7 : n = 7
    · subst h7
      rw [if_pos rfl]
      rfl
    · rw [if_neg (show ¬ n + 1 = 8 by omega)]
      exact hOmid ⟨n + 1, by omega⟩ (by show n + 1 ≠ 0; omega) (by show n + 1 ≠ 8; omega)
  have e4 : ∀ (n : ℕ) (hn : n < 8) (r : Fin 2048),
      X4 ⟨n + 1, by omega⟩ (ix2 r h) = a4 (ix3 0 ⟨n * 2048 + r.val, by omega⟩ h) := fun n hn r =>
    (hX4 ⟨n + 1, by omega⟩ r h).trans (congrArg (fun N => a4 (ix3 0 N h)) (Fin.ext (by
      show (n + 1 - 1) * 2048 + r.val = n * 2048 + r.val
      rw [Nat.add_sub_cancel])))
  -- the three accumulated columns as sums over all rows
  have c0 := acc_sum X4 (SV X0 X1 X2 X3 X5 X7 X6 X8 X9) (fun t : Fin 9 => if t.val = 8 then k0_pay3 (F := Ideal) (X4 8) (SV X0 X1 X2 X3 X5 X7 X6 X8 X9 7) (O 7) else O t) hB0 hB h 0
    (fun N => a4 (ix3 0 N h) * Cert.Spec.rowScore (fun n f => a0 (ix3 0 n f)) (fun n f => a1 (ix3 0 n f))
        (fun f d => a5 (ix2 f d)) (fun f d => a7 (ix2 f d)) (fun d => a6 (ix1 d)) (fun d => a8 (ix1 d)) (fun d => a9 (ix2 d 0)) N)
    (fun n hn r => by
      rw [e4 n hn r, SV_col0]
      exact congrArg (a4 (ix3 0 ⟨n * 2048 + r.val, by omega⟩ h) * ·)
        (branch_score a0 a1 a5 a7 a6 a8 a9 X0 X1 X5 X7 X6 X8 X9 hX0 hX1 hX5 hX7 hX6 hX8 hX9 n hn r))
  have c1 := acc_sum X4 (SV X0 X1 X2 X3 X5 X7 X6 X8 X9) (fun t : Fin 9 => if t.val = 8 then k0_pay3 (F := Ideal) (X4 8) (SV X0 X1 X2 X3 X5 X7 X6 X8 X9 7) (O 7) else O t) hB0 hB h 1
    (fun N => a4 (ix3 0 N h) * Cert.Spec.rowScore (fun n f => a2 (ix3 0 n f)) (fun n f => a3 (ix3 0 n f))
        (fun f d => a5 (ix2 f d)) (fun f d => a7 (ix2 f d)) (fun d => a6 (ix1 d)) (fun d => a8 (ix1 d)) (fun d => a9 (ix2 d 0)) N)
    (fun n hn r => by
      rw [e4 n hn r, SV_col1]
      exact congrArg (a4 (ix3 0 ⟨n * 2048 + r.val, by omega⟩ h) * ·)
        (branch_score a2 a3 a5 a7 a6 a8 a9 X2 X3 X5 X7 X6 X8 X9 hX2 hX3 hX5 hX7 hX6 hX8 hX9 n hn r))
  have c2 := acc_sum X4 (SV X0 X1 X2 X3 X5 X7 X6 X8 X9) (fun t : Fin 9 => if t.val = 8 then k0_pay3 (F := Ideal) (X4 8) (SV X0 X1 X2 X3 X5 X7 X6 X8 X9 7) (O 7) else O t) hB0 hB h 2
    (fun N => a4 (ix3 0 N h) * 1)
    (fun n hn r => by rw [e4 n hn r, SV_col2])
  have d0 := (congrFun (if_pos (rfl : (8 : Fin 9).val = 8) : (if (8 : Fin 9).val = 8 then k0_pay3 (F := Ideal) (X4 8) (SV X0 X1 X2 X3 X5 X7 X6 X8 X9 7) (O 7) else O 8) = _) (ix2 h 0)).symm.trans c0
  have d1 := (congrFun (if_pos (rfl : (8 : Fin 9).val = 8) : (if (8 : Fin 9).val = 8 then k0_pay3 (F := Ideal) (X4 8) (SV X0 X1 X2 X3 X5 X7 X6 X8 X9 7) (O 7) else O 8) = _) (ix2 h 1)).symm.trans c1
  have d2 := (congrFun (if_pos (rfl : (8 : Fin 9).val = 8) : (if (8 : Fin 9).val = 8 then k0_pay3 (F := Ideal) (X4 8) (SV X0 X1 X2 X3 X5 X7 X6 X8 X9 7) (O 7) else O 8) = _) (ix2 h 2)).symm.trans c2
  refine ⟨?_, ?_⟩
  · rw [hOlast, pay4_apply0, d0, d2, hX10]
    rfl
  · rw [hOlast, pay4_apply1, d1, d2, hX10]
    rfl

end Cert.KernelIdeal.KValue

end
-- ==== Proof.KiFinal.lean ====
/-
  The end of the kernel side: the output array after the last grid point is the accumulator's final block, the
  two results are its first two columns, and read at a column these are the specification's kernel-side formula
  of the launch arguments.
-/
import proofs.«129476_g5806795784444_cont_9to1c4b_204_10_alg».proof.Proof.KiData
import proofs.«129476_g5806795784444_cont_9to1c4b_204_10_alg».proof.Proof.KBlocks
import proofs.«129476_g5806795784444_cont_9to1c4b_204_10_alg».proof.Proof.KValue
import proofs.«129476_g5806795784444_cont_9to1c4b_204_10_alg».proof.Proof.Spec

set_option maxRecDepth 16384

noncomputable section

namespace Cert.KernelIdeal.Final

open Cert.KernelIdeal Cert.KernelIdeal.Gen Cert.KernelIdeal.Hand Cert.KernelIdeal.KBlocks Cert.KernelIdeal.KPay
open Idealize.ShloMosaic Idealize.ShloMosaic.TcCoe Idealize.ShloMosaic.Tactic Idealize.ShloMosaic.ValueIdx
open Idealize.SL.Sem
open Idealize.ShloMosaic.Pipeline (Dat Cfg Window)

variable (m : (ℓ : Loc nD τ sig) → Buf (Elt Ideal) ℓ)

/-- A grid point by its number. -/
abbrev pt (t : Fin 9) : Fin cfg0.N := Fin.cast N_0.symm t

/-- The accumulator's block after the last grid point. -/
abbrev result (c : Dev nD) : Vec Ideal S1024x4 .f32 :=
  outsAt m c 8 (by rw [show cfg0.N = 9 from N_0]; decide)

/-- THE FINAL BLOCK'S FIRST TWO COLUMNS at row h are the specification's kernel-side results of the two branches. -/
theorem out_value (c : Dev nD) (h : Fin 1024) :
    result m c (ix2 h 0) = Cert.Spec.outK (fun n f => (m ((c : Thread nD τ).loc main_arg0) : S1x16384x512.Idx → EReal) (ix3 0 n f))
        (fun n f => (m ((c : Thread nD τ).loc main_arg1) : S1x16384x512.Idx → EReal) (ix3 0 n f))
        (fun n k => (m ((c : Thread nD τ).loc main_arg4) : S1x16384x1024.Idx → EReal) (ix3 0 n k))
        (fun f d => (m ((c : Thread nD τ).loc main_arg5) : S512x512.Idx → EReal) (ix2 f d)) (fun f d => (m ((c : Thread nD τ).loc main_arg7) : S512x512.Idx → EReal) (ix2 f d))
        (fun d => (m ((c : Thread nD τ).loc main_arg6) : S512.Idx → EReal) (ix1 d)) (fun d => (m ((c : Thread nD τ).loc main_arg8) : S512.Idx → EReal) (ix1 d))
        (fun d => (m ((c : Thread nD τ).loc main_arg9) : S512x1.Idx → EReal) (ix2 d 0)) ((m ((c : Thread nD τ).loc main_arg10) : S1.Idx → EReal) (ix1 0)) h
    ∧ result m c (ix2 h 1) = Cert.Spec.outK (fun n f => (m ((c : Thread nD τ).loc main_arg2) : S1x16384x512.Idx → EReal) (ix3 0 n f))
        (fun n f => (m ((c : Thread nD τ).loc main_arg3) : S1x16384x512.Idx → EReal) (ix3 0 n f))
        (fun n k => (m ((c : Thread nD τ).loc main_arg4) : S1x16384x1024.Idx → EReal) (ix3 0 n k))
        (fun f d => (m ((c : Thread nD τ).loc main_arg5) : S512x512.Idx → EReal) (ix2 f d)) (fun f d => (m ((c : Thread nD τ).loc main_arg7) : S512x512.Idx → EReal) (ix2 f d))
        (fun d => (m ((c : Thread nD τ).loc main_arg6) : S512.Idx → EReal) (ix1 d)) (fun d => (m ((c : Thread nD τ).loc main_arg8) : S512.Idx → EReal) (ix1 d))
        (fun d => (m ((c : Thread nD τ).loc main_arg9) : S512x1.Idx → EReal) (ix2 d 0)) ((m ((c : Thread nD τ).loc main_arg10) : S1.Idx → EReal) (ix1 0)) h :=
  Cert.KernelIdeal.KValue.kernel_value
    (m ((c : Thread nD τ).loc main_arg0) : S1x16384x512.Idx → EReal) (m ((c : Thread nD τ).loc main_arg1) : S1x16384x512.Idx → EReal) (m ((c : Thread nD τ).loc main_arg2) : S1x16384x512.Idx → EReal) (m ((c : Thread nD τ).loc main_arg3) : S1x16384x512.Idx → EReal)
    (m ((c : Thread nD τ).loc main_arg4) : S1x16384x1024.Idx → EReal) (m ((c : Thread nD τ).loc main_arg5) : S512x512.Idx → EReal) (m ((c : Thread nD τ).loc main_arg7) : S512x512.Idx → EReal) (m ((c : Thread nD τ).loc main_arg6) : S512.Idx → EReal) (m ((c : Thread nD τ).loc main_arg8) : S512.Idx → EReal)
    (m ((c : Thread nD τ).loc main_arg9) : S512x1.Idx → EReal) (m ((c : Thread nD τ).loc main_arg10) : S1.Idx → EReal)
    (fun t => iblk m c 0 (pt t)) (fun t => iblk m c 1 (pt t)) (fun t => iblk m c 2 (pt t)) (fun t => iblk m c 3 (pt t))
    (fun t => iblk m c 4 (pt t)) (fun t => iblk m c 5 (pt t)) (fun t => iblk m c 7 (pt t))
    (fun t => iblk m c 6 (pt t)) (fun t => iblk m c 8 (pt t)) (fun t => iblk m c 9 (pt t)) (fun t => iblk m c 10 (pt t))
    (fun t r f => iblk0 m c (pt t) r f) (fun t r f => iblk1 m c (pt t) r f) (fun t r f => iblk2 m c (pt t) r f)
    (fun t r f => iblk3 m c (pt t) r f) (fun t r k => iblk4 m c (pt t) r k)
    (fun t f d => iblk5 m c (pt t) f d) (fun t f d => iblk7 m c (pt t) f d)
    (fun t d => iblk6 m c (pt t) d) (fun t d => iblk8 m c (pt t) d) (fun t d => iblk9 m c (pt t) d 0)
    (fun t => iblk10 m c (pt t))
    (fun t => outsAt m c t.val (lt_of_lt_of_eq t.isLt N_0.symm))
    (outsAt_zero m c (pt 0) rfl)
    (fun t h0 h8 => outsAt_mid m c (pt t) h0 h8)
    (outsAt_last m c (pt 8) rfl)
    h

/-- The output array's contents after the last point, as contents of that array. -/
abbrev resultBuf (c : Dev nD) : Buf (Elt Ideal) ((c : Thread nD τ).loc main_call0_v8) := result m c

/-- The one write-back, at the last point, writes the final block: block (0, 0) of the [1024, 4] array read through
    zero offsets is the array. -/
theorem flushed_eq (c : Dev nD) (t : Fin cfg0.N) (hf : (cfg0.win 11).flush t = true) :
    (dats m 0 c).flushed 11 t = ((cfg0.win 11).blk t).view.read (Elt Ideal) (resultBuf m c) := by
  have hN : cfg0.N = 9 := N_0
  have h8 : t.val = 8 := by have := (flush0_11 t).mp hf; have := t.isLt; omega
  obtain rfl : t = t0_8 := Fin.ext h8
  show (cfg0.win 11).cut (grid0.coords t0_8) ((dats m 0 c).after 11 t0_8) = _
  rw [after_11]
  have hz' : (fun a => win0_11.index t0_8 a * main_call0_v8.ty.shape.size a) = fun _ => 0 :=
    funext fun a => by fin_cases a <;> decide +kernel
  exact (Memref.read_access_unit_zero (Elt Ideal) main_call0_v8 hz' (fun a => by rw [congrFun hz' a]; simp)
    (resultBuf m c)).symm

/-- So the output array ends holding the final block: the last point's block covers it. -/
theorem final_o (c : Dev nD) : (dats m 0 c).arrAt 11 cfg0.N = resultBuf m c :=
  (dats m 0 c).arrAt_eq_of_cover 11 (resultBuf m c) (flushed_eq m c) fun i =>
    ⟨t0_8, (flush0_11 t0_8).mpr rfl, by
      show i ∈ ((View.whole main_call0_v8).slice (win0_11.rect t0_8)).set
      rw [View.set_slice_whole, Rect.mem_set_unit]
      intro a
      have h0 : (i 0 : Nat) < 1024 := (i 0).isLt
      have h1 : (i 1 : Nat) < 4 := (i 1).isLt
      match a with
      | ⟨0, _⟩ =>
        show win0_11.index t0_8 0 * win0_11.size 0 ≤ (i 0 : Nat)
          ∧ (i 0 : Nat) < win0_11.index t0_8 0 * win0_11.size 0 + win0_11.xsize (grid0.coords t0_8) 0
        rw [show win0_11.index t0_8 0 * win0_11.size 0 = 0 from by decide +kernel,
          show win0_11.xsize (grid0.coords t0_8) 0 = 1024 from by decide +kernel]
        omega
      | ⟨1, _⟩ =>
        show win0_11.index t0_8 1 * win0_11.size 1 ≤ (i 1 : Nat)
          ∧ (i 1 : Nat) < win0_11.index t0_8 1 * win0_11.size 1 + win0_11.xsize (grid0.coords t0_8) 1
        rw [show win0_11.index t0_8 1 * win0_11.size 1 = 0 from by decide +kernel,
          show win0_11.xsize (grid0.coords t0_8) 1 = 4 from by decide +kernel]
        omega⟩

/-- The first result array is column 0 of the output array as it ends. -/
theorem tail0_eq (c : Dev nD) :
    (Pipeline.afterTail₀ cfgs (dats m) 0 (V0 m) [hostOps1] c main_v0_0 : S1024x1.Idx → EReal)
      = extractStridedSlice S1024x1 ![0, 0] (result m c) slices_S1024x4_S1024x1_0_0 := by
  have e : (Pipeline.withArrays spec0 c (V0 m c) (fun w => (dats m 0 c).arrAt w cfg0.N)
      (Proc.devRef .tc main_call0_v8) : S1024x4.Idx → EReal) = result m c :=
    (Pipeline.withArrays_arr spec0 launch0.win.arr_inj c (V0 m c) (fun w => (dats m 0 c).arrAt w cfg0.N) 11).trans
      (final_o m c)
  unfold Pipeline.afterTail₀
  show StableHlo.after hostOps1 _ (Proc.devRef .tc main_v0_0) = _
  after_results
  exact congrArg (fun X : S1024x4.Idx → EReal => extractStridedSlice S1024x1 ![0, 0] X slices_S1024x4_S1024x1_0_0) e

/-- Read at row h it is the final block at (h, 0). -/
theorem tail0_at (c : Dev nD) (h : Fin 1024) :
    (Pipeline.afterTail₀ cfgs (dats m) 0 (V0 m) [hostOps1] c main_v0_0 : S1024x1.Idx → EReal) (ix2 h 0)
      = result m c (ix2 h 0) := by
  rw [tail0_eq]
  exact col_apply 0 (result m c) slices_S1024x4_S1024x1_0_0 h 0 rfl

/-- The second result array is column 1 of the output array as it ends. -/
theorem tail1_eq (c : Dev nD) :
    (Pipeline.afterTail₀ cfgs (dats m) 0 (V0 m) [hostOps1] c main_v0_1 : S1024x1.Idx → EReal)
      = extractStridedSlice S1024x1 ![0, 1] (result m c) slices_S1024x4_S1024x1_0_1 := by
  have e : (Pipeline.withArrays spec0 c (V0 m c) (fun w => (dats m 0 c).arrAt w cfg0.N)
      (Proc.devRef .tc main_call0_v8) : S1024x4.Idx → EReal) = result m c :=
    (Pipeline.withArrays_arr spec0 launch0.win.arr_inj c (V0 m c) (fun w => (dats m 0 c).arrAt w cfg0.N) 11).trans
      (final_o m c)
  unfold Pipeline.afterTail₀
  show StableHlo.after hostOps1 _ (Proc.devRef .tc main_v0_1) = _
  after_results
  exact congrArg (fun X : S1024x4.Idx → EReal => extractStridedSlice S1024x1 ![0, 1] X slices_S1024x4_S1024x1_0_1) e

/-- Read at row h it is the final block at (h, 1). -/
theorem tail1_at (c : Dev nD) (h : Fin 1024) :
    (Pipeline.afterTail₀ cfgs (dats m) 0 (V0 m) [hostOps1] c main_v0_1 : S1024x1.Idx → EReal) (ix2 h 0)
      = result m c (ix2 h 1) := by
  rw [tail1_eq]
  exact col_apply 1 (result m c) slices_S1024x4_S1024x1_0_1 h 1 rfl

/-- THE FIRST RESULT ARRAY at row h is the specification's kernel-side result of the first branch. -/
theorem main_v0_0_value (c : Dev nD) (h : Fin 1024) :
    (Pipeline.afterTail₀ cfgs (dats m) 0 (V0 m) [hostOps1] c main_v0_0 : S1024x1.Idx → EReal) (ix2 h 0)
      = Cert.Spec.outK (fun n f => (m ((c : Thread nD τ).loc main_arg0) : S1x16384x512.Idx → EReal) (ix3 0 n f))
        (fun n f => (m ((c : Thread nD τ).loc main_arg1) : S1x16384x512.Idx → EReal) (ix3 0 n f))
        (fun n k => (m ((c : Thread nD τ).loc main_arg4) : S1x16384x1024.Idx → EReal) (ix3 0 n k))
        (fun f d => (m ((c : Thread nD τ).loc main_arg5) : S512x512.Idx → EReal) (ix2 f d)) (fun f d => (m ((c : Thread nD τ).loc main_arg7) : S512x512.Idx → EReal) (ix2 f d))
        (fun d => (m ((c : Thread nD τ).loc main_arg6) : S512.Idx → EReal) (ix1 d)) (fun d => (m ((c : Thread nD τ).loc main_arg8) : S512.Idx → EReal) (ix1 d))
        (fun d => (m ((c : Thread nD τ).loc main_arg9) : S512x1.Idx → EReal) (ix2 d 0)) ((m ((c : Thread nD τ).loc main_arg10) : S1.Idx → EReal) (ix1 0)) h :=
  (tail0_at m c h).trans (out_value m c h).1

/-- THE SECOND RESULT ARRAY at row h is the specification's kernel-side result of the second branch. -/
theorem main_v0_1_value (c : Dev nD) (h : Fin 1024) :
    (Pipeline.afterTail₀ cfgs (dats m) 0 (V0 m) [hostOps1] c main_v0_1 : S1024x1.Idx → EReal) (ix2 h 0)
      = Cert.Spec.outK (fun n f => (m ((c : Thread nD τ).loc main_arg2) : S1x16384x512.Idx → EReal) (ix3 0 n f))
        (fun n f => (m ((c : Thread nD τ).loc main_arg3) : S1x16384x512.Idx → EReal) (ix3 0 n f))
        (fun n k => (m ((c : Thread nD τ).loc main_arg4) : S1x16384x1024.Idx → EReal) (ix3 0 n k))
        (fun f d => (m ((c : Thread nD τ).loc main_arg5) : S512x512.Idx → EReal) (ix2 f d)) (fun f d => (m ((c : Thread nD τ).loc main_arg7) : S512x512.Idx → EReal) (ix2 f d))
        (fun d => (m ((c : Thread nD τ).loc main_arg6) : S512.Idx → EReal) (ix1 d)) (fun d => (m ((c : Thread nD τ).loc main_arg8) : S512.Idx → EReal) (ix1 d))
        (fun d => (m ((c : Thread nD τ).loc main_arg9) : S512x1.Idx → EReal) (ix2 d 0)) ((m ((c : Thread nD τ).loc main_arg10) : S1.Idx → EReal) (ix1 0)) h :=
  (tail1_at m c h).trans (out_value m c h).2

end Cert.KernelIdeal.Final

end
-- ==== Proof.RefValue.lean ====
/-
  The reference program's two results, read at a column: each is the specification's reference-side
  formula of the arguments, entry by entry.
-/
import proofs.«129476_g5806795784444_cont_9to1c4b_204_10_alg».proof.Proof.Spec
import proofs.«129476_g5806795784444_cont_9to1c4b_204_10_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-- The word 0x3F800000 denotes 1. -/
theorem one_bits : Ideal.ofBits .f32 0x3F800000#32 = 1 := by
  simp [Ideal.ofBits, Ideal.ieee, -EReal.coe_mul]; norm_num

/-! ## The incidence array and its column normalisation -/

section Mask
variable (x4 : (⟨S1x16384x1024, .f32⟩ : BufTy).Contents (Elt Ideal))

/-- Entry (n, h) of the [16384, 1024] reshape is entry (0, n, h) of the argument. -/
theorem v0_at (n : Fin 16384) (h : Fin 1024) : val_main_v0 (F := Ideal) x4 (ix2 n h) = x4 (ix3 0 n h) := by
  rw [val_main_v0_apply]
  refine congrArg x4 (funext fun a => Fin.ext ?_)
  have hn := n.isLt
  have hh := h.isLt
  match a with
  | ⟨0, _⟩ => rfl
  | ⟨1, _⟩ => show (n.val * 1024 + h.val) / 1024 % 16384 = n.val; omega
  | ⟨2, _⟩ => show (n.val * 1024 + h.val) % 1024 = h.val; omega

/-- The column sum at h: the sum of column h over the 16384 rows. -/
theorem v1_at (h : Fin 1024) : val_main_v1 (F := Ideal) x4 (ix1 h) = ∑ k : Fin 16384, x4 (ix3 0 k h) := by
  rw [val_main_v1_apply, val_main_cst_apply, Ideal.ofBits_def, Ideal.ofBits_zero_f32, zero_add]
  refine Finset.sum_congr rfl fun k _ => ?_
  rw [(show idx_main_v1 (ix1 h) k = ix2 k h from funext fun a => Fin.ext (by match a with | ⟨0, _⟩ => rfl | ⟨1, _⟩ => rfl))]
  exact v0_at x4 k h

/-- The column sums broadcast down the rows. -/
theorem v3_at (n : Fin 16384) (h : Fin 1024) :
    val_main_v3 (F := Ideal) x4 (ix2 n h) = ∑ k : Fin 16384, x4 (ix3 0 k h) := by
  rw [val_main_v3_apply, val_main_v2_apply,
    (show idx_main_v2 (idx_main_v3 (ix2 n h)) = ix1 h from funext fun a => Fin.ext (by match a with | ⟨0, _⟩ => rfl))]
  exact v1_at x4 h

/-- The normalised entry (n, h): the entry over its column's sum. -/
theorem v4_at (n : Fin 16384) (h : Fin 1024) :
    val_main_v4 (F := Ideal) x4 (ix2 n h) = Ideal.div (x4 (ix3 0 n h)) (∑ k : Fin 16384, x4 (ix3 0 k h)) := by
  rw [val_main_v4_apply, v0_at, v3_at]
  rfl

/-- Its transpose at (h, n). -/
theorem v17_at (h : Fin 1024) (n : Fin 16384) :
    val_main_v17 (F := Ideal) x4 (ix2 h n) = Ideal.div (x4 (ix3 0 n h)) (∑ k : Fin 16384, x4 (ix3 0 k h)) := by
  rw [val_main_v17_apply, (show idx_main_v17 (ix2 h n) = ix2 n h from funext fun a => Fin.ext (by match a with | ⟨0, _⟩ => rfl | ⟨1, _⟩ => rfl))]
  exact v4_at x4 n h

end Mask

/-! ## The rows' pre-activation, rectified -/

section Rows
variable (x0 x1 : (⟨S1x16384x512, .f32⟩ : BufTy).Contents (Elt Ideal)) (x4 : (⟨S1x16384x1024, .f32⟩ : BufTy).Contents (Elt Ideal))
  (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal))
  (x9 : (⟨S512x1, .f32⟩ : BufTy).Contents (Elt Ideal)) (x10 : (⟨S1, .f32⟩ : BufTy).Contents (Elt Ideal))

/-- Entry (n, f) of the [16384, 512] reshape is entry (0, n, f) of the argument. -/
theorem v5_at (n : Fin 16384) (f : Fin 512) : val_main_v5 (F := Ideal) x0 (ix2 n f) = x0 (ix3 0 n f) := by
  rw [val_main_v5_apply]
  refine congrArg x0 (funext fun a => Fin.ext ?_)
  have hn := n.isLt
  have hf := f.isLt
  match a with
  | ⟨0, _⟩ => rfl
  | ⟨1, _⟩ => show (n.val * 512 + f.val) / 512 % 16384 = n.val; omega
  | ⟨2, _⟩ => show (n.val * 512 + f.val) % 512 = f.val; omega

theorem v6_at (n : Fin 16384) (f : Fin 512) : val_main_v6 (F := Ideal) x1 (ix2 n f) = x1 (ix3 0 n f) := by
  rw [val_main_v6_apply]
  refine congrArg x1 (funext fun a => Fin.ext ?_)
  have hn := n.isLt
  have hf := f.isLt
  match a with
  | ⟨0, _⟩ => rfl
  | ⟨1, _⟩ => show (n.val * 512 + f.val) / 512 % 16384 = n.val; omega
  | ⟨2, _⟩ => show (n.val * 512 + f.val) % 512 = f.val; omega

/-- The first product at (n, d). -/
theorem v7_at (n : Fin 16384) (d : Fin 512) :
    val_main_v7 (F := Ideal) x0 x5 (ix2 n d) = ∑ f : Fin 512, x0 (ix3 0 n f) * x5 (ix2 f d) := by
  rw [val_main_v7_apply]
  refine Finset.sum_congr rfl fun f _ => ?_
  rw [(show lidx_main_v7 (ix2 n d) f = ix2 n f from funext fun a => Fin.ext (by match a with | ⟨0, _⟩ => rfl | ⟨1, _⟩ => rfl)),
    (show ridx_main_v7 (ix2 n d) f = ix2 f d from funext fun a => Fin.ext (by match a with | ⟨0, _⟩ => rfl | ⟨1, _⟩ => rfl)), v5_at]

/-- The second product at (n, d). -/
theorem v11_at (n : Fin 16384) (d : Fin 512) :
    val_main_v11 (F := Ideal) x1 x7 (ix2 n d) = ∑ f : Fin 512, x1 (ix3 0 n f) * x7 (ix2 f d) := by
  rw [val_main_v11_apply]
  refine Finset.sum_congr rfl fun f _ => ?_
  rw [(show lidx_main_v11 (ix2 n d) f = ix2 n f from funext fun a => Fin.ext (by match a with | ⟨0, _⟩ => rfl | ⟨1, _⟩ => rfl)),
    (show ridx_main_v11 (ix2 n d) f = ix2 f d from funext fun a => Fin.ext (by match a with | ⟨0, _⟩ => rfl | ⟨1, _⟩ => rfl)), v6_at]

/-- A bias broadcast down the rows reads the bias at the column. -/
theorem v9_at (n : Fin 16384) (d : Fin 512) : val_main_v9 (F := Ideal) x6 (ix2 n d) = x6 (ix1 d) := by
  rw [val_main_v9_apply, val_main_v8_apply]
  exact congrArg x6 (funext fun a => Fin.ext (by match a with | ⟨0, _⟩ => rfl))

theorem v13_at (n : Fin 16384) (d : Fin 512) : val_main_v13 (F := Ideal) x8 (ix2 n d) = x8 (ix1 d) := by
  rw [val_main_v13_apply, val_main_v12_apply]
  exact congrArg x8 (funext fun a => Fin.ext (by match a with | ⟨0, _⟩ => rfl))

/-- The pre-activation at (n, d) is the specification's. -/
theorem v15_at (n : Fin 16384) (d : Fin 512) :
    val_main_v15 (F := Ideal) x0 x1 x5 x6 x7 x8 (ix2 n d)
      = Cert.Spec.preR (fun n f => x0 (ix3 0 n f)) (fun n f => x1 (ix3 0 n f)) (fun f d => x5 (ix2 f d)) (fun f d => x7 (ix2 f d)) (fun d => x6 (ix1 d)) (fun d => x8 (ix1 d)) n d := by
  rw [val_main_v15_apply, val_main_v10_apply, val_main_v14_apply, v7_at, v9_at, v11_at, v13_at]
  rfl

/-- The rectified pre-activation at (n, d). -/
theorem v16_at (n : Fin 16384) (d : Fin 512) :
    val_main_v16 (F := Ideal) x0 x1 x5 x6 x7 x8 (ix2 n d)
      = max (Cert.Spec.preR (fun n f => x0 (ix3 0 n f)) (fun n f => x1 (ix3 0 n f)) (fun f d => x5 (ix2 f d)) (fun f d => x7 (ix2 f d)) (fun d => x6 (ix1 d)) (fun d => x8 (ix1 d)) n d) 0 := by
  rw [val_main_v16_apply, v15_at, val_main_call0_v0_apply, val_main_call0_cst_apply, Ideal.ofBits_def,
    Ideal.ofBits_zero_f32]
  rfl

/-- The aggregate at (h, d): the normalised column h against the rectified rows. -/
theorem v18_at (h : Fin 1024) (d : Fin 512) :
    val_main_v18 (F := Ideal) x0 x1 x4 x5 x6 x7 x8 (ix2 h d)
      = ∑ n : Fin 16384, Ideal.div (x4 (ix3 0 n h)) (∑ k : Fin 16384, x4 (ix3 0 k h))
          * max (Cert.Spec.preR (fun n f => x0 (ix3 0 n f)) (fun n f => x1 (ix3 0 n f)) (fun f d => x5 (ix2 f d)) (fun f d => x7 (ix2 f d)) (fun d => x6 (ix1 d)) (fun d => x8 (ix1 d)) n d) 0 := by
  rw [val_main_v18_apply]
  refine Finset.sum_congr rfl fun n _ => ?_
  rw [(show lidx_main_v18 (ix2 h d) n = ix2 h n from funext fun a => Fin.ext (by match a with | ⟨0, _⟩ => rfl | ⟨1, _⟩ => rfl)),
    (show ridx_main_v18 (ix2 h d) n = ix2 n d from funext fun a => Fin.ext (by match a with | ⟨0, _⟩ => rfl | ⟨1, _⟩ => rfl)), v17_at, v16_at]

/-- The score before the bias at column h. -/
theorem v19_at (h : Fin 1024) :
    val_main_v19 (F := Ideal) x0 x1 x4 x5 x6 x7 x8 x9 (ix2 h 0)
      = ∑ d : Fin 512, (∑ n : Fin 16384, Ideal.div (x4 (ix3 0 n h)) (∑ k : Fin 16384, x4 (ix3 0 k h))
          * max (Cert.Spec.preR (fun n f => x0 (ix3 0 n f)) (fun n f => x1 (ix3 0 n f)) (fun f d => x5 (ix2 f d)) (fun f d => x7 (ix2 f d)) (fun d => x6 (ix1 d)) (fun d => x8 (ix1 d)) n d) 0) * x9 (ix2 d 0) := by
  rw [val_main_v19_apply]
  refine Finset.sum_congr rfl fun d _ => ?_
  rw [(show lidx_main_v19 (ix2 h 0) d = ix2 h d from funext fun a => Fin.ext (by match a with | ⟨0, _⟩ => rfl | ⟨1, _⟩ => rfl)),
    (show ridx_main_v19 (ix2 h 0) d = ix2 d 0 from funext fun a => Fin.ext (by match a with | ⟨0, _⟩ => rfl | ⟨1, _⟩ => rfl)), v18_at]

/-- The scoring bias broadcast down the column. -/
theorem v21_at (h : Fin 1024) : val_main_v21 (F := Ideal) x10 (ix2 h 0) = x10 (ix1 0) := by
  rw [val_main_v21_apply, val_main_v20_apply]
  exact congrArg x10 (funext fun a => Fin.ext (by match a with | ⟨0, _⟩ => rfl))

/-- THE FIRST RESULT at column h is the specification's reference-side formula of the arguments. -/
theorem v28_at (h : Fin 1024) :
    val_main_v28 (F := Ideal) x0 x1 x4 x5 x6 x7 x8 x9 x10 (ix2 h 0)
      = Cert.Spec.outR (fun n f => x0 (ix3 0 n f)) (fun n f => x1 (ix3 0 n f)) (fun n k => x4 (ix3 0 n k))
          (fun f d => x5 (ix2 f d)) (fun f d => x7 (ix2 f d)) (fun d => x6 (ix1 d)) (fun d => x8 (ix1 d))
          (fun d => x9 (ix2 d 0)) (x10 (ix1 0)) h := by
  rw [val_main_v28_apply, val_main_v27_apply, val_main_cst_1_apply, val_main_v26_apply, val_main_v25_apply,
    val_main_cst_0_apply, val_main_v24_apply, val_main_v23_apply, val_main_v22_apply, v19_at, v21_at,
    Ideal.ofBits_def, one_bits]
  unfold Cert.Spec.outR
  simp only [Ideal.hostDivf_def, Ideal.addf_def, Ideal.hostUnary_exp_def, Ideal.hostNegf_def, Ideal.negf_def]

end Rows

/-! ## The second result is the first at the other pair of arguments -/

/-- The two results are one function of their arguments. -/
theorem v52_eq_v28 (x2 x3 : (⟨S1x16384x512, .f32⟩ : BufTy).Contents (Elt Ideal)) (x4 : (⟨S1x16384x1024, .f32⟩ : BufTy).Contents (Elt Ideal))
    (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal))
    (x9 : (⟨S512x1, .f32⟩ : BufTy).Contents (Elt Ideal)) (x10 : (⟨S1, .f32⟩ : BufTy).Contents (Elt Ideal)) :
    val_main_v52 (F := Ideal) x2 x3 x4 x5 x6 x7 x8 x9 x10 = val_main_v28 (F := Ideal) x2 x3 x4 x5 x6 x7 x8 x9 x10 :=
  (val_main_v52_eq (F := Ideal) x2 x3 x4 x5 x6 x7 x8 x9 x10).symm.trans
    (val_main_v28_eq (F := Ideal) x2 x3 x4 x5 x6 x7 x8 x9 x10)

/-- THE SECOND RESULT at column h is the same formula of the second pair of row arrays. -/
theorem v52_at (x2 x3 : (⟨S1x16384x512, .f32⟩ : BufTy).Contents (Elt Ideal)) (x4 : (⟨S1x16384x1024, .f32⟩ : BufTy).Contents (Elt Ideal))
    (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal))
    (x9 : (⟨S512x1, .f32⟩ : BufTy).Contents (Elt Ideal)) (x10 : (⟨S1, .f32⟩ : BufTy).Contents (Elt Ideal)) (h : Fin 1024) :
    val_main_v52 (F := Ideal) x2 x3 x4 x5 x6 x7 x8 x9 x10 (ix2 h 0)
      = Cert.Spec.outR (fun n f => x2 (ix3 0 n f)) (fun n f => x3 (ix3 0 n f)) (fun n k => x4 (ix3 0 n k))
          (fun f d => x5 (ix2 f d)) (fun f d => x7 (ix2 f d)) (fun d => x6 (ix1 d)) (fun d => x8 (ix1 d))
          (fun d => x9 (ix2 d 0)) (x10 (ix1 0)) h := by
  rw [v52_eq_v28]
  exact v28_at x2 x3 x4 x5 x6 x7 x8 x9 x10 h

end Cert.ReferenceIdeal.RefValue

end
-- ==== Proof.PreFacts.lean ====
/-
  The precondition decoded: a claim that the finiteness test answers 1 says that every entry of every argument
  is a real number, and that every column sum of the 16384 x 1024 incidence array is non-zero.
-/
import proofs.«129476_g5806795784444_cont_9to1c4b_204_10_alg».proof.Proof.Gen.Pre_finite_inputs
import Idealize.ShloMosaic.Lib.ReduceAll
import Idealize.ShloMosaic.Lib.IdealHost
import Idealize.ShloMosaic.Lib.ValueIdx
import Idealize.ShloMosaic.Lib.Pipeline.Value
import Idealize.ShloMosaic.PureOps.Ideal.Laws

noncomputable section

namespace Cert.PreFacts

open Idealize.ShloMosaic Idealize.ShloMosaic.ValueIdx Cert.Pre_finite_inputs Cert.Pre_finite_inputs.Gen

/-- The scalar shape has one index. -/
instance : Subsingleton S_.Idx := ⟨fun a b => funext fun d => d.elim0⟩

/-- The word 0x7F800000 denotes the top element. -/
theorem inf_eq_top : Ideal.ofBits .f32 0x7F800000#32 = ⊤ := by simp [Ideal.ofBits, Ideal.ieee]

/-- An extended real whose absolute value is strictly below the top element is a real number. -/
theorem real_of_abs_lt (x : EReal) (h : Ideal.cmp .olt (max x (-x)) (Ideal.ofBits .f32 0x7F800000#32) = 1#1) :
    ∃ r : ℝ, x = (r : EReal) := by
  rw [inf_eq_top] at h
  unfold Ideal.cmp at h
  induction x using EReal.rec with
  | bot => simp at h
  | coe r => exact ⟨r, rfl⟩
  | top => simp at h

/-- One "all |x| < +inf" test that answers 1: every entry of the array is a real number. -/
theorem all_real {s : Shape} {axes : List (Fin s.rank)} (x : FVec Ideal s .f32)
    (hb : S_.BroadcastsInDim s (![] : Fin 0 → Fin s.rank)) (hr : s.ReducesTo axes S_) (hS : 0 < S_.numel) (j : S_.Idx)
    (e : Host.reduce IntOp.andi
        (cmpf .olt (Host.absf x) (broadcastInDim s ![] hb (constant (F := Ideal) S_ .f32 0x7F800000#32)))
        (constantI S_ 1 1#1) hr hS j = 1#1) (i : s.Idx) : ∃ r : ℝ, x i = (r : EReal) :=
  real_of_abs_lt (x i) (Host.reduce_andi_all _ _ hr hS j e i)

/-- A comparison "not equal" that answers 1 says the two extended reals differ. -/
theorem ne_of_cmp_une (x y : EReal) (h : Ideal.cmp .une x y = 1#1) : x ≠ y := by
  unfold Ideal.cmp at h
  by_contra hxy
  simp [hxy] at h

/-- One "all x ≠ 0" test that answers 1: no entry of the array is zero. -/
theorem all_ne {s : Shape} {axes : List (Fin s.rank)} (x : FVec Ideal s .f32)
    (hb : S_.BroadcastsInDim s (![] : Fin 0 → Fin s.rank)) (hr : s.ReducesTo axes S_) (hS : 0 < S_.numel) (j : S_.Idx)
    (e : Host.reduce IntOp.andi
        (cmpf .une x (broadcastInDim s ![] hb (constant (F := Ideal) S_ .f32 0x00000000#32)))
        (constantI S_ 1 1#1) hr hS j = 1#1) (i : s.Idx) : x i ≠ 0 :=
  fun hz => ne_of_cmp_une (x i) (Ideal.ofBits .f32 0x00000000#32) (Host.reduce_andi_all _ _ hr hS j e i)
    (hz.trans Ideal.ofBits_zero_f32.symm)

/-- The column sum of the incidence array, read at column h: the sum over the 16384 rows. -/
theorem colsum_apply (a4 : FVec Ideal S1x16384x1024 .f32) (hc : S1x16384x1024.ShapeCasts S16384x1024)
    (hr : S16384x1024.ReducesTo [0] S1024) (hS : 0 < S_.numel) (h : Fin 1024) :
    Host.reduceAdd (shapeCast S16384x1024 a4 hc) (constant (F := Ideal) S_ .f32 0x00000000#32) hr hS (ix1 h)
      = ∑ k : Fin 16384, a4 (ix3 0 k h) := by
  rw [hostReduceAdd_apply, Ideal.hostReduceAdd_single hr (by decide), constant_apply, Ideal.ofBits_zero_f32, zero_add]
  refine Finset.sum_congr rfl fun k _ => ?_
  refine shapeCast_apply a4 hc _ (ix3 0 k h) ?_
  rw [Shape.rowMajor_val_three, Shape.rowMajor_val_two]
  show (0 * 16384 + k.val) * 1024 + h.val = k.val * 1024 + h.val
  omega

/-- THE PRECONDITION DECODED: every entry of every argument is a real number, and no column of the
    incidence array sums to zero. -/
theorem facts (a0 a1 a2 a3 : FVec Ideal S1x16384x512 .f32) (a4 : FVec Ideal S1x16384x1024 .f32)
    (a5 a7 : FVec Ideal S512x512 .f32) (a6 a8 : FVec Ideal S512 .f32) (a9 : FVec Ideal S512x1 .f32)
    (a10 : FVec Ideal S1 .f32)
    (hpre : Cert.Pre_finite_inputs.fn (F := Ideal) a0 a1 a2 a3 a4 a5 a6 a7 a8 a9 a10 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) ∧ (∀ i, ∃ r : ℝ, a10 i = (r : EReal))
      ∧ (∀ h : Fin 1024, (∑ k : Fin 16384, a4 (ix3 0 k h)) ≠ 0) := by
  have e := congrFun hpre ix0
  dsimp only [fn, fn_part1, fn_part2, fn_part3] at e
  have and1 : ∀ (A B : IVec S_ 1), andi A B ix0 = 1#1 → A ix0 = 1#1 ∧ B ix0 = 1#1 :=
    fun A B h => IntOp.andi_eq_one.1 h
  obtain ⟨e, e11⟩ := and1 _ _ e
  obtain ⟨e, e10⟩ := and1 _ _ e
  obtain ⟨e, e9⟩ := and1 _ _ e
  obtain ⟨e, e8⟩ := and1 _ _ e
  obtain ⟨e, e7⟩ := and1 _ _ e
  obtain ⟨e, e6⟩ := and1 _ _ e
  obtain ⟨e, e5⟩ := and1 _ _ e
  obtain ⟨e, e4⟩ := and1 _ _ e
  obtain ⟨e, e3⟩ := and1 _ _ e
  obtain ⟨e, e2⟩ := and1 _ _ e
  obtain ⟨e0, e1⟩ := and1 _ _ e
  refine ⟨all_real a0 _ _ _ ix0 e0, all_real a1 _ _ _ ix0 e1, all_real a2 _ _ _ ix0 e2, all_real a3 _ _ _ ix0 e3,
    all_real a4 _ _ _ ix0 e4, all_real a5 _ _ _ ix0 e5, all_real a6 _ _ _ ix0 e6, all_real a7 _ _ _ ix0 e7,
    all_real a8 _ _ _ ix0 e8, all_real a9 _ _ _ ix0 e9, all_real a10 _ _ _ ix0 e10, fun h => ?_⟩
  have h2 := all_ne _ _ _ _ ix0 e11 (ix1 h)
  rw [colsum_apply] at h2
  exact h2

end Cert.PreFacts

end
-- ==== Proof.SpecAlg.lean ====
/-
  The algebra of the claim, free of any program: with every entry a real number and a non-zero column
  sum, the two ways of normalising the mask-weighted scores agree.
-/
import proofs.«129476_g5806795784444_cont_9to1c4b_204_10_alg».proof.Proof.Spec

noncomputable section

namespace Cert.Spec

open Idealize.ShloMosaic

/-- A finite sum of real numbers, each seen in the extended reals, is their real sum seen there. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The positive part of a real number is the same taken in the extended reals. -/
theorem max_coe_zero (r : ℝ) : max (r : EReal) 0 = ((max r 0 : ℝ) : EReal) := by
  rw [← EReal.coe_zero]
  exact (EReal.coe_strictMono.monotone.map_max).symm

/-- The two orders of adding the products and the biases agree: addition of extended reals is
    commutative and associative. -/
theorem preR_eq_preK (x y : Fin 16384 → Fin 512 → EReal) (ws wh : Fin 512 → Fin 512 → EReal)
    (bs bh : Fin 512 → EReal) (n : Fin 16384) (d : Fin 512) :
    preR x y ws wh bs bh n d = preK x y ws wh bs bh n d := by
  unfold preR preK
  exact add_add_add_comm _ _ _ _

/-- With real entries the pre-activation is a real number. -/
theorem exists_real_preK (x y : Fin 16384 → Fin 512 → EReal) (ws wh : Fin 512 → Fin 512 → EReal)
    (bs bh : Fin 512 → EReal)
    (hx : ∀ n f, ∃ r : ℝ, x n f = (r : EReal)) (hy : ∀ n f, ∃ r : ℝ, y n f = (r : EReal))
    (hws : ∀ f d, ∃ r : ℝ, ws f d = (r : EReal)) (hwh : ∀ f d, ∃ r : ℝ, wh f d = (r : EReal))
    (hbs : ∀ d, ∃ r : ℝ, bs d = (r : EReal)) (hbh : ∀ d, ∃ r : ℝ, bh d = (r : EReal)) :
    ∃ p : Fin 16384 → Fin 512 → ℝ, ∀ n d, preK x y ws wh bs bh n d = (p n d : EReal) := by
  choose x' hx using hx
  choose y' hy using hy
  choose ws' hws using hws
  choose wh' hwh using hwh
  choose bs' hbs using hbs
  choose bh' hbh using hbh
  refine ⟨fun n d => ((∑ f, x' n f * ws' f d) + (∑ f, y' n f * wh' f d)) + (bs' d + bh' d), fun n d => ?_⟩
  simp only [preK, hx, hy, hws, hwh, hbs, hbh, ← EReal.coe_mul, coe_finset_sum, ← EReal.coe_add]

/-- The identity over the reals: scaling the weighted sum of the row scores by a constant is the same as
    scaling the weights first and contracting the rows before the scoring column. -/
theorem real_core {ι κ : Type*} [Fintype ι] [Fintype κ] (b : ι → ℝ) (r : ι → κ → ℝ) (w : κ → ℝ) (c : ℝ) :
    (∑ n, b n * (∑ d, r n d * w d)) * (1 / c) = ∑ d, (∑ n, b n * (1 / c) * r n d) * w d := by
  simp only [Finset.mul_sum, Finset.sum_mul]
  rw [Finset.sum_comm]
  refine Finset.sum_congr rfl fun d _ => Finset.sum_congr rfl fun n _ => ?_
  ring

/-- With every entry a real number and a non-zero column sum, the kernel's result and the reference's
    result for a column are the same extended real. -/
theorem outK_eq_outR (x y : Fin 16384 → Fin 512 → EReal) (bm : Fin 16384 → Fin 1024 → EReal) (ws wh : Fin 512 → Fin 512 → EReal) (bs bh : Fin 512 → EReal) (wsc : Fin 512 → EReal) (bsc : EReal)
    (hx : ∀ n f, ∃ r : ℝ, x n f = (r : EReal)) (hy : ∀ n f, ∃ r : ℝ, y n f = (r : EReal)) (hbm : ∀ n k, ∃ r : ℝ, bm n k = (r : EReal))
    (hws : ∀ f d, ∃ r : ℝ, ws f d = (r : EReal)) (hwh : ∀ f d, ∃ r : ℝ, wh f d = (r : EReal)) (hbs : ∀ d, ∃ r : ℝ, bs d = (r : EReal)) (hbh : ∀ d, ∃ r : ℝ, bh d = (r : EReal))
    (hwsc : ∀ d, ∃ r : ℝ, wsc d = (r : EReal)) (hbsc : ∃ r : ℝ, bsc = (r : EReal))
    (h : Fin 1024) (hcs : (∑ k : Fin 16384, bm k h) ≠ 0) :
    outK x y bm ws wh bs bh wsc bsc h = outR x y bm ws wh bs bh wsc bsc h := by
  obtain ⟨p, hp⟩ := exists_real_preK x y ws wh bs bh hx hy hws hwh hbs hbh
  have hpR : ∀ n d, preR x y ws wh bs bh n d = (p n d : EReal) := fun n d =>
    (preR_eq_preK x y ws wh bs bh n d).trans (hp n d)
  choose bm' hbm using hbm
  choose wsc' hwsc using hwsc
  have hrow : ∀ n, rowScore x y ws wh bs bh wsc n = ((∑ d, max (p n d) 0 * wsc' d : ℝ) : EReal) := by
    intro n
    simp only [rowScore, hp, hwsc, max_coe_zero, ← EReal.coe_mul, coe_finset_sum]
  have hc : (∑ k : Fin 16384, bm k h) = ((∑ k, bm' k h : ℝ) : EReal) := by
    simp only [hbm, coe_finset_sum]
  have hc0 : (∑ k, bm' k h : ℝ) ≠ 0 := by
    intro h0
    apply hcs
    rw [hc, h0, EReal.coe_zero]
  have key : Ideal.div (∑ n : Fin 16384, bm n h * rowScore x y ws wh bs bh wsc n) (∑ n : Fin 16384, bm n h * 1)
      = ∑ d : Fin 512, (∑ n : Fin 16384, Ideal.div (bm n h) (∑ k : Fin 16384, bm k h)
          * max (preR x y ws wh bs bh n d) 0) * wsc d := by
    simp only [mul_one, hc, Ideal.div_coe hc0, hrow, hpR, hbm, hwsc, max_coe_zero, ← EReal.coe_mul, coe_finset_sum]
    exact congrArg _ (real_core (fun n => bm' n h) (fun n d => max (p n d) 0) wsc' _)
  rw [outK, outR, Ideal.logistic, key]

end Cert.Spec

end
-- ==== Proof.KiAlg.lean ====
/-
  The algebraic conjunct of the claim, from the kernel's run: on memories that agree on the arguments the two
  programs end with equal results. The reference's results are the specification's reference-side formula of the
  arguments, the kernel's its kernel-side formula, and with every entry a real number and no column of the
  incidence array summing to zero the two formulas are one extended real.
-/
import proofs.«129476_g5806795784444_cont_9to1c4b_204_10_alg».proof.Defs
import proofs.«129476_g5806795784444_cont_9to1c4b_204_10_alg».proof.Proof.KiFinal
import proofs.«129476_g5806795784444_cont_9to1c4b_204_10_alg».proof.Proof.RefValue
import proofs.«129476_g5806795784444_cont_9to1c4b_204_10_alg».proof.Proof.PreFacts
import proofs.«129476_g5806795784444_cont_9to1c4b_204_10_alg».proof.Proof.SpecAlg
import proofs.«129476_g5806795784444_cont_9to1c4b_204_10_alg».proof.Proof.Gen.KernelIdeal
import proofs.«129476_g5806795784444_cont_9to1c4b_204_10_alg».proof.Proof.Gen.ReferenceIdeal
import proofs.«129476_g5806795784444_cont_9to1c4b_204_10_alg».proof.Proof.Gen.Pre_finite_inputs
import proofs.«129476_g5806795784444_cont_9to1c4b_204_10_alg».proof.Proof.Gen.ReferenceIdeal.Run
import proofs.«129476_g5806795784444_cont_9to1c4b_204_10_alg».proof.Proof.Gen.ReferenceIdeal.Read

set_option maxRecDepth 16384

noncomputable section

namespace Cert.Proof.Alg

open Idealize.ShloMosaic Idealize.ShloMosaic.TcCoe Idealize.SL.Sem Idealize.ShloMosaic.ValueIdx

/-- Every index of a [1024, 1] array is (h, 0). -/
theorem idx_col (i : Cert.KernelIdeal.S1024x1.Idx) : ∃ h : Fin 1024, i = ix2 h (0 : Fin 1) := by
  refine ⟨i 0, funext fun a => ?_⟩
  match a with
  | ⟨0, _⟩ => rfl
  | ⟨1, _⟩ => exact Fin.ext (by have h1 : (i 1).val < 1 := (i 1).isLt; show (i 1).val = 0; omega)

/-- Under the precondition the kernel-side and the reference-side formulas of the kernel's arguments agree at
    every column, for both branches. -/
theorem spec_agree (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) (h : Fin 1024) :
    Cert.Spec.outK (fun n f => (m ((c.tc : Thread Cert.KernelIdeal.nD Cert.KernelIdeal.τ).loc Cert.KernelIdeal.main_arg0) : Cert.KernelIdeal.S1x16384x512.Idx → EReal) (ix3 0 n f)) (fun n f => (m ((c.tc : Thread Cert.KernelIdeal.nD Cert.KernelIdeal.τ).loc Cert.KernelIdeal.main_arg1) : Cert.KernelIdeal.S1x16384x512.Idx → EReal) (ix3 0 n f)) (fun n k => (m ((c.tc : Thread Cert.KernelIdeal.nD Cert.KernelIdeal.τ).loc Cert.KernelIdeal.main_arg4) : Cert.KernelIdeal.S1x16384x1024.Idx → EReal) (ix3 0 n k))
        (fun f d => (m ((c.tc : Thread Cert.KernelIdeal.nD Cert.KernelIdeal.τ).loc Cert.KernelIdeal.main_arg5) : Cert.KernelIdeal.S512x512.Idx → EReal) (ix2 f d)) (fun f d => (m ((c.tc : Thread Cert.KernelIdeal.nD Cert.KernelIdeal.τ).loc Cert.KernelIdeal.main_arg7) : Cert.KernelIdeal.S512x512.Idx → EReal) (ix2 f d)) (fun d => (m ((c.tc : Thread Cert.KernelIdeal.nD Cert.KernelIdeal.τ).loc Cert.KernelIdeal.main_arg6) : Cert.KernelIdeal.S512.Idx → EReal) (ix1 d)) (fun d => (m ((c.tc : Thread Cert.KernelIdeal.nD Cert.KernelIdeal.τ).loc Cert.KernelIdeal.main_arg8) : Cert.KernelIdeal.S512.Idx → EReal) (ix1 d))
        (fun d => (m ((c.tc : Thread Cert.KernelIdeal.nD Cert.KernelIdeal.τ).loc Cert.KernelIdeal.main_arg9) : Cert.KernelIdeal.S512x1.Idx → EReal) (ix2 d 0)) ((m ((c.tc : Thread Cert.KernelIdeal.nD Cert.KernelIdeal.τ).loc Cert.KernelIdeal.main_arg10) : Cert.KernelIdeal.S1.Idx → EReal) (ix1 0)) h
      = Cert.Spec.outR (fun n f => (m ((c.tc : Thread Cert.KernelIdeal.nD Cert.KernelIdeal.τ).loc Cert.KernelIdeal.main_arg0) : Cert.KernelIdeal.S1x16384x512.Idx → EReal) (ix3 0 n f)) (fun n f => (m ((c.tc : Thread Cert.KernelIdeal.nD Cert.KernelIdeal.τ).loc Cert.KernelIdeal.main_arg1) : Cert.KernelIdeal.S1x16384x512.Idx → EReal) (ix3 0 n f)) (fun n k => (m ((c.tc : Thread Cert.KernelIdeal.nD Cert.KernelIdeal.τ).loc Cert.KernelIdeal.main_arg4) : Cert.KernelIdeal.S1x16384x1024.Idx → EReal) (ix3 0 n k))
        (fun f d => (m ((c.tc : Thread Cert.KernelIdeal.nD Cert.KernelIdeal.τ).loc Cert.KernelIdeal.main_arg5) : Cert.KernelIdeal.S512x512.Idx → EReal) (ix2 f d)) (fun f d => (m ((c.tc : Thread Cert.KernelIdeal.nD Cert.KernelIdeal.τ).loc Cert.KernelIdeal.main_arg7) : Cert.KernelIdeal.S512x512.Idx → EReal) (ix2 f d)) (fun d => (m ((c.tc : Thread Cert.KernelIdeal.nD Cert.KernelIdeal.τ).loc Cert.KernelIdeal.main_arg6) : Cert.KernelIdeal.S512.Idx → EReal) (ix1 d)) (fun d => (m ((c.tc : Thread Cert.KernelIdeal.nD Cert.KernelIdeal.τ).loc Cert.KernelIdeal.main_arg8) : Cert.KernelIdeal.S512.Idx → EReal) (ix1 d))
        (fun d => (m ((c.tc : Thread Cert.KernelIdeal.nD Cert.KernelIdeal.τ).loc Cert.KernelIdeal.main_arg9) : Cert.KernelIdeal.S512x1.Idx → EReal) (ix2 d 0)) ((m ((c.tc : Thread Cert.KernelIdeal.nD Cert.KernelIdeal.τ).loc Cert.KernelIdeal.main_arg10) : Cert.KernelIdeal.S1.Idx → EReal) (ix1 0)) h
    ∧ Cert.Spec.outK (fun n f => (m ((c.tc : Thread Cert.KernelIdeal.nD Cert.KernelIdeal.τ).loc Cert.KernelIdeal.main_arg2) : Cert.KernelIdeal.S1x16384x512.Idx → EReal) (ix3 0 n f)) (fun n f => (m ((c.tc : Thread Cert.KernelIdeal.nD Cert.KernelIdeal.τ).loc Cert.KernelIdeal.main_arg3) : Cert.KernelIdeal.S1x16384x512.Idx → EReal) (ix3 0 n f)) (fun n k => (m ((c.tc : Thread Cert.KernelIdeal.nD Cert.KernelIdeal.τ).loc Cert.KernelIdeal.main_arg4) : Cert.KernelIdeal.S1x16384x1024.Idx → EReal) (ix3 0 n k))
        (fun f d => (m ((c.tc : Thread Cert.KernelIdeal.nD Cert.KernelIdeal.τ).loc Cert.KernelIdeal.main_arg5) : Cert.KernelIdeal.S512x512.Idx → EReal) (ix2 f d)) (fun f d => (m ((c.tc : Thread Cert.KernelIdeal.nD Cert.KernelIdeal.τ).loc Cert.KernelIdeal.main_arg7) : Cert.KernelIdeal.S512x512.Idx → EReal) (ix2 f d)) (fun d => (m ((c.tc : Thread Cert.KernelIdeal.nD Cert.KernelIdeal.τ).loc Cert.KernelIdeal.main_arg6) : Cert.KernelIdeal.S512.Idx → EReal) (ix1 d)) (fun d => (m ((c.tc : Thread Cert.KernelIdeal.nD Cert.KernelIdeal.τ).loc Cert.KernelIdeal.main_arg8) : Cert.KernelIdeal.S512.Idx → EReal) (ix1 d))
        (fun d => (m ((c.tc : Thread Cert.KernelIdeal.nD Cert.KernelIdeal.τ).loc Cert.KernelIdeal.main_arg9) : Cert.KernelIdeal.S512x1.Idx → EReal) (ix2 d 0)) ((m ((c.tc : Thread Cert.KernelIdeal.nD Cert.KernelIdeal.τ).loc Cert.KernelIdeal.main_arg10) : Cert.KernelIdeal.S1.Idx → EReal) (ix1 0)) h
      = Cert.Spec.outR (fun n f => (m ((c.tc : Thread Cert.KernelIdeal.nD Cert.KernelIdeal.τ).loc Cert.KernelIdeal.main_arg2) : Cert.KernelIdeal.S1x16384x512.Idx → EReal) (ix3 0 n f)) (fun n f => (m ((c.tc : Thread Cert.KernelIdeal.nD Cert.KernelIdeal.τ).loc Cert.KernelIdeal.main_arg3) : Cert.KernelIdeal.S1x16384x512.Idx → EReal) (ix3 0 n f)) (fun n k => (m ((c.tc : Thread Cert.KernelIdeal.nD Cert.KernelIdeal.τ).loc Cert.KernelIdeal.main_arg4) : Cert.KernelIdeal.S1x16384x1024.Idx → EReal) (ix3 0 n k))
        (fun f d => (m ((c.tc : Thread Cert.KernelIdeal.nD Cert.KernelIdeal.τ).loc Cert.KernelIdeal.main_arg5) : Cert.KernelIdeal.S512x512.Idx → EReal) (ix2 f d)) (fun f d => (m ((c.tc : Thread Cert.KernelIdeal.nD Cert.KernelIdeal.τ).loc Cert.KernelIdeal.main_arg7) : Cert.KernelIdeal.S512x512.Idx → EReal) (ix2 f d)) (fun d => (m ((c.tc : Thread Cert.KernelIdeal.nD Cert.KernelIdeal.τ).loc Cert.KernelIdeal.main_arg6) : Cert.KernelIdeal.S512.Idx → EReal) (ix1 d)) (fun d => (m ((c.tc : Thread Cert.KernelIdeal.nD Cert.KernelIdeal.τ).loc Cert.KernelIdeal.main_arg8) : Cert.KernelIdeal.S512.Idx → EReal) (ix1 d))
        (fun d => (m ((c.tc : Thread Cert.KernelIdeal.nD Cert.KernelIdeal.τ).loc Cert.KernelIdeal.main_arg9) : Cert.KernelIdeal.S512x1.Idx → EReal) (ix2 d 0)) ((m ((c.tc : Thread Cert.KernelIdeal.nD Cert.KernelIdeal.τ).loc Cert.KernelIdeal.main_arg10) : Cert.KernelIdeal.S1.Idx → EReal) (ix1 0)) h := by
  obtain ⟨h0, h1, h2, h3, h4, h5, h6, h7, h8, h9, h10, hcs⟩ := Cert.PreFacts.facts _ _ _ _ _ _ _ _ _ _ _ (hpre c)
  exact ⟨Cert.Spec.outK_eq_outR _ _ _ _ _ _ _ _ _ (fun n f => h0 (ix3 0 n f)) (fun n f => h1 (ix3 0 n f))
      (fun n k => h4 (ix3 0 n k)) (fun f d => h5 (ix2 f d)) (fun f d => h7 (ix2 f d)) (fun d => h6 (ix1 d))
      (fun d => h8 (ix1 d)) (fun d => h9 (ix2 d 0)) (h10 (ix1 0)) h (hcs h),
    Cert.Spec.outK_eq_outR _ _ _ _ _ _ _ _ _ (fun n f => h2 (ix3 0 n f)) (fun n f => h3 (ix3 0 n f))
      (fun n k => h4 (ix3 0 n k)) (fun f d => h5 (ix2 f d)) (fun f d => h7 (ix2 f d)) (fun d => h6 (ix1 d))
      (fun d => h8 (ix1 d)) (fun d => h9 (ix2 d 0)) (h10 (ix1 0)) h (hcs h)⟩

/-- The reference's first result over a memory that agrees with the kernel's on the arguments is the kernel's
    first result array. -/
theorem ref_first (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (Cert.ReferenceIdeal.Read.val_main_v28 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) : Cert.KernelIdeal.S1024x1.Idx → EReal)
      = (Pipeline.afterTail₀ Cert.KernelIdeal.cfgs (Cert.KernelIdeal.Hand.dats m) 0 (Cert.KernelIdeal.Gen.V0 m) [Cert.KernelIdeal.Gen.hostOps1] c Cert.KernelIdeal.main_v0_0 : Cert.KernelIdeal.S1024x1.Idx → EReal) := by
  obtain ⟨e0, e1, e2, e3, e4, e5, e6, e7, e8, e9, e10⟩ := hag
  rw [e0, e1, e4, e5, e6, e7, e8, e9, e10]
  funext i
  obtain ⟨h, rfl⟩ := idx_col i
  exact (Cert.ReferenceIdeal.RefValue.v28_at _ _ _ _ _ _ _ _ _ h).trans
    ((spec_agree m hpre c h).1.symm.trans (Cert.KernelIdeal.Final.main_v0_0_value m c h).symm)

/-- The same for the second result. -/
theorem ref_second (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (Cert.ReferenceIdeal.Read.val_main_v52 (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) : Cert.KernelIdeal.S1024x1.Idx → EReal)
      = (Pipeline.afterTail₀ Cert.KernelIdeal.cfgs (Cert.KernelIdeal.Hand.dats m) 0 (Cert.KernelIdeal.Gen.V0 m) [Cert.KernelIdeal.Gen.hostOps1] c Cert.KernelIdeal.main_v0_1 : Cert.KernelIdeal.S1024x1.Idx → EReal) := by
  obtain ⟨e0, e1, e2, e3, e4, e5, e6, e7, e8, e9, e10⟩ := hag
  rw [e2, e3, e4, e5, e6, e7, e8, e9, e10]
  funext i
  obtain ⟨h, rfl⟩ := idx_col i
  exact (Cert.ReferenceIdeal.RefValue.v52_at _ _ _ _ _ _ _ _ _ h).trans
    ((spec_agree m hpre c h).2.symm.trans (Cert.KernelIdeal.Final.main_v0_1_value m c h).symm)

/-- THE ALGEBRAIC CONJUNCT, from the kernel's run to its two result arrays and unchanged arguments. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v0_0) = Pipeline.afterTail₀ Cert.KernelIdeal.cfgs (Cert.KernelIdeal.Hand.dats m) 0 (Cert.KernelIdeal.Gen.V0 m) [Cert.KernelIdeal.Gen.hostOps1] c Cert.KernelIdeal.main_v0_0
        ∧ r.2.mem ((c.tc : Thread Cert.KernelIdeal.nD Cert.KernelIdeal.τ).loc Cert.KernelIdeal.main_v0_1) = Pipeline.afterTail₀ Cert.KernelIdeal.cfgs (Cert.KernelIdeal.Hand.dats m) 0 (Cert.KernelIdeal.Gen.V0 m) [Cert.KernelIdeal.Gen.hostOps1] c Cert.KernelIdeal.main_v0_1
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => Pipeline.afterTail₀ Cert.KernelIdeal.cfgs (Cert.KernelIdeal.Hand.dats m) 0 (Cert.KernelIdeal.Gen.V0 m) [Cert.KernelIdeal.Gen.hostOps1] c Cert.KernelIdeal.main_v0_0,
    fun c => Pipeline.afterTail₀ Cert.KernelIdeal.cfgs (Cert.KernelIdeal.Hand.dats m) 0 (Cert.KernelIdeal.Gen.V0 m) [Cert.KernelIdeal.Gen.hostOps1] c Cert.KernelIdeal.main_v0_1, hrun m ρ, ?_⟩
  exact (θ_run Cert.ReferenceIdeal.defs _ _).mono (fun _ h c =>
      ⟨(h c).1.trans ((Cert.ReferenceIdeal.Read.val_main_v28_eq (F := Ideal) _ _ _ _ _ _ _ _ _).trans (ref_first m m' hpre c (hagree c))),
        (h c).2.1.trans ((Cert.ReferenceIdeal.Read.val_main_v52_eq (F := Ideal) _ _ _ _ _ _ _ _ _).trans (ref_second m m' hpre c (hagree c))),
        (h c).2.2⟩)
    (Cert.ReferenceIdeal.Value.run (F := Ideal) m' ρ')

/-- The reference program runs and leaves its arguments unchanged. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2.2) (Cert.ReferenceIdeal.Value.run (F := Ideal) m ρ)

end Cert.Proof.Alg

end
-- ==== Proof.lean ====
/-
  The claim: the word-level kernel, its idealization and the idealized reference each run to the end,
  fault nowhere and leave their arguments unchanged; and, on finite inputs whose mask has no zero column
  sum, the idealized kernel and the idealized reference end with equal results on the extended reals:
  both are, per column h of the mask, the logistic function of the mask-weighted mean of the rows' scores
  plus the scoring bias, the kernel summing the scores first and dividing once, the reference dividing
  the mask first — one value in the field of reals.
-/
import proofs.«129476_g5806795784444_cont_9to1c4b_204_10_alg».proof.Defs
import proofs.«129476_g5806795784444_cont_9to1c4b_204_10_alg».proof.Proof.Gen.Kernel
import proofs.«129476_g5806795784444_cont_9to1c4b_204_10_alg».proof.Proof.Gen.KernelIdeal
import proofs.«129476_g5806795784444_cont_9to1c4b_204_10_alg».proof.Proof.Gen.ReferenceIdeal
import proofs.«129476_g5806795784444_cont_9to1c4b_204_10_alg».proof.Proof.Gen.Pre_finite_inputs
import proofs.«129476_g5806795784444_cont_9to1c4b_204_10_alg».proof.Proof.KbBody
import proofs.«129476_g5806795784444_cont_9to1c4b_204_10_alg».proof.Proof.KiBody
import proofs.«129476_g5806795784444_cont_9to1c4b_204_10_alg».proof.Proof.KiAlg
import Idealize.ShloMosaic.Adequacy
import Idealize.ShloMosaic.Init

noncomputable section

namespace Cert.Proof

open Idealize.ShloMosaic Idealize.SL.Sem

/-- The word-level kernel's frame, from its run point by point. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized kernel's frame, the same run read at the exact instance. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- No rewrite separates the kernel from its idealization. -/
theorem preserves : Cert.preserves_Kernel_KernelIdeal := trivial

/-- The two idealized programs end with equal results: the kernel's run names its results, and those are the
    reference's, column by column. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  Cert.Proof.Alg.algebraic_of fun m ρ => Cert.KernelIdeal.Hand.run_value (F := Ideal) m ρ

theorem claim : Cert.Claim :=
  ⟨Cert.Kernel.Gen.facts, Cert.KernelIdeal.Gen.facts, Cert.ReferenceIdeal.Gen.facts, Cert.Pre_finite_inputs.Gen.facts,
    frame_k, frame_ki, Cert.Proof.Alg.frame_ri, preserves, algebraic⟩

end Cert.Proof

end
